-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x64 : Shape := ⟨3, ![1, 50000, 64]⟩
abbrev S1x800000x64 : Shape := ⟨3, ![1, 800000, 64]⟩
abbrev S2x800000 : Shape := ⟨2, ![2, 800000]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S_ : Shape := ⟨0, ![]⟩

class Facts : Prop where
  bcast_S_S1x50000x64 : S_.BroadcastsInDim S1x50000x64 (![] : Fin 0 → Fin S1x50000x64.rank)
  reducesTo_S1x50000x64_S_d0_1_2 : S1x50000x64.ReducesTo [0, 1, 2] S_
  h_S_ : 0 < S_.numel
  bcast_S_S1x800000x64 : S_.BroadcastsInDim S1x800000x64 (![] : Fin 0 → Fin S1x800000x64.rank)
  reducesTo_S1x800000x64_S_d0_1_2 : S1x800000x64.ReducesTo [0, 1, 2] S_
  bcast_S_S2x192x64 : S_.BroadcastsInDim S2x192x64 (![] : Fin 0 → Fin S2x192x64.rank)
  reducesTo_S2x192x64_S_d0_1_2 : S2x192x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_

variable [Facts]

def fn_part2 {F : FTy → Type} [FloatOps F] (main_arg8 : FVec F S2x64 .f32) (main_arg9 : FVec F S2x64x64 .f32) (main_arg10 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg9
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg5 : FVec F S2x64x64 .f32) (main_arg6 : FVec F S2x64 .f32) (main_arg7 : FVec F S2x128x64 .f32) (main_arg8 : FVec F S2x64 .f32) (main_arg9 : FVec F S2x64x64 .f32) (main_arg10 : FVec F S2x64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64x64 .f32 := Host.absf main_arg5
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg6
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x128x64 .f32 := Host.absf main_arg7
  let main_cst_10 : FVec F S_ .f32 := constant S_ .f32 0x7F800000#32
  let main_v30 : FVec F S2x128x64 .f32 := broadcastInDim S2x128x64 ![] bcast_S_S2x128x64 main_cst_10
  let main_v31 : IVec S2x128x64 1 := cmpf .olt main_v29 main_v30
  let main_c_11 : IVec S_ 1 := constantI S_ 1 1#1
  let main_v32 : IVec S_ 1 := (fun x v => Host.reduce IntOp.andi x v reducesTo_S2x128x64_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S1x50000x64 .f32) (main_arg1 : FVec F S1x800000x64 .f32) (main_arg2 : IVec S2x800000 32) (main_arg3 : FVec F S2x192x64 .f32) (main_arg4 : FVec F S2x64 .f32) (main_arg5 : FVec F S2x64x64 .f32) (main_arg6 : FVec F S2x64 .f32) (main_arg7 : FVec F S2x128x64 .f32) (main_arg8 : FVec F S2x64 .f32) (main_arg9 : FVec F S2x64x64 .f32) (main_arg10 : FVec F S2x64 .f32) : IVec S_ 1 :=
  let main_v0 : FVec F S1x50000x64 .f32 := Host.absf main_arg0
  let main_cst : FVec F S_ .f32 := constant S_ .f32 0x7F800000#32
  let main_v1 : FVec F S1x50000x64 .f32 := broadcastInDim S1x50000x64 ![] bcast_S_S1x50000x64 main_cst
  let main_v2 : IVec S1x50000x64 1 := cmpf .olt main_v0 main_v1
  let main_c : IVec S_ 1 := constantI S_ 1 1#1
  let main_v3 : IVec S_ 1 := (fun x v => Host.reduce IntOp.andi x v reducesTo_S1x50000x64_S_d0_1_2 h_S_) main_v2 main_c
  let main_v4 : FVec F S1x800000x64 .f32 := Host.absf main_arg1
  let main_cst_0 : FVec F S_ .f32 := constant S_ .f32 0x7F800000#32
  let main_v5 : FVec F S1x800000x64 .f32 := broadcastInDim S1x800000x64 ![] bcast_S_S1x800000x64 main_cst_0
  let main_v6 : IVec S1x800000x64 1 := cmpf .olt main_v4 main_v5
  let main_c_1 : IVec S_ 1 := constantI S_ 1 1#1
  let main_v7 : IVec S_ 1 := (fun x v => Host.reduce IntOp.andi x v reducesTo_S1x800000x64_S_d0_1_2 h_S_) main_v6 main_c_1
  let main_v8 : IVec S_ 1 := andi main_v3 main_v7
  let main_v9 : FVec F S2x192x64 .f32 := Host.absf main_arg3
  let main_cst_2 : FVec F S_ .f32 := constant S_ .f32 0x7F800000#32
  let main_v10 : FVec F S2x192x64 .f32 := broadcastInDim S2x192x64 ![] bcast_S_S2x192x64 main_cst_2
  let main_v11 : IVec S2x192x64 1 := cmpf .olt main_v9 main_v10
  let main_c_3 : IVec S_ 1 := constantI S_ 1 1#1
  let main_v12 : IVec S_ 1 := (fun x v => Host.reduce IntOp.andi x v reducesTo_S2x192x64_S_d0_1_2 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_arg9 main_arg10 main_v13 main_v16
-- ==== Kernel.lean ====
abbrev S1x50000x64 : Shape := ⟨3, ![1, 50000, 64]⟩
abbrev S1x800000x64 : Shape := ⟨3, ![1, 800000, 64]⟩
abbrev S2x800000 : Shape := ⟨2, ![2, 800000]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S1x800000 : Shape := ⟨2, ![1, 800000]⟩
abbrev S800000 : Shape := ⟨1, ![800000]⟩
abbrev S50000x64 : Shape := ⟨2, ![50000, 64]⟩
abbrev S800000x64 : Shape := ⟨2, ![800000, 64]⟩
abbrev S_ : Shape := ⟨0, ![]⟩
abbrev S800000x1 : Shape := ⟨2, ![800000, 1]⟩
abbrev S800000x192 : Shape := ⟨2, ![800000, 192]⟩
abbrev S1x192x64 : Shape := ⟨3, ![1, 192, 64]⟩
abbrev S192x64 : Shape := ⟨2, ![192, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x192 : Shape := ⟨2, ![10000, 192]⟩
abbrev S10000x64 : Shape := ⟨2, ![10000, 64]⟩
abbrev S50000x128 : Shape := ⟨2, ![50000, 128]⟩
abbrev S1x128x64 : Shape := ⟨3, ![1, 128, 64]⟩
abbrev S128x64 : Shape := ⟨2, ![128, 64]⟩
abbrev S10000x128 : Shape := ⟨2, ![10000, 128]⟩

abbrev nBuf : Space → Nat
  | .hbm => 137
  | .vmem => 32
  | .smem => 0
  | _ => 0

abbrev hbmTy0_0 (i : Nat) : BufTy := match i % 128 with
  | 0 => ⟨S1x50000x64, .f32⟩
  | 1 => ⟨S1x800000x64, .f32⟩
  | 2 => ⟨S2x800000, .i32⟩
  | 3 => ⟨S2x192x64, .f32⟩
  | 4 => ⟨S2x64, .f32⟩
  | 5 => ⟨S2x64x64, .f32⟩
  | 6 => ⟨S2x64, .f32⟩
  | 7 => ⟨S2x128x64, .f32⟩
  | 8 => ⟨S2x64, .f32⟩
  | 9 => ⟨S2x64x64, .f32⟩
  | 10 => ⟨S2x64, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x192, .f32⟩
  | 36 => ⟨S800000x192, .bf16⟩
  | 37 => ⟨S1x192x64, .f32⟩
  | 38 => ⟨S192x64, .f32⟩
  | 39 => ⟨S192x64, .bf16⟩
  | 40 => ⟨S1x64x64, .f32⟩
  | 41 => ⟨S64x64, .f32⟩
  | 42 => ⟨S64x64, .bf16⟩
  | 43 => ⟨S1x64, .f32⟩
  | 44 => ⟨S64, .f32⟩
  | 45 => ⟨S1x64, .f32⟩
  | 46 => ⟨S64, .f32⟩
  | 47 => ⟨S1x64, .f32⟩
  | 48 => ⟨S1x64, .f32⟩
  | 49 => ⟨S800000x64, .f32⟩
  | 50 => ⟨S_, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S50000x64, .f32⟩
  | 61 => ⟨S50000x128, .f32⟩
  | 62 => ⟨S50000x128, .bf16⟩
  | 63 => ⟨S1x128x64, .f32⟩
  | 64 => ⟨S128x64, .f32⟩
  | 65 => ⟨S128x64, .bf16⟩
  | 66 => ⟨S1x64x64, .f32⟩
  | 67 => ⟨S64x64, .f32⟩
  | 68 => ⟨S64x64, .bf16⟩
  | 69 => ⟨S1x64, .f32⟩
  | 70 => ⟨S64, .f32⟩
  | 71 => ⟨S1x64, .f32⟩
  | 72 => ⟨S64, .f32⟩
  | 73 => ⟨S1x64, .f32⟩
  | 74 => ⟨S1x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S800000x192, .f32⟩
  | 95 => ⟨S800000x192, .bf16⟩
  | 96 => ⟨S1x192x64, .f32⟩
  | 97 => ⟨S192x64, .f32⟩
  | 98 => ⟨S192x64, .bf16⟩
  | 99 => ⟨S1x64x64, .f32⟩
  | 100 => ⟨S64x64, .f32⟩
  | 101 => ⟨S64x64, .bf16⟩
  | 102 => ⟨S1x64, .f32⟩
  | 103 => ⟨S64, .f32⟩
  | 104 => ⟨S1x64, .f32⟩
  | 105 => ⟨S64, .f32⟩
  | 106 => ⟨S1x64, .f32⟩
  | 107 => ⟨S1x64, .f32⟩
  | 108 => ⟨S800000x64, .f32⟩
  | 109 => ⟨S_, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S50000x64, .f32⟩
  | 120 => ⟨S50000x128, .f32⟩
  | 121 => ⟨S50000x128, .bf16⟩
  | 122 => ⟨S1x128x64, .f32⟩
  | 123 => ⟨S128x64, .f32⟩
  | 124 => ⟨S128x64, .bf16⟩
  | 125 => ⟨S1x64x64, .f32⟩
  | 126 => ⟨S64x64, .f32⟩
  | 127 => ⟨S64x64, .bf16⟩
  | _ => ⟨S1x50000x64, .f32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S1x64, .f32⟩
  | 6 => ⟨S50000x64, .f32⟩
  | 7 => ⟨S1x50000x64, .f32⟩
  | 8 => ⟨S1x800000x64, .f32⟩
  | _ => ⟨S1x50000x64, .f32⟩

abbrev hbmTy (i : Nat) : BufTy := match i / 128 with
  | 0 => hbmTy0_0 i
  | 1 => hbmTy0_1 i
  | _ => ⟨S1x50000x64, .f32⟩

abbrev bufTy : (tb : Table) → Fin (tcTables nBuf tb) → BufTy
  | .hbm, ⟨i, _⟩ => hbmTy i
  | .local _ .vmem, ⟨0, _⟩ => ⟨S10000x192, .bf16⟩
  | .local _ .vmem, ⟨1, _⟩ => ⟨S10000x192, .bf16⟩
  | .local _ .vmem, ⟨2, _⟩ => ⟨S192x64, .bf16⟩
  | .local _ .vmem, ⟨3, _⟩ => ⟨S1x64, .f32⟩
  | .local _ .vmem, ⟨4, _⟩ => ⟨S64x64, .bf16⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x128, .bf16⟩
  | .local _ .vmem, ⟨9, _⟩ => ⟨S10000x128, .bf16⟩
  | .local _ .vmem, ⟨10, _⟩ => ⟨S128x64, .bf16⟩
  | .local _ .vmem, ⟨11, _⟩ => ⟨S1x64, .f32⟩
  | .local _ .vmem, ⟨12, _⟩ => ⟨S64x64, .bf16⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x192, .bf16⟩
  | .local _ .vmem, ⟨17, _⟩ => ⟨S10000x192, .bf16⟩
  | .local _ .vmem, ⟨18, _⟩ => ⟨S192x64, .bf16⟩
  | .local _ .vmem, ⟨19, _⟩ => ⟨S1x64, .f32⟩
  | .local _ .vmem, ⟨20, _⟩ => ⟨S64x64, .bf16⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x128, .bf16⟩
  | .local _ .vmem, ⟨25, _⟩ => ⟨S10000x128, .bf16⟩
  | .local _ .vmem, ⟨26, _⟩ => ⟨S128x64, .bf16⟩
  | .local _ .vmem, ⟨27, _⟩ => ⟨S1x64, .f32⟩
  | .local _ .vmem, ⟨28, _⟩ => ⟨S64x64, .bf16⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S1x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_5 : Ref sig .tc := ⟨.hbm, 76, rfl⟩
abbrev main_v58 : Ref sig .tc := ⟨.hbm, 77, rfl⟩
abbrev main_v59 : Ref sig .tc := ⟨.hbm, 78, rfl⟩
abbrev main_c_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_7 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_9 : Ref sig .tc := ⟨.hbm, 109, rfl⟩
abbrev main_v87 : Ref sig .tc := ⟨.hbm, 110, rfl⟩
abbrev main_c_10 : Ref sig .tc := ⟨.hbm, 111, rfl⟩
abbrev main_v88 : Ref sig .tc := ⟨.hbm, 112, rfl⟩
abbrev main_v89 : Ref sig .tc := ⟨.hbm, 113, rfl⟩
abbrev main_c_11 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S1x50000x64_S50000x64 : S1x50000x64.ShapeCasts S50000x64
  shapeCasts_S1x800000x64_S800000x64 : S1x800000x64.ShapeCasts S800000x64
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bitsLt_bf16_f32 : FTy.bits .bf16 < FTy.bits .f32
  slices_S2x192x64_S1x192x64_0_0_0 : S2x192x64.Slices ![0, 0, 0] S1x192x64
  shapeCasts_S1x192x64_S192x64 : S1x192x64.ShapeCasts S192x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S64_S1x64 : S64.ShapeCasts S1x64
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  concatenates_S50000x64_S50000x64_S50000x128_d1 : Shape.Concatenates [S50000x64, S50000x64] S50000x128 1
  slices_S2x128x64_S1x128x64_0_0_0 : S2x128x64.Slices ![0, 0, 0] S1x128x64
  shapeCasts_S1x128x64_S128x64 : S1x128x64.ShapeCasts S128x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S2x192x64_S1x192x64_1_0_0 : S2x192x64.Slices ![1, 0, 0] S1x192x64
  slices_S2x64x64_S1x64x64_1_0_0 : S2x64x64.Slices ![1, 0, 0] S1x64x64
  slices_S2x64_S1x64_1_0 : S2x64.Slices ![1, 0] S1x64
  slices_S2x128x64_S1x128x64_1_0_0 : S2x128x64.Slices ![1, 0, 0] S1x128x64
  bcast_S50000x64_S1x50000x64_1_2 : S50000x64.BroadcastsInDim S1x50000x64 (![1, 2] : Fin 2 → Fin S1x50000x64.rank)
  bcast_S800000x64_S1x800000x64_1_2 : S800000x64.BroadcastsInDim S1x800000x64 (![1, 2] : Fin 2 → Fin S1x800000x64.rank)
  gather_S50000x64_S800000x1_S800000x64_1_0_n_n_0_1_164_wf : GatherDims.WF S50000x64 S800000x1 S800000x64 [1] [0] [] [0] [] 1 ![1, 64]
  dot_S10000x192_S192x64_S10000x64_1_0_0_1_n_n_wf : DotDims.WF S10000x192 S192x64 S10000x64 [1] [0] [0] [1] [] []
  dot_S10000x64_S64x64_S10000x64_1_0_0_1_n_n_wf : DotDims.WF S10000x64 S64x64 S10000x64 [1] [0] [0] [1] [] []
  scatter_S50000x64_S800000x1_S800000x64_1_0_0_1_wf : ScatterDims.WF S50000x64 S800000x1 S800000x64 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x192.size a ≤ S800000x192.size a
  hwx0_0 : ∀ i : grid0.Coords, EltTy.bits .bf16 = 32 ∨ (Rect.block (s := S800000x192) S10000x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .bf16 = 32 ∨ (Rect.block (s := S192x64) S192x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S800000x64.size a
  hwx0_5 : ∀ i : grid0.Coords, EltTy.bits .f32 = 32 ∨ (Rect.block (s := S800000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x192.size a ≤ S800000x192.size a
  hwx2_0 : ∀ i : grid2.Coords, EltTy.bits .bf16 = 32 ∨ (Rect.block (s := S800000x192) S10000x192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x64.size a ≤ S192x64.size a
  hwx2_1 : ∀ i : grid2.Coords, EltTy.bits .bf16 = 32 ∨ (Rect.block (s := S192x64) S192x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S800000x64.size a
  hwx2_5 : ∀ i : grid2.Coords, EltTy.bits .f32 = 32 ∨ (Rect.block (s := S800000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .bf16 = 32 ∨ (Rect.block (s := S50000x128) S10000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .bf16 = 32 ∨ (Rect.block (s := S128x64) S128x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v21) S10000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v73) S10000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v96) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v109) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1x50000x64 : Shape := ⟨3, ![1, 50000, 64]⟩
abbrev S1x800000x64 : Shape := ⟨3, ![1, 800000, 64]⟩
abbrev S2x800000 : Shape := ⟨2, ![2, 800000]⟩
abbrev S2x192x64 : Shape := ⟨3, ![2, 192, 64]⟩
abbrev S2x64 : Shape := ⟨2, ![2, 64]⟩
abbrev S2x64x64 : Shape := ⟨3, ![2, 64, 64]⟩
abbrev S2x128x64 : Shape := ⟨3, ![2, 128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x800000x192 : Shape := ⟨3, ![1, 800000, 192]⟩
abbrev S1x192x64 : Shape := ⟨3, ![1, 192, 64]⟩
abbrev S192x64 : Shape := ⟨2, ![192, 64]⟩
abbrev S1x64 : Shape := ⟨2, ![1, 64]⟩
abbrev S64 : Shape := ⟨1, ![64]⟩
abbrev S1x1x64 : Shape := ⟨3, ![1, 1, 64]⟩
abbrev S1x64x64 : Shape := ⟨3, ![1, 64, 64]⟩
abbrev S64x64 : Shape := ⟨2, ![64, 64]⟩
abbrev S1x50000x128 : Shape := ⟨3, ![1, 50000, 128]⟩
abbrev S1x128x64 : Shape := ⟨3, ![1, 128, 64]⟩
abbrev S128x64 : Shape := ⟨2, ![128, 64]⟩

abbrev nBuf : Space → Nat
  | .hbm => 177
  | .vmem => 0
  | .smem => 0
  | _ => 0

abbrev hbmTy0_0 (i : Nat) : BufTy := match i % 128 with
  | 0 => ⟨S1x50000x64, .f32⟩
  | 1 => ⟨S1x800000x64, .f32⟩
  | 2 => ⟨S2x800000, .i32⟩
  | 3 => ⟨S2x192x64, .f32⟩
  | 4 => ⟨S2x64, .f32⟩
  | 5 => ⟨S2x64x64, .f32⟩
  | 6 => ⟨S2x64, .f32⟩
  | 7 => ⟨S2x128x64, .f32⟩
  | 8 => ⟨S2x64, .f32⟩
  | 9 => ⟨S2x64x64, .f32⟩
  | 10 => ⟨S2x64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1x800000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1x800000x64, .f32⟩
  | 33 => ⟨S1x800000x192, .f32⟩
  | 34 => ⟨S1x192x64, .f32⟩
  | 35 => ⟨S192x64, .f32⟩
  | 36 => ⟨S1x800000x64, .f32⟩
  | 37 => ⟨S1x64, .f32⟩
  | 38 => ⟨S64, .f32⟩
  | 39 => ⟨S1x1x64, .f32⟩
  | 40 => ⟨S1x800000x64, .f32⟩
  | 41 => ⟨S1x800000x64, .f32⟩
  | 42 => ⟨S1x800000x64, .f32⟩
  | 43 => ⟨S1x800000x64, .f32⟩
  | 44 => ⟨S_, .f32⟩
  | 45 => ⟨S1x800000x64, .f32⟩
  | 46 => ⟨S1x800000x64, .f32⟩
  | 47 => ⟨S_, .f32⟩
  | 48 => ⟨S1x800000x64, .f32⟩
  | 49 => ⟨S1x800000x64, .f32⟩
  | 50 => ⟨S1x800000x64, .f32⟩
  | 51 => ⟨S1x64x64, .f32⟩
  | 52 => ⟨S64x64, .f32⟩
  | 53 => ⟨S1x800000x64, .f32⟩
  | 54 => ⟨S1x64, .f32⟩
  | 55 => ⟨S64, .f32⟩
  | 56 => ⟨S1x1x64, .f32⟩
  | 57 => ⟨S1x800000x64, .f32⟩
  | 58 => ⟨S1x800000x64, .f32⟩
  | 59 => ⟨S_, .f32⟩
  | 60 => ⟨S1x50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1x50000x64, .f32⟩
  | 70 => ⟨S1x50000x128, .f32⟩
  | 71 => ⟨S1x128x64, .f32⟩
  | 72 => ⟨S128x64, .f32⟩
  | 73 => ⟨S1x50000x64, .f32⟩
  | 74 => ⟨S1x64, .f32⟩
  | 75 => ⟨S64, .f32⟩
  | 76 => ⟨S1x1x64, .f32⟩
  | 77 => ⟨S1x50000x64, .f32⟩
  | 78 => ⟨S1x50000x64, .f32⟩
  | 79 => ⟨S1x50000x64, .f32⟩
  | 80 => ⟨S1x50000x64, .f32⟩
  | 81 => ⟨S_, .f32⟩
  | 82 => ⟨S1x50000x64, .f32⟩
  | 83 => ⟨S1x50000x64, .f32⟩
  | 84 => ⟨S_, .f32⟩
  | 85 => ⟨S1x50000x64, .f32⟩
  | 86 => ⟨S1x50000x64, .f32⟩
  | 87 => ⟨S1x50000x64, .f32⟩
  | 88 => ⟨S1x64x64, .f32⟩
  | 89 => ⟨S64x64, .f32⟩
  | 90 => ⟨S1x50000x64, .f32⟩
  | 91 => ⟨S1x64, .f32⟩
  | 92 => ⟨S64, .f32⟩
  | 93 => ⟨S1x1x64, .f32⟩
  | 94 => ⟨S1x50000x64, .f32⟩
  | 95 => ⟨S1x50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1x800000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S1x800000x64, .f32⟩
  | 114 => ⟨S1x800000x192, .f32⟩
  | 115 => ⟨S1x192x64, .f32⟩
  | 116 => ⟨S192x64, .f32⟩
  | 117 => ⟨S1x800000x64, .f32⟩
  | 118 => ⟨S1x64, .f32⟩
  | 119 => ⟨S64, .f32⟩
  | 120 => ⟨S1x1x64, .f32⟩
  | 121 => ⟨S1x800000x64, .f32⟩
  | 122 => ⟨S1x800000x64, .f32⟩
  | 123 => ⟨S1x800000x64, .f32⟩
  | 124 => ⟨S1x800000x64, .f32⟩
  | 125 => ⟨S_, .f32⟩
  | 126 => ⟨S1x800000x64, .f32⟩
  | 127 => ⟨S1x800000x64, .f32⟩
  | _ => ⟨S1x50000x64, .f32⟩

abbrev hbmTy0_1 (i : Nat) : BufTy := match i % 128 with
  | 0 => ⟨S_, .f32⟩
  | 1 => ⟨S1x800000x64, .f32⟩
  | 2 => ⟨S1x800000x64, .f32⟩
  | 3 => ⟨S1x800000x64, .f32⟩
  | 4 => ⟨S1x64x64, .f32⟩
  | 5 => ⟨S64x64, .f32⟩
  | 6 => ⟨S1x800000x64, .f32⟩
  | 7 => ⟨S1x64, .f32⟩
  | 8 => ⟨S64, .f32⟩
  | 9 => ⟨S1x1x64, .f32⟩
  | 10 => ⟨S1x800000x64, .f32⟩
  | 11 => ⟨S1x800000x64, .f32⟩
  | 12 => ⟨S_, .f32⟩
  | 13 => ⟨S1x50000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S1x50000x64, .f32⟩
  | 23 => ⟨S1x50000x128, .f32⟩
  | 24 => ⟨S1x128x64, .f32⟩
  | 25 => ⟨S128x64, .f32⟩
  | 26 => ⟨S1x50000x64, .f32⟩
  | 27 => ⟨S1x64, .f32⟩
  | 28 => ⟨S64, .f32⟩
  | 29 => ⟨S1x1x64, .f32⟩
  | 30 => ⟨S1x50000x64, .f32⟩
  | 31 => ⟨S1x50000x64, .f32⟩
  | 32 => ⟨S1x50000x64, .f32⟩
  | 33 => ⟨S1x50000x64, .f32⟩
  | 34 => ⟨S_, .f32⟩
  | 35 => ⟨S1x50000x64, .f32⟩
  | 36 => ⟨S1x50000x64, .f32⟩
  | 37 => ⟨S_, .f32⟩
  | 38 => ⟨S1x50000x64, .f32⟩
  | 39 => ⟨S1x50000x64, .f32⟩
  | 40 => ⟨S1x50000x64, .f32⟩
  | 41 => ⟨S1x64x64, .f32⟩
  | 42 => ⟨S64x64, .f32⟩
  | 43 => ⟨S1x50000x64, .f32⟩
  | 44 => ⟨S1x64, .f32⟩
  | 45 => ⟨S64, .f32⟩
  | 46 => ⟨S1x1x64, .f32⟩
  | 47 => ⟨S1x50000x64, .f32⟩
  | 48 => ⟨S1x50000x64, .f32⟩
  | _ => ⟨S1x50000x64, .f32⟩

abbrev hbmTy (i : Nat) : BufTy := match i / 128 with
  | 0 => hbmTy0_0 i
  | 1 => hbmTy0_1 i
  | _ => ⟨S1x50000x64, .f32⟩

abbrev bufTy : (tb : Table) → Fin (tcTables nBuf tb) → BufTy
  | .hbm, ⟨i, _⟩ => hbmTy i
  | _, _ => ⟨S1x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_v36 : Ref sig .tc := ⟨.hbm, 60, rfl⟩
abbrev main_c_3 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_5 : Ref sig .tc := ⟨.hbm, 96, rfl⟩
abbrev main_v62 : Ref sig .tc := ⟨.hbm, 97, rfl⟩
abbrev main_v63 : Ref sig .tc := ⟨.hbm, 98, rfl⟩
abbrev main_c_6 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_7 : Ref sig .tc := ⟨.hbm, 105, rfl⟩
abbrev main_v69 : Ref sig .tc := ⟨.hbm, 106, rfl⟩
abbrev main_v70 : Ref sig .tc := ⟨.hbm, 107, rfl⟩
abbrev main_c_8 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_9 : Ref sig .tc := ⟨.hbm, 140, rfl⟩
abbrev main_v94 : Ref sig .tc := ⟨.hbm, 141, rfl⟩
abbrev main_c_10 : Ref sig .tc := ⟨.hbm, 142, rfl⟩
abbrev main_v95 : Ref sig .tc := ⟨.hbm, 143, rfl⟩
abbrev main_v96 : Ref sig .tc := ⟨.hbm, 144, rfl⟩
abbrev main_c_11 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call3_v0 : Ref sig .tc := ⟨.hbm, 160, rfl⟩
abbrev main_call3_v1 : Ref sig .tc := ⟨.hbm, 161, rfl⟩
abbrev main_call3_cst : Ref sig .tc := ⟨.hbm, 162, rfl⟩
abbrev main_call3_v2 : Ref sig .tc := ⟨.hbm, 163, rfl⟩
abbrev main_call3_v3 : Ref sig .tc := ⟨.hbm, 164, rfl⟩
abbrev main_call3_cst_0 : Ref sig .tc := ⟨.hbm, 165, rfl⟩
abbrev main_call3_v4 : Ref sig .tc := ⟨.hbm, 166, rfl⟩
abbrev main_call3_v5 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S1x800000x64_S1x800000x64_S1x800000x64_S1x800000x192_d2 : Shape.Concatenates [S1x800000x64, S1x800000x64, S1x800000x64] S1x800000x192 2
  slices_S2x192x64_S1x192x64_0_0_0 : S2x192x64.Slices ![0, 0, 0] S1x192x64
  shapeCasts_S1x192x64_S192x64 : S1x192x64.ShapeCasts S192x64
  slices_S2x64_S1x64_0_0 : S2x64.Slices ![0, 0] S1x64
  shapeCasts_S1x64_S64 : S1x64.ShapeCasts S64
  bcast_S64_S1x1x64_2 : S64.BroadcastsInDim S1x1x64 (![2] : Fin 1 → Fin S1x1x64.rank)
  bcast_S1x1x64_S1x800000x64_0_1_2 : S1x1x64.BroadcastsInDim S1x800000x64 (![0, 1, 2] : Fin 3 → Fin S1x800000x64.rank)
  bcast_S_S1x800000x64 : S_.BroadcastsInDim S1x800000x64 (![] : Fin 0 → Fin S1x800000x64.rank)
  slices_S2x64x64_S1x64x64_0_0_0 : S2x64x64.Slices ![0, 0, 0] S1x64x64
  shapeCasts_S1x64x64_S64x64 : S1x64x64.ShapeCasts S64x64
  bcast_S_S1x50000x64 : S_.BroadcastsInDim S1x50000x64 (![] : Fin 0 → Fin S1x50000x64.rank)
  concatenates_S1x50000x64_S1x50000x64_S1x50000x128_d2 : Shape.Concatenates [S1x50000x64, S1x50000x64] S1x50000x128 2
  slices_S2x128x64_S1x128x64_0_0_0 : S2x128x64.Slices ![0, 0, 0] S1x128x64
  shapeCasts_S1x128x64_S128x64 : S1x128x64.ShapeCasts S128x64
  bcast_S1x1x64_S1x50000x64_0_1_2 : S1x1x64.BroadcastsInDim S1x50000x64 (![0, 1, 2] : Fin 3 → Fin S1x50000x64.rank)
  slices_S2x192x64_S1x192x64_1_0_0 : S2x192x64.Slices ![1, 0, 0] S1x192x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  gather_S1x50000x64_S800000x1_S1x800000x64_02_1_n_n_1_1_1164_wf : GatherDims.WF S1x50000x64 S800000x1 S1x800000x64 [0, 2] [1] [] [1] [] 1 ![1, 1, 64]
  dot_S1x800000x192_S192x64_S1x800000x64_2_0_01_1_n_n_wf : DotDims.WF S1x800000x192 S192x64 S1x800000x64 [2] [0] [0, 1] [1] [] []
  dot_S1x800000x64_S64x64_S1x800000x64_2_0_01_1_n_n_wf : DotDims.WF S1x800000x64 S64x64 S1x800000x64 [2] [0] [0, 1] [1] [] []
  scatter_S1x50000x64_S800000x1_S1x800000x64_02_1_1_1_wf : ScatterDims.WF S1x50000x64 S800000x1 S1x800000x64 [0, 2] [1] [1] 1
  dot_S1x50000x128_S128x64_S1x50000x64_2_0_01_1_n_n_wf : DotDims.WF S1x50000x128 S128x64 S1x50000x64 [2] [0] [0, 1] [1] [] []
  dot_S1x50000x64_S64x64_S1x50000x64_2_0_01_1_n_n_wf : DotDims.WF S1x50000x64 S64x64 S1x50000x64 [2] [0] [0, 1] [1] [] []

variable [Facts₀]

def gather_S1x50000x64_S800000x1_S1x800000x64_02_1_n_n_1_1_1164 : GatherDims S1x50000x64 S800000x1 S1x800000x64 where
  offsetDims := [0, 2]
  collapsedSliceDims := [1]
  operandBatchingDims := []
  startIndicesBatchingDims := []
  startIndexMap := [1]
  indexVectorDim := 1
  sliceSizes := ![1, 1, 64]
  wf := gather_S1x50000x64_S800000x1_S1x800000x64_02_1_n_n_1_1_1164_wf
def dot_S1x800000x192_S192x64_S1x800000x64_2_0_01_1_n_n : DotDims S1x800000x192 S192x64 S1x800000x64 where
  lhsContracting := [2]
  rhsContracting := [0]
  lhsNonContracting := [0, 1]
  rhsNonContracting := [1]
  lhsBatch := []
  rhsBatch := []
  wf := dot_S1x800000x192_S192x64_S1x800000x64_2_0_01_1_n_n_wf
def dot_S1x800000x64_S64x64_S1x800000x64_2_0_01_1_n_n : DotDims S1x800000x64 S64x64 S1x800000x64 where
  lhsContracting := [2]
  rhsContracting := [0]
  lhsNonContracting := [0, 1]
  rhsNonContracting := [1]
  lhsBatch := []
  rhsBatch := []
  wf := dot_S1x800000x64_S64x64_S1x800000x64_2_0_01_1_n_n_wf
def scatter_S1x50000x64_S800000x1_S1x800000x64_02_1_1_1 : ScatterDims S1x50000x64 S800000x1 S1x800000x64 where
  updateWindowDims := [0, 2]
  insertedWindowDims := [1]
  scatterDimsToOperandDims := [1]
  indexVectorDim := 1
  wf := scatter_S1x50000x64_S800000x1_S1x800000x64_02_1_1_1_wf
def dot_S1x50000x128_S128x64_S1x50000x64_2_0_01_1_n_n : DotDims S1x50000x128 S128x64 S1x50000x64 where
  lhsContracting := [2]
  rhsContracting := [0]
  lhsNonContracting := [0, 1]
  rhsNonContracting := [1]
  lhsBatch := []
  rhsBatch := []
  wf := dot_S1x50000x128_S128x64_S1x50000x64_2_0_01_1_n_n_wf
def dot_S1x50000x64_S64x64_S1x50000x64_2_0_01_1_n_n : DotDims S1x50000x64 S64x64 S1x50000x64 where
  lhsContracting := [2]
  rhsContracting := [0]
  lhsNonContracting := [0, 1]
  rhsNonContracting := [1]
  lhsBatch := []
  rhsBatch := []
  wf := dot_S1x50000x64_S64x64_S1x50000x64_2_0_01_1_n_n_wf

class Facts : Prop extends Facts₀ where

variable [Facts]
-- ==== Proof.BitsRegion0.lean ====
/-
  Region 0 of @main (the first layer's edge MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.Kernel.Launch
import proofs.«174539_j57174604644524_1_alg».proof.Proof.Gen.Kernel.Skeleton
import proofs.«174539_j57174604644524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the block is
    not fetched its index has not moved, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_cat : Rect S10000x192 := Rect.unit (s := S10000x192) ![0, 0] S10000x192.size inb_S10000x192_S10000x192_0_0
abbrev r0_w1 : Rect S192x64 := Rect.unit (s := S192x64) ![0, 0] S192x64.size inb_S192x64_S192x64_0_0
abbrev r0_b : Rect S1x64 := Rect.unit (s := S1x64) ![0, 0] S1x64.size inb_S1x64_S1x64_0_0
abbrev r0_w2 : Rect S64x64 := Rect.unit (s := S64x64) ![0, 0] S64x64.size inb_S64x64_S64x64_0_0
abbrev r0_out : Rect S10000x64 := Rect.unit (s := S10000x64) ![0, 0] S10000x64.size inb_S10000x64_S10000x64_0_0

/-! ## What the body leaves in the output window's buffer -/

/-- The output staging buffer after the body, from the input windows' blocks: its one store, of the payload. -/
def out0_5 (x0 : Vec F S10000x192 .bf16) (x1 : Vec F S192x64 .bf16) (x2 : Vec F S1x64 .f32) (x3 : Vec F S64x64 .bf16) (x4 : Vec F S1x64 .f32) : Vec F S10000x64 .f32 :=
  View.canon [⟨r0_out, k0_pay1 (View.ld x0 r0_cat) (View.ld x1 r0_w1) (View.ld x2 r0_b) (View.ld x3 r0_w2) (View.ld x4 r0_b)⟩]

/-- The store covers the buffer. -/
theorem cover0_5 (p0 : Vec F S10000x64 .f32) (y : S10000x64.Idx) :
    ∃ pc ∈ ([⟨r0_out, p0⟩] : List (View.Piece (Elt F) S10000x64 .f32)), y ∈ pc.1.set :=
  View.cover_of_tiled [⟨r0_out, p0⟩] S10000x64.size (by rfl) y

/-! ## The body's triple -/

set_option maxHeartbeats 1000000 in
/-- The kernel body on whole staging buffers, the inputs' at contents `x0 … x4` and the output's at anything, runs to the
    continuation holding the inputs' as they were and the output's at `out0_5` of the inputs'. -/
theorem sound_kernel0 (c : Dev nD) (E : Set ℕ) (i : grid0.Coords) (arg1 : Memref sig .tc .vmem S10000x192 .bf16) (harg1 : arg1.IsWhole) (arg2 : Memref sig .tc .vmem S192x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x192 .bf16) (x1 : Vec F S192x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at the payload of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsRegion1.lean ====
/-
  Region 1 of @main (the first layer's node MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.Kernel.Launch
import proofs.«174539_j57174604644524_1_alg».proof.Proof.Gen.Kernel.Skeleton
import proofs.«174539_j57174604644524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the block is
    not fetched its index has not moved, so the buffer still holds the same block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_cat : Rect S10000x128 := Rect.unit (s := S10000x128) ![0, 0] S10000x128.size inb_S10000x128_S10000x128_0_0
abbrev r1_w1 : Rect S128x64 := Rect.unit (s := S128x64) ![0, 0] S128x64.size inb_S128x64_S128x64_0_0
abbrev r1_b : Rect S1x64 := Rect.unit (s := S1x64) ![0, 0] S1x64.size inb_S1x64_S1x64_0_0
abbrev r1_w2 : Rect S64x64 := Rect.unit (s := S64x64) ![0, 0] S64x64.size inb_S64x64_S64x64_0_0
abbrev r1_out : Rect S10000x64 := Rect.unit (s := S10000x64) ![0, 0] S10000x64.size inb_S10000x64_S10000x64_0_0

/-! ## What the body leaves in the output window's buffer -/

/-- The output staging buffer after the body, from the input windows' blocks: its one store, of the payload. -/
def out1_5 (x0 : Vec F S10000x128 .bf16) (x1 : Vec F S128x64 .bf16) (x2 : Vec F S1x64 .f32) (x3 : Vec F S64x64 .bf16) (x4 : Vec F S1x64 .f32) : Vec F S10000x64 .f32 :=
  View.canon [⟨r1_out, k1_pay1 (View.ld x0 r1_cat) (View.ld x1 r1_w1) (View.ld x2 r1_b) (View.ld x3 r1_w2) (View.ld x4 r1_b)⟩]

/-- The store covers the buffer. -/
theorem cover1_5 (p0 : Vec F S10000x64 .f32) (y : S10000x64.Idx) :
    ∃ pc ∈ ([⟨r1_out, p0⟩] : List (View.Piece (Elt F) S10000x64 .f32)), y ∈ pc.1.set :=
  View.cover_of_tiled [⟨r1_out, p0⟩] S10000x64.size (by rfl) y

/-! ## The body's triple -/

set_option maxHeartbeats 1000000 in
/-- The kernel body on whole staging buffers, the inputs' at contents `x0 … x4` and the output's at anything, runs to the
    continuation holding the inputs' as they were and the output's at `out1_5` of the inputs'. -/
theorem sound_kernel1 (c : Dev nD) (E : Set ℕ) (i : grid1.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x128 .bf16) (x1 : Vec F S128x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at the payload of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsRegion2.lean ====
/-
  Region 2 of @main (the second layer's edge MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.Kernel.Launch
import proofs.«174539_j57174604644524_1_alg».proof.Proof.Gen.Kernel.Skeleton
import proofs.«174539_j57174604644524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the block is
    not fetched its index has not moved, so the buffer still holds the same block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_cat : Rect S10000x192 := Rect.unit (s := S10000x192) ![0, 0] S10000x192.size inb_S10000x192_S10000x192_0_0
abbrev r2_w1 : Rect S192x64 := Rect.unit (s := S192x64) ![0, 0] S192x64.size inb_S192x64_S192x64_0_0
abbrev r2_b : Rect S1x64 := Rect.unit (s := S1x64) ![0, 0] S1x64.size inb_S1x64_S1x64_0_0
abbrev r2_w2 : Rect S64x64 := Rect.unit (s := S64x64) ![0, 0] S64x64.size inb_S64x64_S64x64_0_0
abbrev r2_out : Rect S10000x64 := Rect.unit (s := S10000x64) ![0, 0] S10000x64.size inb_S10000x64_S10000x64_0_0

/-! ## What the body leaves in the output window's buffer -/

/-- The output staging buffer after the body, from the input windows' blocks: its one store, of the payload. -/
def out2_5 (x0 : Vec F S10000x192 .bf16) (x1 : Vec F S192x64 .bf16) (x2 : Vec F S1x64 .f32) (x3 : Vec F S64x64 .bf16) (x4 : Vec F S1x64 .f32) : Vec F S10000x64 .f32 :=
  View.canon [⟨r2_out, k2_pay1 (View.ld x0 r2_cat) (View.ld x1 r2_w1) (View.ld x2 r2_b) (View.ld x3 r2_w2) (View.ld x4 r2_b)⟩]

/-- The store covers the buffer. -/
theorem cover2_5 (p0 : Vec F S10000x64 .f32) (y : S10000x64.Idx) :
    ∃ pc ∈ ([⟨r2_out, p0⟩] : List (View.Piece (Elt F) S10000x64 .f32)), y ∈ pc.1.set :=
  View.cover_of_tiled [⟨r2_out, p0⟩] S10000x64.size (by rfl) y

/-! ## The body's triple -/

set_option maxHeartbeats 1000000 in
/-- The kernel body on whole staging buffers, the inputs' at contents `x0 … x4` and the output's at anything, runs to the
    continuation holding the inputs' as they were and the output's at `out2_5` of the inputs'. -/
theorem sound_kernel2 (c : Dev nD) (E : Set ℕ) (i : grid2.Coords) (arg1 : Memref sig .tc .vmem S10000x192 .bf16) (harg1 : arg1.IsWhole) (arg2 : Memref sig .tc .vmem S192x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x192 .bf16) (x1 : Vec F S192x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at the payload of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BitsRegion3.lean ====
/-
  Region 3 of @main (the second layer's node MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.Kernel.Launch
import proofs.«174539_j57174604644524_1_alg».proof.Proof.Gen.Kernel.Skeleton
import proofs.«174539_j57174604644524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where the block is
    not fetched its index has not moved, so the buffer still holds the same block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_cat : Rect S10000x128 := Rect.unit (s := S10000x128) ![0, 0] S10000x128.size inb_S10000x128_S10000x128_0_0
abbrev r3_w1 : Rect S128x64 := Rect.unit (s := S128x64) ![0, 0] S128x64.size inb_S128x64_S128x64_0_0
abbrev r3_b : Rect S1x64 := Rect.unit (s := S1x64) ![0, 0] S1x64.size inb_S1x64_S1x64_0_0
abbrev r3_w2 : Rect S64x64 := Rect.unit (s := S64x64) ![0, 0] S64x64.size inb_S64x64_S64x64_0_0
abbrev r3_out : Rect S10000x64 := Rect.unit (s := S10000x64) ![0, 0] S10000x64.size inb_S10000x64_S10000x64_0_0

/-! ## What the body leaves in the output window's buffer -/

/-- The output staging buffer after the body, from the input windows' blocks: its one store, of the payload. -/
def out3_5 (x0 : Vec F S10000x128 .bf16) (x1 : Vec F S128x64 .bf16) (x2 : Vec F S1x64 .f32) (x3 : Vec F S64x64 .bf16) (x4 : Vec F S1x64 .f32) : Vec F S10000x64 .f32 :=
  View.canon [⟨r3_out, k3_pay1 (View.ld x0 r3_cat) (View.ld x1 r3_w1) (View.ld x2 r3_b) (View.ld x3 r3_w2) (View.ld x4 r3_b)⟩]

/-- The store covers the buffer. -/
theorem cover3_5 (p0 : Vec F S10000x64 .f32) (y : S10000x64.Idx) :
    ∃ pc ∈ ([⟨r3_out, p0⟩] : List (View.Piece (Elt F) S10000x64 .f32)), y ∈ pc.1.set :=
  View.cover_of_tiled [⟨r3_out, p0⟩] S10000x64.size (by rfl) y

/-! ## The body's triple -/

set_option maxHeartbeats 1000000 in
/-- The kernel body on whole staging buffers, the inputs' at contents `x0 … x4` and the output's at anything, runs to the
    continuation holding the inputs' as they were and the output's at `out3_5` of the inputs'. -/
theorem sound_kernel3 (c : Dev nD) (E : Set ℕ) (i : grid3.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x128 .bf16) (x1 : Vec F S128x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at the payload of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.BitsRun.lean ====
/-
  The run of @main through its four regions. Between two items the TensorCore's unscoped buffers hold a valuation: the
  launch memory, then each host stretch applied, then across a region the same valuation with the region's output array
  replaced by what its write-backs leave (every other array of the region is an input and keeps its contents). Each
  region is entered from one such valuation and left at the next, so @main runs to the end, nothing faulting, every
  argument array as launched and the two results at the last valuation.
-/
import proofs.«174539_j57174604644524_1_alg».proof.Proof.BitsRegion0
import proofs.«174539_j57174604644524_1_alg».proof.Proof.BitsRegion1
import proofs.«174539_j57174604644524_1_alg».proof.Proof.BitsRegion2
import proofs.«174539_j57174604644524_1_alg».proof.Proof.BitsRegion3
import proofs.«174539_j57174604644524_1_alg».proof.Proof.BitsFrameCond

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references. -/
abbrev rd (X : Dev nD → Valuation τ sig (Elt F)) : (c : Dev nD) → (b : Ref sig .tc) → Buf (Elt F) ((c : Thread nD τ).loc b) := fun c b => X c b

/-- After the first host stretch (region 0's entry). -/
def X1 (c : Dev nD) : Valuation τ sig (Elt F) := Gen.V1 m c
/-- What region 0's write-backs leave in its output array. -/
def o2 (c : Dev nD) : Buf (Elt F) ((c : Thread nD τ).loc main_v34) := (dat0 (rd (X1 m)) c).arrAt 5 cfg0.N
/-- At region 0's exit. -/
def X2 (c : Dev nD) : Valuation τ sig (Elt F) := Function.update (X1 m c) main_v34 (o2 m c)
/-- After the second host stretch (region 1's entry). -/
def X3 (c : Dev nD) : Valuation τ sig (Elt F) := StableHlo.after hostOps1 (X2 m c)
def o4 (c : Dev nD) : Buf (Elt F) ((c : Thread nD τ).loc main_v57) := (dat1 (rd (X3 m)) c).arrAt 5 cfg1.N
def X4 (c : Dev nD) : Valuation τ sig (Elt F) := Function.update (X3 m c) main_v57 (o4 m c)
def X5 (c : Dev nD) : Valuation τ sig (Elt F) := StableHlo.after hostOps2 (X4 m c)
def o6 (c : Dev nD) : Buf (Elt F) ((c : Thread nD τ).loc main_v86) := (dat2 (rd (X5 m)) c).arrAt 5 cfg2.N
def X6 (c : Dev nD) : Valuation τ sig (Elt F) := Function.update (X5 m c) main_v86 (o6 m c)
def X7 (c : Dev nD) : Valuation τ sig (Elt F) := StableHlo.after hostOps3 (X6 m c)
def o8 (c : Dev nD) : Buf (Elt F) ((c : Thread nD τ).loc main_v109) := (dat3 (rd (X7 m)) c).arrAt 5 cfg3.N
def X8 (c : Dev nD) : Valuation τ sig (Elt F) := Function.update (X7 m c) main_v109 (o8 m c)
/-- After the last host stretch: the contents @main returns with. -/
def X9 (c : Dev nD) : Valuation τ sig (Elt F) := StableHlo.after hostOps4 (X8 m c)

/-- What the regions leave, as the unknowns the generated valuations are written over. -/
def outs : Outs (F := F) := fun J r c => match J with
  | 2 => X2 m c r
  | 4 => X4 m c r
  | 6 => X6 m c r
  | _ => X8 m c r

theorem V2_eq (c : Dev nD) : Gen.V2 m (outs m) c = X2 m c := by
  show Function.update (X1 m c) (Proc.devRef .tc main_v34) (X2 m c (Proc.devRef .tc main_v34)) = X2 m c
  unfold X2; rw [Function.update_self]
theorem V3_eq (c : Dev nD) : Gen.V3 m (outs m) c = X3 m c := by
  show StableHlo.after hostOps1 (Gen.V2 m (outs m) c) = X3 m c
  rw [V2_eq]; rfl
theorem V4_eq (c : Dev nD) : Gen.V4 m (outs m) c = X4 m c := by
  show Function.update (Gen.V3 m (outs m) c) (Proc.devRef .tc main_v57) (X4 m c (Proc.devRef .tc main_v57)) = X4 m c
  rw [V3_eq]; unfold X4; rw [Function.update_self]
theorem V5_eq (c : Dev nD) : Gen.V5 m (outs m) c = X5 m c := by
  show StableHlo.after hostOps2 (Gen.V4 m (outs m) c) = X5 m c
  rw [V4_eq]; rfl
theorem V6_eq (c : Dev nD) : Gen.V6 m (outs m) c = X6 m c := by
  show Function.update (Gen.V5 m (outs m) c) (Proc.devRef .tc main_v86) (X6 m c (Proc.devRef .tc main_v86)) = X6 m c
  rw [V5_eq]; unfold X6; rw [Function.update_self]
theorem V7_eq (c : Dev nD) : Gen.V7 m (outs m) c = X7 m c := by
  show StableHlo.after hostOps3 (Gen.V6 m (outs m) c) = X7 m c
  rw [V6_eq]; rfl
theorem V8_eq (c : Dev nD) : Gen.V8 m (outs m) c = X8 m c := by
  show Function.update (Gen.V7 m (outs m) c) (Proc.devRef .tc main_v109) (X8 m c (Proc.devRef .tc main_v109)) = X8 m c
  rw [V7_eq]; unfold X8; rw [Function.update_self]
theorem V9_eq (c : Dev nD) : Gen.V9 m (outs m) c = X9 m c := by
  show StableHlo.after hostOps4 (Gen.V8 m (outs m) c) = X9 m c
  rw [V8_eq]; rfl

theorem V1_eq (c : Dev nD) : Gen.V1 m c = X1 m c := rfl

/-! ## Each region changes its output array only -/

theorem X2_out (c : Dev nD) : X2 m c (Proc.devRef .tc main_v34) = (dat0 (rd (X1 m)) c).arrAt 5 cfg0.N := by
  unfold X2 o2; exact Function.update_self (Proc.devRef .tc main_v34) _ _
theorem X2_of_ne (c : Dev nD) (b : Ref sig .tc) (h : b ≠ main_v34) : X2 m c (Proc.devRef .tc b) = X1 m c (Proc.devRef .tc b) := by
  unfold X2; exact Function.update_of_ne (StableHlo.devRef_ne_of_ne h) _ _
theorem X4_out (c : Dev nD) : X4 m c (Proc.devRef .tc main_v57) = (dat1 (rd (X3 m)) c).arrAt 5 cfg1.N := by
  unfold X4 o4; exact Function.update_self (Proc.devRef .tc main_v57) _ _
theorem X4_of_ne (c : Dev nD) (b : Ref sig .tc) (h : b ≠ main_v57) : X4 m c (Proc.devRef .tc b) = X3 m c (Proc.devRef .tc b) := by
  unfold X4; exact Function.update_of_ne (StableHlo.devRef_ne_of_ne h) _ _
theorem X6_out (c : Dev nD) : X6 m c (Proc.devRef .tc main_v86) = (dat2 (rd (X5 m)) c).arrAt 5 cfg2.N := by
  unfold X6 o6; exact Function.update_self (Proc.devRef .tc main_v86) _ _
theorem X6_of_ne (c : Dev nD) (b : Ref sig .tc) (h : b ≠ main_v86) : X6 m c (Proc.devRef .tc b) = X5 m c (Proc.devRef .tc b) := by
  unfold X6; exact Function.update_of_ne (StableHlo.devRef_ne_of_ne h) _ _
theorem X8_out (c : Dev nD) : X8 m c (Proc.devRef .tc main_v109) = (dat3 (rd (X7 m)) c).arrAt 5 cfg3.N := by
  unfold X8 o8; exact Function.update_self (Proc.devRef .tc main_v109) _ _
theorem X8_of_ne (c : Dev nD) (b : Ref sig .tc) (h : b ≠ main_v109) : X8 m c (Proc.devRef .tc b) = X7 m c (Proc.devRef .tc b) := by
  unfold X8; exact Function.update_of_ne (StableHlo.devRef_ne_of_ne h) _ _

/-! ## The proof data family and the rest of the thread state -/

/-- Every pipeline's proof data, each at its region's entry contents. -/
def pdats : (p : Fin 4) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X5 m)) c
  | ⟨3, _⟩ => fun c => dat3 (rd (X7 m)) c

/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

-- from here on the valuations are opaque: nothing below may evaluate a fold of host operations
attribute [local irreducible] X1 X2 X3 X4 X5 X6 X7 X8 X9 o2 o4 o6 o8

/-! ## Region 0 -/

/-- Outside region 0's output array nothing changes across the region. -/
theorem hrest0 (c : Dev nD) : ∀ b, b ∉ Finset.univ.image (Pipeline.arrRef spec0) → rd (X2 m) c b = rd (X1 m) c b := fun b hb =>
  X2_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF0_0 (c : Dev nD) : (dat0 (rd (X1 m)) c).arrAt 0 cfg0.N = rd (X2 m) c (Pipeline.arrRef spec0 0) :=
  ((dat0 (rd (X1 m)) c).arrAt_in 0 rfl _).trans ((A_eq0 (rd (X1 m)) c 0).trans (X2_of_ne m c (Pipeline.arrRef spec0 0) (by decide)).symm)
theorem hF0_1 (c : Dev nD) : (dat0 (rd (X1 m)) c).arrAt 1 cfg0.N = rd (X2 m) c (Pipeline.arrRef spec0 1) :=
  ((dat0 (rd (X1 m)) c).arrAt_in 1 rfl _).trans ((A_eq0 (rd (X1 m)) c 1).trans (X2_of_ne m c (Pipeline.arrRef spec0 1) (by decide)).symm)
theorem hF0_2 (c : Dev nD) : (dat0 (rd (X1 m)) c).arrAt 2 cfg0.N = rd (X2 m) c (Pipeline.arrRef spec0 2) :=
  ((dat0 (rd (X1 m)) c).arrAt_in 2 rfl _).trans ((A_eq0 (rd (X1 m)) c 2).trans (X2_of_ne m c (Pipeline.arrRef spec0 2) (by decide)).symm)
theorem hF0_3 (c : Dev nD) : (dat0 (rd (X1 m)) c).arrAt 3 cfg0.N = rd (X2 m) c (Pipeline.arrRef spec0 3) :=
  ((dat0 (rd (X1 m)) c).arrAt_in 3 rfl _).trans ((A_eq0 (rd (X1 m)) c 3).trans (X2_of_ne m c (Pipeline.arrRef spec0 3) (by decide)).symm)
theorem hF0_4 (c : Dev nD) : (dat0 (rd (X1 m)) c).arrAt 4 cfg0.N = rd (X2 m) c (Pipeline.arrRef spec0 4) :=
  ((dat0 (rd (X1 m)) c).arrAt_in 4 rfl _).trans ((A_eq0 (rd (X1 m)) c 4).trans (X2_of_ne m c (Pipeline.arrRef spec0 4) (by decide)).symm)
theorem hF0_5 (c : Dev nD) : (dat0 (rd (X1 m)) c).arrAt 5 cfg0.N = rd (X2 m) c (Pipeline.arrRef spec0 5) :=
  (X2_out m c).symm
theorem hF0 (c : Dev nD) (w : Fin cfg0.W) : (dat0 (rd (X1 m)) c).arrAt w cfg0.N = rd (X2 m) c (Pipeline.arrRef spec0 w) := by
  rcases (by decide : ∀ w : Fin cfg0.W, w = 0 ∨ w = 1 ∨ w = 2 ∨ w = 3 ∨ w = 4 ∨ w = 5) w with rfl | rfl | rfl | rfl | rfl | rfl
  · exact hF0_0 m c
  · exact hF0_1 m c
  · exact hF0_2 m c
  · exact hF0_3 m c
  · exact hF0_4 m c
  · exact hF0_5 m c

set_option backward.isDefEq.respectTransparency.types false in
/-- Region 0 over the thread state: entered from every unscoped buffer at `X1`, left at `X2`. Its arrays are
    split out of the unscoped buffers and put back at the exit contents; the generator register goes into the class
    invariant and comes out; nothing is owed; the kernel has no semaphore of its own. -/
def reg0 : RegionSeg (pcfgs (F := F)) adm (pdats m) () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := (body_obligation0 (rd (X1 m)) c).loose
  hwaits := Pipeline.hwaits_of_owed_zero _ _ _ _ (fun _ => (∅ : Finset Unit)) (fun _ _ => (0 : ℕ)) 0 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec0 c (rd (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (X1 m) c) (rd (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Outside region 1's output array nothing changes across the region. -/
theorem hrest1 (c : Dev nD) : ∀ b, b ∉ Finset.univ.image (Pipeline.arrRef spec1) → rd (X4 m) c b = rd (X3 m) c b := fun b hb =>
  X4_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF1_0 (c : Dev nD) : (dat1 (rd (X3 m)) c).arrAt 0 cfg1.N = rd (X4 m) c (Pipeline.arrRef spec1 0) :=
  ((dat1 (rd (X3 m)) c).arrAt_in 0 rfl _).trans ((A_eq1 (rd (X3 m)) c 0).trans (X4_of_ne m c (Pipeline.arrRef spec1 0) (by decide)).symm)
theorem hF1_1 (c : Dev nD) : (dat1 (rd (X3 m)) c).arrAt 1 cfg1.N = rd (X4 m) c (Pipeline.arrRef spec1 1) :=
  ((dat1 (rd (X3 m)) c).arrAt_in 1 rfl _).trans ((A_eq1 (rd (X3 m)) c 1).trans (X4_of_ne m c (Pipeline.arrRef spec1 1) (by decide)).symm)
theorem hF1_2 (c : Dev nD) : (dat1 (rd (X3 m)) c).arrAt 2 cfg1.N = rd (X4 m) c (Pipeline.arrRef spec1 2) :=
  ((dat1 (rd (X3 m)) c).arrAt_in 2 rfl _).trans ((A_eq1 (rd (X3 m)) c 2).trans (X4_of_ne m c (Pipeline.arrRef spec1 2) (by decide)).symm)
theorem hF1_3 (c : Dev nD) : (dat1 (rd (X3 m)) c).arrAt 3 cfg1.N = rd (X4 m) c (Pipeline.arrRef spec1 3) :=
  ((dat1 (rd (X3 m)) c).arrAt_in 3 rfl _).trans ((A_eq1 (rd (X3 m)) c 3).trans (X4_of_ne m c (Pipeline.arrRef spec1 3) (by decide)).symm)
theorem hF1_4 (c : Dev nD) : (dat1 (rd (X3 m)) c).arrAt 4 cfg1.N = rd (X4 m) c (Pipeline.arrRef spec1 4) :=
  ((dat1 (rd (X3 m)) c).arrAt_in 4 rfl _).trans ((A_eq1 (rd (X3 m)) c 4).trans (X4_of_ne m c (Pipeline.arrRef spec1 4) (by decide)).symm)
theorem hF1_5 (c : Dev nD) : (dat1 (rd (X3 m)) c).arrAt 5 cfg1.N = rd (X4 m) c (Pipeline.arrRef spec1 5) :=
  (X4_out m c).symm
theorem hF1 (c : Dev nD) (w : Fin cfg1.W) : (dat1 (rd (X3 m)) c).arrAt w cfg1.N = rd (X4 m) c (Pipeline.arrRef spec1 w) := by
  rcases (by decide : ∀ w : Fin cfg1.W, w = 0 ∨ w = 1 ∨ w = 2 ∨ w = 3 ∨ w = 4 ∨ w = 5) w with rfl | rfl | rfl | rfl | rfl | rfl
  · exact hF1_0 m c
  · exact hF1_1 m c
  · exact hF1_2 m c
  · exact hF1_3 m c
  · exact hF1_4 m c
  · exact hF1_5 m c

set_option backward.isDefEq.respectTransparency.types false in
/-- Region 1 over the thread state: entered from every unscoped buffer at `X3`, left at `X4`. Its arrays are
    split out of the unscoped buffers and put back at the exit contents; the generator register goes into the class
    invariant and comes out; nothing is owed; the kernel has no semaphore of its own. -/
def reg1 : RegionSeg (pcfgs (F := F)) adm (pdats m) () defs₀ Variants.none (fun _ => (∅ : Finset Unit)) (fun _ _ => (0 : ℕ)) 1 where
  win := launch1.win.to₀
  block_pos := launch1.block_pos
  stage_whole := launch1.stage_whole
  K := PEmpty
  osem k := k.elim
  ho := Pipeline.OwnSemFacts.none _
  hbody c := (body_obligation1 (rd (X3 m)) c).loose
  hwaits := Pipeline.hwaits_of_owed_zero _ _ _ _ (fun _ => (∅ : Finset Unit)) (fun _ _ => (0 : ℕ)) 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (rd (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (X3 m) c) (rd (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Outside region 2's output array nothing changes across the region. -/
theorem hrest2 (c : Dev nD) : ∀ b, b ∉ Finset.univ.image (Pipeline.arrRef spec2) → rd (X6 m) c b = rd (X5 m) c b := fun b hb =>
  X6_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF2_0 (c : Dev nD) : (dat2 (rd (X5 m)) c).arrAt 0 cfg2.N = rd (X6 m) c (Pipeline.arrRef spec2 0) :=
  ((dat2 (rd (X5 m)) c).arrAt_in 0 rfl _).trans ((A_eq2 (rd (X5 m)) c 0).trans (X6_of_ne m c (Pipeline.arrRef spec2 0) (by decide)).symm)
theorem hF2_1 (c : Dev nD) : (dat2 (rd (X5 m)) c).arrAt 1 cfg2.N = rd (X6 m) c (Pipeline.arrRef spec2 1) :=
  ((dat2 (rd (X5 m)) c).arrAt_in 1 rfl _).trans ((A_eq2 (rd (X5 m)) c 1).trans (X6_of_ne m c (Pipeline.arrRef spec2 1) (by decide)).symm)
theorem hF2_2 (c : Dev nD) : (dat2 (rd (X5 m)) c).arrAt 2 cfg2.N = rd (X6 m) c (Pipeline.arrRef spec2 2) :=
  ((dat2 (rd (X5 m)) c).arrAt_in 2 rfl _).trans ((A_eq2 (rd (X5 m)) c 2).trans (X6_of_ne m c (Pipeline.arrRef spec2 2) (by decide)).symm)
theorem hF2_3 (c : Dev nD) : (dat2 (rd (X5 m)) c).arrAt 3 cfg2.N = rd (X6 m) c (Pipeline.arrRef spec2 3) :=
  ((dat2 (rd (X5 m)) c).arrAt_in 3 rfl _).trans ((A_eq2 (rd (X5 m)) c 3).trans (X6_of_ne m c (Pipeline.arrRef spec2 3) (by decide)).symm)
theorem hF2_4 (c : Dev nD) : (dat2 (rd (X5 m)) c).arrAt 4 cfg2.N = rd (X6 m) c (Pipeline.arrRef spec2 4) :=
  ((dat2 (rd (X5 m)) c).arrAt_in 4 rfl _).trans ((A_eq2 (rd (X5 m)) c 4).trans (X6_of_ne m c (Pipeline.arrRef spec2 4) (by decide)).symm)
theorem hF2_5 (c : Dev nD) : (dat2 (rd (X5 m)) c).arrAt 5 cfg2.N = rd (X6 m) c (Pipeline.arrRef spec2 5) :=
  (X6_out m c).symm
theorem hF2 (c : Dev nD) (w : Fin cfg2.W) : (dat2 (rd (X5 m)) c).arrAt w cfg2.N = rd (X6 m) c (Pipeline.arrRef spec2 w) := by
  rcases (by decide : ∀ w : Fin cfg2.W, w = 0 ∨ w = 1 ∨ w = 2 ∨ w = 3 ∨ w = 4 ∨ w = 5) w with rfl | rfl | rfl | rfl | rfl | rfl
  · exact hF2_0 m c
  · exact hF2_1 m c
  · exact hF2_2 m c
  · exact hF2_3 m c
  · exact hF2_4 m c
  · exact hF2_5 m c

set_option backward.isDefEq.respectTransparency.types false in
/-- Region 2 over the thread state: entered from every unscoped buffer at `X5`, left at `X6`. Its arrays are
    split out of the unscoped buffers and put back at the exit contents; the generator register goes into the class
    invariant and comes out; nothing is owed; the kernel has no semaphore of its own. -/
def reg2 : RegionSeg (pcfgs (F := F)) adm (pdats m) () defs₀ Variants.none (fun _ => (∅ : Finset Unit)) (fun _ _ => (0 : ℕ)) 2 where
  win := launch2.win.to₀
  block_pos := launch2.block_pos
  stage_whole := launch2.stage_whole
  K := PEmpty
  osem k := k.elim
  ho := Pipeline.OwnSemFacts.none _
  hbody c := (body_obligation2 (rd (X5 m)) c).loose
  hwaits := Pipeline.hwaits_of_owed_zero _ _ _ _ (fun _ => (∅ : Finset Unit)) (fun _ _ => (0 : ℕ)) 2 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec2 c (rd (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (X5 m) c) (rd (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Outside region 3's output array nothing changes across the region. -/
theorem hrest3 (c : Dev nD) : ∀ b, b ∉ Finset.univ.image (Pipeline.arrRef spec3) → rd (X8 m) c b = rd (X7 m) c b := fun b hb =>
  X8_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF3_0 (c : Dev nD) : (dat3 (rd (X7 m)) c).arrAt 0 cfg3.N = rd (X8 m) c (Pipeline.arrRef spec3 0) :=
  ((dat3 (rd (X7 m)) c).arrAt_in 0 rfl _).trans ((A_eq3 (rd (X7 m)) c 0).trans (X8_of_ne m c (Pipeline.arrRef spec3 0) (by decide)).symm)
theorem hF3_1 (c : Dev nD) : (dat3 (rd (X7 m)) c).arrAt 1 cfg3.N = rd (X8 m) c (Pipeline.arrRef spec3 1) :=
  ((dat3 (rd (X7 m)) c).arrAt_in 1 rfl _).trans ((A_eq3 (rd (X7 m)) c 1).trans (X8_of_ne m c (Pipeline.arrRef spec3 1) (by decide)).symm)
theorem hF3_2 (c : Dev nD) : (dat3 (rd (X7 m)) c).arrAt 2 cfg3.N = rd (X8 m) c (Pipeline.arrRef spec3 2) :=
  ((dat3 (rd (X7 m)) c).arrAt_in 2 rfl _).trans ((A_eq3 (rd (X7 m)) c 2).trans (X8_of_ne m c (Pipeline.arrRef spec3 2) (by decide)).symm)
theorem hF3_3 (c : Dev nD) : (dat3 (rd (X7 m)) c).arrAt 3 cfg3.N = rd (X8 m) c (Pipeline.arrRef spec3 3) :=
  ((dat3 (rd (X7 m)) c).arrAt_in 3 rfl _).trans ((A_eq3 (rd (X7 m)) c 3).trans (X8_of_ne m c (Pipeline.arrRef spec3 3) (by decide)).symm)
theorem hF3_4 (c : Dev nD) : (dat3 (rd (X7 m)) c).arrAt 4 cfg3.N = rd (X8 m) c (Pipeline.arrRef spec3 4) :=
  ((dat3 (rd (X7 m)) c).arrAt_in 4 rfl _).trans ((A_eq3 (rd (X7 m)) c 4).trans (X8_of_ne m c (Pipeline.arrRef spec3 4) (by decide)).symm)
theorem hF3_5 (c : Dev nD) : (dat3 (rd (X7 m)) c).arrAt 5 cfg3.N = rd (X8 m) c (Pipeline.arrRef spec3 5) :=
  (X8_out m c).symm
theorem hF3 (c : Dev nD) (w : Fin cfg3.W) : (dat3 (rd (X7 m)) c).arrAt w cfg3.N = rd (X8 m) c (Pipeline.arrRef spec3 w) := by
  rcases (by decide : ∀ w : Fin cfg3.W, w = 0 ∨ w = 1 ∨ w = 2 ∨ w = 3 ∨ w = 4 ∨ w = 5) w with rfl | rfl | rfl | rfl | rfl | rfl
  · exact hF3_0 m c
  · exact hF3_1 m c
  · exact hF3_2 m c
  · exact hF3_3 m c
  · exact hF3_4 m c
  · exact hF3_5 m c

set_option backward.isDefEq.respectTransparency.types false in
/-- Region 3 over the thread state: entered from every unscoped buffer at `X7`, left at `X8`. Its arrays are
    split out of the unscoped buffers and put back at the exit contents; the generator register goes into the class
    invariant and comes out; nothing is owed; the kernel has no semaphore of its own. -/
def reg3 : RegionSeg (pcfgs (F := F)) adm (pdats m) () defs₀ Variants.none (fun _ => (∅ : Finset Unit)) (fun _ _ => (0 : ℕ)) 3 where
  win := launch3.win.to₀
  block_pos := launch3.block_pos
  stage_whole := launch3.stage_whole
  K := PEmpty
  osem k := k.elim
  ho := Pipeline.OwnSemFacts.none _
  hbody c := (body_obligation3 (rd (X7 m)) c).loose
  hwaits := Pipeline.hwaits_of_owed_zero _ _ _ _ (fun _ => (∅ : Finset Unit)) (fun _ _ => (0 : ℕ)) 3 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec3 c (rd (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (X7 m) c) (rd (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main on the TensorCores terminates, nothing
    faulting, with the two results at the last valuation and every argument array as launched. -/
theorem run_res (ρ : Dev nD → PrngReg) :
    θ_run defs (onTc (τ := τ) (main (F := F))) ⟨m, fun _ => 0, ρ⟩ (fun r => ∀ c : Dev nD,
      r.2.mem ((c.tc : Thread nD τ).loc main_v110) = X9 m c main_v110
      ∧ r.2.mem ((c.tc : Thread nD τ).loc main_v111) = X9 m c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := GenP.frame_cond_res m (F := F) (Ix := Unit) (U := UR sig nD τ) (Lvl := ℕ) emb₁ () Variants.none (fun _ => (∅ : Finset Unit)) (fun _ _ => (0 : ℕ)) (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
  refine (θ_run defs _ _).mono (fun r hr c => ?_) h
  have hc := hr c
  rw [V9_eq] at hc
  exact hc

end Cert.Kernel.Fr

end
-- ==== Proof.IdealRegion0.lean ====
/-
  Region 0 of @main (the first layer's edge MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.KernelIdeal.Launch
import proofs.«174539_j57174604644524_1_alg».proof.Proof.Gen.KernelIdeal.Skeleton
import proofs.«174539_j57174604644524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the block is
    not fetched its index has not moved, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not: where the block is
    not fetched its index has not moved, so the buffer still holds the same block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_cat : Rect S10000x192 := Rect.unit (s := S10000x192) ![0, 0] S10000x192.size inb_S10000x192_S10000x192_0_0
abbrev r0_w1 : Rect S192x64 := Rect.unit (s := S192x64) ![0, 0] S192x64.size inb_S192x64_S192x64_0_0
abbrev r0_b : Rect S1x64 := Rect.unit (s := S1x64) ![0, 0] S1x64.size inb_S1x64_S1x64_0_0
abbrev r0_w2 : Rect S64x64 := Rect.unit (s := S64x64) ![0, 0] S64x64.size inb_S64x64_S64x64_0_0
abbrev r0_out : Rect S10000x64 := Rect.unit (s := S10000x64) ![0, 0] S10000x64.size inb_S10000x64_S10000x64_0_0

/-! ## What the body leaves in the output window's buffer -/

/-- The output staging buffer after the body, from the input windows' blocks: its one store, of the payload. -/
def out0_5 (x0 : Vec F S10000x192 .bf16) (x1 : Vec F S192x64 .bf16) (x2 : Vec F S1x64 .f32) (x3 : Vec F S64x64 .bf16) (x4 : Vec F S1x64 .f32) : Vec F S10000x64 .f32 :=
  View.canon [⟨r0_out, k0_pay1 (View.ld x0 r0_cat) (View.ld x1 r0_w1) (View.ld x2 r0_b) (View.ld x3 r0_w2) (View.ld x4 r0_b)⟩]

/-- The store covers the buffer. -/
theorem cover0_5 (p0 : Vec F S10000x64 .f32) (y : S10000x64.Idx) :
    ∃ pc ∈ ([⟨r0_out, p0⟩] : List (View.Piece (Elt F) S10000x64 .f32)), y ∈ pc.1.set :=
  View.cover_of_tiled [⟨r0_out, p0⟩] S10000x64.size (by rfl) y

/-! ## The body's triple -/

set_option maxHeartbeats 1000000 in
/-- The kernel body on whole staging buffers, the inputs' at contents `x0 … x4` and the output's at anything, runs to the
    continuation holding the inputs' as they were and the output's at `out0_5` of the inputs'. -/
theorem sound_kernel0 (c : Dev nD) (E : Set ℕ) (i : grid0.Coords) (arg1 : Memref sig .tc .vmem S10000x192 .bf16) (harg1 : arg1.IsWhole) (arg2 : Memref sig .tc .vmem S192x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x192 .bf16) (x1 : Vec F S192x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at the payload of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealRegion1.lean ====
/-
  Region 1 of @main (the first layer's node MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.KernelIdeal.Launch
import proofs.«174539_j57174604644524_1_alg».proof.Proof.Gen.KernelIdeal.Skeleton
import proofs.«174539_j57174604644524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the block is
    not fetched its index has not moved, so the buffer still holds the same block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not: where the block is
    not fetched its index has not moved, so the buffer still holds the same block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_cat : Rect S10000x128 := Rect.unit (s := S10000x128) ![0, 0] S10000x128.size inb_S10000x128_S10000x128_0_0
abbrev r1_w1 : Rect S128x64 := Rect.unit (s := S128x64) ![0, 0] S128x64.size inb_S128x64_S128x64_0_0
abbrev r1_b : Rect S1x64 := Rect.unit (s := S1x64) ![0, 0] S1x64.size inb_S1x64_S1x64_0_0
abbrev r1_w2 : Rect S64x64 := Rect.unit (s := S64x64) ![0, 0] S64x64.size inb_S64x64_S64x64_0_0
abbrev r1_out : Rect S10000x64 := Rect.unit (s := S10000x64) ![0, 0] S10000x64.size inb_S10000x64_S10000x64_0_0

/-! ## What the body leaves in the output window's buffer -/

/-- The output staging buffer after the body, from the input windows' blocks: its one store, of the payload. -/
def out1_5 (x0 : Vec F S10000x128 .bf16) (x1 : Vec F S128x64 .bf16) (x2 : Vec F S1x64 .f32) (x3 : Vec F S64x64 .bf16) (x4 : Vec F S1x64 .f32) : Vec F S10000x64 .f32 :=
  View.canon [⟨r1_out, k1_pay1 (View.ld x0 r1_cat) (View.ld x1 r1_w1) (View.ld x2 r1_b) (View.ld x3 r1_w2) (View.ld x4 r1_b)⟩]

/-- The store covers the buffer. -/
theorem cover1_5 (p0 : Vec F S10000x64 .f32) (y : S10000x64.Idx) :
    ∃ pc ∈ ([⟨r1_out, p0⟩] : List (View.Piece (Elt F) S10000x64 .f32)), y ∈ pc.1.set :=
  View.cover_of_tiled [⟨r1_out, p0⟩] S10000x64.size (by rfl) y

/-! ## The body's triple -/

set_option maxHeartbeats 1000000 in
/-- The kernel body on whole staging buffers, the inputs' at contents `x0 … x4` and the output's at anything, runs to the
    continuation holding the inputs' as they were and the output's at `out1_5` of the inputs'. -/
theorem sound_kernel1 (c : Dev nD) (E : Set ℕ) (i : grid1.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x128 .bf16) (x1 : Vec F S128x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at the payload of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealRegion2.lean ====
/-
  Region 2 of @main (the second layer's edge MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.KernelIdeal.Launch
import proofs.«174539_j57174604644524_1_alg».proof.Proof.Gen.KernelIdeal.Skeleton
import proofs.«174539_j57174604644524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the block is
    not fetched its index has not moved, so the buffer still holds the same block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, fetched there or not: where the block is
    not fetched its index has not moved, so the buffer still holds the same block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev r2_cat : Rect S10000x192 := Rect.unit (s := S10000x192) ![0, 0] S10000x192.size inb_S10000x192_S10000x192_0_0
abbrev r2_w1 : Rect S192x64 := Rect.unit (s := S192x64) ![0, 0] S192x64.size inb_S192x64_S192x64_0_0
abbrev r2_b : Rect S1x64 := Rect.unit (s := S1x64) ![0, 0] S1x64.size inb_S1x64_S1x64_0_0
abbrev r2_w2 : Rect S64x64 := Rect.unit (s := S64x64) ![0, 0] S64x64.size inb_S64x64_S64x64_0_0
abbrev r2_out : Rect S10000x64 := Rect.unit (s := S10000x64) ![0, 0] S10000x64.size inb_S10000x64_S10000x64_0_0

/-! ## What the body leaves in the output window's buffer -/

/-- The output staging buffer after the body, from the input windows' blocks: its one store, of the payload. -/
def out2_5 (x0 : Vec F S10000x192 .bf16) (x1 : Vec F S192x64 .bf16) (x2 : Vec F S1x64 .f32) (x3 : Vec F S64x64 .bf16) (x4 : Vec F S1x64 .f32) : Vec F S10000x64 .f32 :=
  View.canon [⟨r2_out, k2_pay1 (View.ld x0 r2_cat) (View.ld x1 r2_w1) (View.ld x2 r2_b) (View.ld x3 r2_w2) (View.ld x4 r2_b)⟩]

/-- The store covers the buffer. -/
theorem cover2_5 (p0 : Vec F S10000x64 .f32) (y : S10000x64.Idx) :
    ∃ pc ∈ ([⟨r2_out, p0⟩] : List (View.Piece (Elt F) S10000x64 .f32)), y ∈ pc.1.set :=
  View.cover_of_tiled [⟨r2_out, p0⟩] S10000x64.size (by rfl) y

/-! ## The body's triple -/

set_option maxHeartbeats 1000000 in
/-- The kernel body on whole staging buffers, the inputs' at contents `x0 … x4` and the output's at anything, runs to the
    continuation holding the inputs' as they were and the output's at `out2_5` of the inputs'. -/
theorem sound_kernel2 (c : Dev nD) (E : Set ℕ) (i : grid2.Coords) (arg1 : Memref sig .tc .vmem S10000x192 .bf16) (harg1 : arg1.IsWhole) (arg2 : Memref sig .tc .vmem S192x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x192 .bf16) (x1 : Vec F S192x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at the payload of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IdealRegion3.lean ====
/-
  Region 3 of @main (the second layer's node MLP) at a parameter `V`, the TensorCore's buffer contents when the
  region is entered. A grid point's body reads five blocks — a tile of rows of the concatenated features, the two weight
  matrices and the two bias rows, the last four the same block at every point — and overwrites the whole output tile with
  one payload of them, so the output staging buffer after the body is that payload of the input blocks whatever it held
  before. From this: the body's triple on whole staging buffers, the pipeline's proof data (each input buffer left at its
  block, the output buffer at the payload), and the body obligation at every grid point.
-/
import proofs.«174539_j57174604644524_1_alg».proof.Proof.Gen.KernelIdeal.Launch
import proofs.«174539_j57174604644524_1_alg».proof.Proof.Gen.KernelIdeal.Skeleton
import proofs.«174539_j57174604644524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where the block is
    not fetched its index has not moved, so the buffer still holds the same block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not: where the block is
    not fetched its index has not moved, so the buffer still holds the same block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_cat : Rect S10000x128 := Rect.unit (s := S10000x128) ![0, 0] S10000x128.size inb_S10000x128_S10000x128_0_0
abbrev r3_w1 : Rect S128x64 := Rect.unit (s := S128x64) ![0, 0] S128x64.size inb_S128x64_S128x64_0_0
abbrev r3_b : Rect S1x64 := Rect.unit (s := S1x64) ![0, 0] S1x64.size inb_S1x64_S1x64_0_0
abbrev r3_w2 : Rect S64x64 := Rect.unit (s := S64x64) ![0, 0] S64x64.size inb_S64x64_S64x64_0_0
abbrev r3_out : Rect S10000x64 := Rect.unit (s := S10000x64) ![0, 0] S10000x64.size inb_S10000x64_S10000x64_0_0

/-! ## What the body leaves in the output window's buffer -/

/-- The output staging buffer after the body, from the input windows' blocks: its one store, of the payload. -/
def out3_5 (x0 : Vec F S10000x128 .bf16) (x1 : Vec F S128x64 .bf16) (x2 : Vec F S1x64 .f32) (x3 : Vec F S64x64 .bf16) (x4 : Vec F S1x64 .f32) : Vec F S10000x64 .f32 :=
  View.canon [⟨r3_out, k3_pay1 (View.ld x0 r3_cat) (View.ld x1 r3_w1) (View.ld x2 r3_b) (View.ld x3 r3_w2) (View.ld x4 r3_b)⟩]

/-- The store covers the buffer. -/
theorem cover3_5 (p0 : Vec F S10000x64 .f32) (y : S10000x64.Idx) :
    ∃ pc ∈ ([⟨r3_out, p0⟩] : List (View.Piece (Elt F) S10000x64 .f32)), y ∈ pc.1.set :=
  View.cover_of_tiled [⟨r3_out, p0⟩] S10000x64.size (by rfl) y

/-! ## The body's triple -/

set_option maxHeartbeats 1000000 in
/-- The kernel body on whole staging buffers, the inputs' at contents `x0 … x4` and the output's at anything, runs to the
    continuation holding the inputs' as they were and the output's at `out3_5` of the inputs'. -/
theorem sound_kernel3 (c : Dev nD) (E : Set ℕ) (i : grid3.Coords) (arg1 : Memref sig .tc .vmem S10000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S10000x64 .f32) (harg6 : arg6.IsWhole)
    (x0 : Vec F S10000x128 .bf16) (x1 : Vec F S128x64 .bf16) (x2 : Vec F S1x64 .f32) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at the payload of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.IdealRun.lean ====
/-
  The run of @main through its four regions. Between two items the TensorCore's unscoped buffers hold a valuation: the
  launch memory, then each host stretch applied, then across a region the same valuation with the region's output array
  replaced by what its write-backs leave (every other array of the region is an input and keeps its contents). Each
  region is entered from one such valuation and left at the next, so @main runs to the end, nothing faulting, every
  argument array as launched and the two results at the last valuation.
-/
import proofs.«174539_j57174604644524_1_alg».proof.Proof.IdealRegion0
import proofs.«174539_j57174604644524_1_alg».proof.Proof.IdealRegion1
import proofs.«174539_j57174604644524_1_alg».proof.Proof.IdealRegion2
import proofs.«174539_j57174604644524_1_alg».proof.Proof.IdealRegion3
import proofs.«174539_j57174604644524_1_alg».proof.Proof.IdealFrameCond

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references. -/
abbrev rd (X : Dev nD → Valuation τ sig (Elt F)) : (c : Dev nD) → (b : Ref sig .tc) → Buf (Elt F) ((c : Thread nD τ).loc b) := fun c b => X c b

/-- After the first host stretch (region 0's entry). -/
def X1 (c : Dev nD) : Valuation τ sig (Elt F) := Gen.V1 m c
/-- What region 0's write-backs leave in its output array. -/
def o2 (c : Dev nD) : Buf (Elt F) ((c : Thread nD τ).loc main_v34) := (dat0 (rd (X1 m)) c).arrAt 5 cfg0.N
/-- At region 0's exit. -/
def X2 (c : Dev nD) : Valuation τ sig (Elt F) := Function.update (X1 m c) main_v34 (o2 m c)
/-- After the second host stretch (region 1's entry). -/
def X3 (c : Dev nD) : Valuation τ sig (Elt F) := StableHlo.after hostOps1 (X2 m c)
def o4 (c : Dev nD) : Buf (Elt F) ((c : Thread nD τ).loc main_v57) := (dat1 (rd (X3 m)) c).arrAt 5 cfg1.N
def X4 (c : Dev nD) : Valuation τ sig (Elt F) := Function.update (X3 m c) main_v57 (o4 m c)
def X5 (c : Dev nD) : Valuation τ sig (Elt F) := StableHlo.after hostOps2 (X4 m c)
def o6 (c : Dev nD) : Buf (Elt F) ((c : Thread nD τ).loc main_v86) := (dat2 (rd (X5 m)) c).arrAt 5 cfg2.N
def X6 (c : Dev nD) : Valuation τ sig (Elt F) := Function.update (X5 m c) main_v86 (o6 m c)
def X7 (c : Dev nD) : Valuation τ sig (Elt F) := StableHlo.after hostOps3 (X6 m c)
def o8 (c : Dev nD) : Buf (Elt F) ((c : Thread nD τ).loc main_v109) := (dat3 (rd (X7 m)) c).arrAt 5 cfg3.N
def X8 (c : Dev nD) : Valuation τ sig (Elt F) := Function.update (X7 m c) main_v109 (o8 m c)
/-- After the last host stretch: the contents @main returns with. -/
def X9 (c : Dev nD) : Valuation τ sig (Elt F) := StableHlo.after hostOps4 (X8 m c)

/-- What the regions leave, as the unknowns the generated valuations are written over. -/
def outs : Outs (F := F) := fun J r c => match J with
  | 2 => X2 m c r
  | 4 => X4 m c r
  | 6 => X6 m c r
  | _ => X8 m c r

theorem V2_eq (c : Dev nD) : Gen.V2 m (outs m) c = X2 m c := by
  show Function.update (X1 m c) (Proc.devRef .tc main_v34) (X2 m c (Proc.devRef .tc main_v34)) = X2 m c
  unfold X2; rw [Function.update_self]
theorem V3_eq (c : Dev nD) : Gen.V3 m (outs m) c = X3 m c := by
  show StableHlo.after hostOps1 (Gen.V2 m (outs m) c) = X3 m c
  rw [V2_eq]; rfl
theorem V4_eq (c : Dev nD) : Gen.V4 m (outs m) c = X4 m c := by
  show Function.update (Gen.V3 m (outs m) c) (Proc.devRef .tc main_v57) (X4 m c (Proc.devRef .tc main_v57)) = X4 m c
  rw [V3_eq]; unfold X4; rw [Function.update_self]
theorem V5_eq (c : Dev nD) : Gen.V5 m (outs m) c = X5 m c := by
  show StableHlo.after hostOps2 (Gen.V4 m (outs m) c) = X5 m c
  rw [V4_eq]; rfl
theorem V6_eq (c : Dev nD) : Gen.V6 m (outs m) c = X6 m c := by
  show Function.update (Gen.V5 m (outs m) c) (Proc.devRef .tc main_v86) (X6 m c (Proc.devRef .tc main_v86)) = X6 m c
  rw [V5_eq]; unfold X6; rw [Function.update_self]
theorem V7_eq (c : Dev nD) : Gen.V7 m (outs m) c = X7 m c := by
  show StableHlo.after hostOps3 (Gen.V6 m (outs m) c) = X7 m c
  rw [V6_eq]; rfl
theorem V8_eq (c : Dev nD) : Gen.V8 m (outs m) c = X8 m c := by
  show Function.update (Gen.V7 m (outs m) c) (Proc.devRef .tc main_v109) (X8 m c (Proc.devRef .tc main_v109)) = X8 m c
  rw [V7_eq]; unfold X8; rw [Function.update_self]
theorem V9_eq (c : Dev nD) : Gen.V9 m (outs m) c = X9 m c := by
  show StableHlo.after hostOps4 (Gen.V8 m (outs m) c) = X9 m c
  rw [V8_eq]; rfl

theorem V1_eq (c : Dev nD) : Gen.V1 m c = X1 m c := rfl

/-! ## Each region changes its output array only -/

theorem X2_out (c : Dev nD) : X2 m c (Proc.devRef .tc main_v34) = (dat0 (rd (X1 m)) c).arrAt 5 cfg0.N := by
  unfold X2 o2; exact Function.update_self (Proc.devRef .tc main_v34) _ _
theorem X2_of_ne (c : Dev nD) (b : Ref sig .tc) (h : b ≠ main_v34) : X2 m c (Proc.devRef .tc b) = X1 m c (Proc.devRef .tc b) := by
  unfold X2; exact Function.update_of_ne (StableHlo.devRef_ne_of_ne h) _ _
theorem X4_out (c : Dev nD) : X4 m c (Proc.devRef .tc main_v57) = (dat1 (rd (X3 m)) c).arrAt 5 cfg1.N := by
  unfold X4 o4; exact Function.update_self (Proc.devRef .tc main_v57) _ _
theorem X4_of_ne (c : Dev nD) (b : Ref sig .tc) (h : b ≠ main_v57) : X4 m c (Proc.devRef .tc b) = X3 m c (Proc.devRef .tc b) := by
  unfold X4; exact Function.update_of_ne (StableHlo.devRef_ne_of_ne h) _ _
theorem X6_out (c : Dev nD) : X6 m c (Proc.devRef .tc main_v86) = (dat2 (rd (X5 m)) c).arrAt 5 cfg2.N := by
  unfold X6 o6; exact Function.update_self (Proc.devRef .tc main_v86) _ _
theorem X6_of_ne (c : Dev nD) (b : Ref sig .tc) (h : b ≠ main_v86) : X6 m c (Proc.devRef .tc b) = X5 m c (Proc.devRef .tc b) := by
  unfold X6; exact Function.update_of_ne (StableHlo.devRef_ne_of_ne h) _ _
theorem X8_out (c : Dev nD) : X8 m c (Proc.devRef .tc main_v109) = (dat3 (rd (X7 m)) c).arrAt 5 cfg3.N := by
  unfold X8 o8; exact Function.update_self (Proc.devRef .tc main_v109) _ _
theorem X8_of_ne (c : Dev nD) (b : Ref sig .tc) (h : b ≠ main_v109) : X8 m c (Proc.devRef .tc b) = X7 m c (Proc.devRef .tc b) := by
  unfold X8; exact Function.update_of_ne (StableHlo.devRef_ne_of_ne h) _ _

/-! ## The proof data family and the rest of the thread state -/

/-- Every pipeline's proof data, each at its region's entry contents. -/
def pdats : (p : Fin 4) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X5 m)) c
  | ⟨3, _⟩ => fun c => dat3 (rd (X7 m)) c

/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

-- from here on the valuations are opaque: nothing below may evaluate a fold of host operations
attribute [local irreducible] X1 X2 X3 X4 X5 X6 X7 X8 X9 o2 o4 o6 o8

/-! ## Region 0 -/

/-- Outside region 0's output array nothing changes across the region. -/
theorem hrest0 (c : Dev nD) : ∀ b, b ∉ Finset.univ.image (Pipeline.arrRef spec0) → rd (X2 m) c b = rd (X1 m) c b := fun b hb =>
  X2_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF0_0 (c : Dev nD) : (dat0 (rd (X1 m)) c).arrAt 0 cfg0.N = rd (X2 m) c (Pipeline.arrRef spec0 0) :=
  ((dat0 (rd (X1 m)) c).arrAt_in 0 rfl _).trans ((A_eq0 (rd (X1 m)) c 0).trans (X2_of_ne m c (Pipeline.arrRef spec0 0) (by decide)).symm)
theorem hF0_1 (c : Dev nD) : (dat0 (rd (X1 m)) c).arrAt 1 cfg0.N = rd (X2 m) c (Pipeline.arrRef spec0 1) :=
  ((dat0 (rd (X1 m)) c).arrAt_in 1 rfl _).trans ((A_eq0 (rd (X1 m)) c 1).trans (X2_of_ne m c (Pipeline.arrRef spec0 1) (by decide)).symm)
theorem hF0_2 (c : Dev nD) : (dat0 (rd (X1 m)) c).arrAt 2 cfg0.N = rd (X2 m) c (Pipeline.arrRef spec0 2) :=
  ((dat0 (rd (X1 m)) c).arrAt_in 2 rfl _).trans ((A_eq0 (rd (X1 m)) c 2).trans (X2_of_ne m c (Pipeline.arrRef spec0 2) (by decide)).symm)
theorem hF0_3 (c : Dev nD) : (dat0 (rd (X1 m)) c).arrAt 3 cfg0.N = rd (X2 m) c (Pipeline.arrRef spec0 3) :=
  ((dat0 (rd (X1 m)) c).arrAt_in 3 rfl _).trans ((A_eq0 (rd (X1 m)) c 3).trans (X2_of_ne m c (Pipeline.arrRef spec0 3) (by decide)).symm)
theorem hF0_4 (c : Dev nD) : (dat0 (rd (X1 m)) c).arrAt 4 cfg0.N = rd (X2 m) c (Pipeline.arrRef spec0 4) :=
  ((dat0 (rd (X1 m)) c).arrAt_in 4 rfl _).trans ((A_eq0 (rd (X1 m)) c 4).trans (X2_of_ne m c (Pipeline.arrRef spec0 4) (by decide)).symm)
theorem hF0_5 (c : Dev nD) : (dat0 (rd (X1 m)) c).arrAt 5 cfg0.N = rd (X2 m) c (Pipeline.arrRef spec0 5) :=
  (X2_out m c).symm
theorem hF0 (c : Dev nD) (w : Fin cfg0.W) : (dat0 (rd (X1 m)) c).arrAt w cfg0.N = rd (X2 m) c (Pipeline.arrRef spec0 w) := by
  rcases (by decide : ∀ w : Fin cfg0.W, w = 0 ∨ w = 1 ∨ w = 2 ∨ w = 3 ∨ w = 4 ∨ w = 5) w with rfl | rfl | rfl | rfl | rfl | rfl
  · exact hF0_0 m c
  · exact hF0_1 m c
  · exact hF0_2 m c
  · exact hF0_3 m c
  · exact hF0_4 m c
  · exact hF0_5 m c

set_option backward.isDefEq.respectTransparency.types false in
/-- Region 0 over the thread state: entered from every unscoped buffer at `X1`, left at `X2`. Its arrays are
    split out of the unscoped buffers and put back at the exit contents; the generator register goes into the class
    invariant and comes out; nothing is owed; the kernel has no semaphore of its own. -/
def reg0 : RegionSeg (pcfgs (F := F)) adm (pdats m) () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := (body_obligation0 (rd (X1 m)) c).loose
  hwaits := Pipeline.hwaits_of_owed_zero _ _ _ _ (fun _ => (∅ : Finset Unit)) (fun _ _ => (0 : ℕ)) 0 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec0 c (rd (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (X1 m) c) (rd (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Outside region 1's output array nothing changes across the region. -/
theorem hrest1 (c : Dev nD) : ∀ b, b ∉ Finset.univ.image (Pipeline.arrRef spec1) → rd (X4 m) c b = rd (X3 m) c b := fun b hb =>
  X4_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF1_0 (c : Dev nD) : (dat1 (rd (X3 m)) c).arrAt 0 cfg1.N = rd (X4 m) c (Pipeline.arrRef spec1 0) :=
  ((dat1 (rd (X3 m)) c).arrAt_in 0 rfl _).trans ((A_eq1 (rd (X3 m)) c 0).trans (X4_of_ne m c (Pipeline.arrRef spec1 0) (by decide)).symm)
theorem hF1_1 (c : Dev nD) : (dat1 (rd (X3 m)) c).arrAt 1 cfg1.N = rd (X4 m) c (Pipeline.arrRef spec1 1) :=
  ((dat1 (rd (X3 m)) c).arrAt_in 1 rfl _).trans ((A_eq1 (rd (X3 m)) c 1).trans (X4_of_ne m c (Pipeline.arrRef spec1 1) (by decide)).symm)
theorem hF1_2 (c : Dev nD) : (dat1 (rd (X3 m)) c).arrAt 2 cfg1.N = rd (X4 m) c (Pipeline.arrRef spec1 2) :=
  ((dat1 (rd (X3 m)) c).arrAt_in 2 rfl _).trans ((A_eq1 (rd (X3 m)) c 2).trans (X4_of_ne m c (Pipeline.arrRef spec1 2) (by decide)).symm)
theorem hF1_3 (c : Dev nD) : (dat1 (rd (X3 m)) c).arrAt 3 cfg1.N = rd (X4 m) c (Pipeline.arrRef spec1 3) :=
  ((dat1 (rd (X3 m)) c).arrAt_in 3 rfl _).trans ((A_eq1 (rd (X3 m)) c 3).trans (X4_of_ne m c (Pipeline.arrRef spec1 3) (by decide)).symm)
theorem hF1_4 (c : Dev nD) : (dat1 (rd (X3 m)) c).arrAt 4 cfg1.N = rd (X4 m) c (Pipeline.arrRef spec1 4) :=
  ((dat1 (rd (X3 m)) c).arrAt_in 4 rfl _).trans ((A_eq1 (rd (X3 m)) c 4).trans (X4_of_ne m c (Pipeline.arrRef spec1 4) (by decide)).symm)
theorem hF1_5 (c : Dev nD) : (dat1 (rd (X3 m)) c).arrAt 5 cfg1.N = rd (X4 m) c (Pipeline.arrRef spec1 5) :=
  (X4_out m c).symm
theorem hF1 (c : Dev nD) (w : Fin cfg1.W) : (dat1 (rd (X3 m)) c).arrAt w cfg1.N = rd (X4 m) c (Pipeline.arrRef spec1 w) := by
  rcases (by decide : ∀ w : Fin cfg1.W, w = 0 ∨ w = 1 ∨ w = 2 ∨ w = 3 ∨ w = 4 ∨ w = 5) w with rfl | rfl | rfl | rfl | rfl | rfl
  · exact hF1_0 m c
  · exact hF1_1 m c
  · exact hF1_2 m c
  · exact hF1_3 m c
  · exact hF1_4 m c
  · exact hF1_5 m c

set_option backward.isDefEq.respectTransparency.types false in
/-- Region 1 over the thread state: entered from every unscoped buffer at `X3`, left at `X4`. Its arrays are
    split out of the unscoped buffers and put back at the exit contents; the generator register goes into the class
    invariant and comes out; nothing is owed; the kernel has no semaphore of its own. -/
def reg1 : RegionSeg (pcfgs (F := F)) adm (pdats m) () defs₀ Variants.none (fun _ => (∅ : Finset Unit)) (fun _ _ => (0 : ℕ)) 1 where
  win := launch1.win.to₀
  block_pos := launch1.block_pos
  stage_whole := launch1.stage_whole
  K := PEmpty
  osem k := k.elim
  ho := Pipeline.OwnSemFacts.none _
  hbody c := (body_obligation1 (rd (X3 m)) c).loose
  hwaits := Pipeline.hwaits_of_owed_zero _ _ _ _ (fun _ => (∅ : Finset Unit)) (fun _ _ => (0 : ℕ)) 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (rd (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (X3 m) c) (rd (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Outside region 2's output array nothing changes across the region. -/
theorem hrest2 (c : Dev nD) : ∀ b, b ∉ Finset.univ.image (Pipeline.arrRef spec2) → rd (X6 m) c b = rd (X5 m) c b := fun b hb =>
  X6_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF2_0 (c : Dev nD) : (dat2 (rd (X5 m)) c).arrAt 0 cfg2.N = rd (X6 m) c (Pipeline.arrRef spec2 0) :=
  ((dat2 (rd (X5 m)) c).arrAt_in 0 rfl _).trans ((A_eq2 (rd (X5 m)) c 0).trans (X6_of_ne m c (Pipeline.arrRef spec2 0) (by decide)).symm)
theorem hF2_1 (c : Dev nD) : (dat2 (rd (X5 m)) c).arrAt 1 cfg2.N = rd (X6 m) c (Pipeline.arrRef spec2 1) :=
  ((dat2 (rd (X5 m)) c).arrAt_in 1 rfl _).trans ((A_eq2 (rd (X5 m)) c 1).trans (X6_of_ne m c (Pipeline.arrRef spec2 1) (by decide)).symm)
theorem hF2_2 (c : Dev nD) : (dat2 (rd (X5 m)) c).arrAt 2 cfg2.N = rd (X6 m) c (Pipeline.arrRef spec2 2) :=
  ((dat2 (rd (X5 m)) c).arrAt_in 2 rfl _).trans ((A_eq2 (rd (X5 m)) c 2).trans (X6_of_ne m c (Pipeline.arrRef spec2 2) (by decide)).symm)
theorem hF2_3 (c : Dev nD) : (dat2 (rd (X5 m)) c).arrAt 3 cfg2.N = rd (X6 m) c (Pipeline.arrRef spec2 3) :=
  ((dat2 (rd (X5 m)) c).arrAt_in 3 rfl _).trans ((A_eq2 (rd (X5 m)) c 3).trans (X6_of_ne m c (Pipeline.arrRef spec2 3) (by decide)).symm)
theorem hF2_4 (c : Dev nD) : (dat2 (rd (X5 m)) c).arrAt 4 cfg2.N = rd (X6 m) c (Pipeline.arrRef spec2 4) :=
  ((dat2 (rd (X5 m)) c).arrAt_in 4 rfl _).trans ((A_eq2 (rd (X5 m)) c 4).trans (X6_of_ne m c (Pipeline.arrRef spec2 4) (by decide)).symm)
theorem hF2_5 (c : Dev nD) : (dat2 (rd (X5 m)) c).arrAt 5 cfg2.N = rd (X6 m) c (Pipeline.arrRef spec2 5) :=
  (X6_out m c).symm
theorem hF2 (c : Dev nD) (w : Fin cfg2.W) : (dat2 (rd (X5 m)) c).arrAt w cfg2.N = rd (X6 m) c (Pipeline.arrRef spec2 w) := by
  rcases (by decide : ∀ w : Fin cfg2.W, w = 0 ∨ w = 1 ∨ w = 2 ∨ w = 3 ∨ w = 4 ∨ w = 5) w with rfl | rfl | rfl | rfl | rfl | rfl
  · exact hF2_0 m c
  · exact hF2_1 m c
  · exact hF2_2 m c
  · exact hF2_3 m c
  · exact hF2_4 m c
  · exact hF2_5 m c

set_option backward.isDefEq.respectTransparency.types false in
/-- Region 2 over the thread state: entered from every unscoped buffer at `X5`, left at `X6`. Its arrays are
    split out of the unscoped buffers and put back at the exit contents; the generator register goes into the class
    invariant and comes out; nothing is owed; the kernel has no semaphore of its own. -/
def reg2 : RegionSeg (pcfgs (F := F)) adm (pdats m) () defs₀ Variants.none (fun _ => (∅ : Finset Unit)) (fun _ _ => (0 : ℕ)) 2 where
  win := launch2.win.to₀
  block_pos := launch2.block_pos
  stage_whole := launch2.stage_whole
  K := PEmpty
  osem k := k.elim
  ho := Pipeline.OwnSemFacts.none _
  hbody c := (body_obligation2 (rd (X5 m)) c).loose
  hwaits := Pipeline.hwaits_of_owed_zero _ _ _ _ (fun _ => (∅ : Finset Unit)) (fun _ _ => (0 : ℕ)) 2 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec2 c (rd (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (X5 m) c) (rd (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- Outside region 3's output array nothing changes across the region. -/
theorem hrest3 (c : Dev nD) : ∀ b, b ∉ Finset.univ.image (Pipeline.arrRef spec3) → rd (X8 m) c b = rd (X7 m) c b := fun b hb =>
  X8_of_ne m c b fun e => hb (Finset.mem_image.mpr ⟨5, Finset.mem_univ _, e.symm ▸ rfl⟩)

/-- At the exit each of the region's arrays holds what the pipeline leaves: an input array its entry contents, the output
    array the write-backs. One window at a time, then for every window. -/
theorem hF3_0 (c : Dev nD) : (dat3 (rd (X7 m)) c).arrAt 0 cfg3.N = rd (X8 m) c (Pipeline.arrRef spec3 0) :=
  ((dat3 (rd (X7 m)) c).arrAt_in 0 rfl _).trans ((A_eq3 (rd (X7 m)) c 0).trans (X8_of_ne m c (Pipeline.arrRef spec3 0) (by decide)).symm)
theorem hF3_1 (c : Dev nD) : (dat3 (rd (X7 m)) c).arrAt 1 cfg3.N = rd (X8 m) c (Pipeline.arrRef spec3 1) :=
  ((dat3 (rd (X7 m)) c).arrAt_in 1 rfl _).trans ((A_eq3 (rd (X7 m)) c 1).trans (X8_of_ne m c (Pipeline.arrRef spec3 1) (by decide)).symm)
theorem hF3_2 (c : Dev nD) : (dat3 (rd (X7 m)) c).arrAt 2 cfg3.N = rd (X8 m) c (Pipeline.arrRef spec3 2) :=
  ((dat3 (rd (X7 m)) c).arrAt_in 2 rfl _).trans ((A_eq3 (rd (X7 m)) c 2).trans (X8_of_ne m c (Pipeline.arrRef spec3 2) (by decide)).symm)
theorem hF3_3 (c : Dev nD) : (dat3 (rd (X7 m)) c).arrAt 3 cfg3.N = rd (X8 m) c (Pipeline.arrRef spec3 3) :=
  ((dat3 (rd (X7 m)) c).arrAt_in 3 rfl _).trans ((A_eq3 (rd (X7 m)) c 3).trans (X8_of_ne m c (Pipeline.arrRef spec3 3) (by decide)).symm)
theorem hF3_4 (c : Dev nD) : (dat3 (rd (X7 m)) c).arrAt 4 cfg3.N = rd (X8 m) c (Pipeline.arrRef spec3 4) :=
  ((dat3 (rd (X7 m)) c).arrAt_in 4 rfl _).trans ((A_eq3 (rd (X7 m)) c 4).trans (X8_of_ne m c (Pipeline.arrRef spec3 4) (by decide)).symm)
theorem hF3_5 (c : Dev nD) : (dat3 (rd (X7 m)) c).arrAt 5 cfg3.N = rd (X8 m) c (Pipeline.arrRef spec3 5) :=
  (X8_out m c).symm
theorem hF3 (c : Dev nD) (w : Fin cfg3.W) : (dat3 (rd (X7 m)) c).arrAt w cfg3.N = rd (X8 m) c (Pipeline.arrRef spec3 w) := by
  rcases (by decide : ∀ w : Fin cfg3.W, w = 0 ∨ w = 1 ∨ w = 2 ∨ w = 3 ∨ w = 4 ∨ w = 5) w with rfl | rfl | rfl | rfl | rfl | rfl
  · exact hF3_0 m c
  · exact hF3_1 m c
  · exact hF3_2 m c
  · exact hF3_3 m c
  · exact hF3_4 m c
  · exact hF3_5 m c

set_option backward.isDefEq.respectTransparency.types false in
/-- Region 3 over the thread state: entered from every unscoped buffer at `X7`, left at `X8`. Its arrays are
    split out of the unscoped buffers and put back at the exit contents; the generator register goes into the class
    invariant and comes out; nothing is owed; the kernel has no semaphore of its own. -/
def reg3 : RegionSeg (pcfgs (F := F)) adm (pdats m) () defs₀ Variants.none (fun _ => (∅ : Finset Unit)) (fun _ _ => (0 : ℕ)) 3 where
  win := launch3.win.to₀
  block_pos := launch3.block_pos
  stage_whole := launch3.stage_whole
  K := PEmpty
  osem k := k.elim
  ho := Pipeline.OwnSemFacts.none _
  hbody c := (body_obligation3 (rd (X7 m)) c).loose
  hwaits := Pipeline.hwaits_of_owed_zero _ _ _ _ (fun _ => (∅ : Finset Unit)) (fun _ _ => (0 : ℕ)) 3 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec3 c (rd (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (X7 m) c) (rd (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main on the TensorCores terminates, nothing
    faulting, with the two results at the last valuation and every argument array as launched. -/
theorem run_res (ρ : Dev nD → PrngReg) :
    θ_run defs (onTc (τ := τ) (main (F := F))) ⟨m, fun _ => 0, ρ⟩ (fun r => ∀ c : Dev nD,
      r.2.mem ((c.tc : Thread nD τ).loc main_v110) = X9 m c main_v110
      ∧ r.2.mem ((c.tc : Thread nD τ).loc main_v111) = X9 m c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := GenP.frame_cond_res m (F := F) (Ix := Unit) (U := UR sig nD τ) (Lvl := ℕ) emb₁ () Variants.none (fun _ => (∅ : Finset Unit)) (fun _ _ => (0 : ℕ)) (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
  refine (θ_run defs _ _).mono (fun r hr c => ?_) h
  have hc := hr c
  rw [V9_eq] at hc
  exact hc

end Cert.KernelIdeal.Fr

end
-- ==== Proof.Spec.lean ====
/-
  The shared specification of one row of the two-layer perceptron both programs apply: with a row `cat` of `K`
  features, weights `w1 : K × 64`, `w2 : 64 × 64` and biases `b1`, `b2`,
      out j = (∑ h, silu ((∑ f, cat f · w1 f h) + b1 h) · w2 h j) + b2 j,
  where `silu x = x · logistic x` and `logistic x = 1 / (1 + e^(−x))` on the extended reals. Sums are finite sums in
  the commutative monoid of the extended reals, so no order of summation is part of the specification.
-/
import Idealize.ShloMosaic.PureOps.Ideal
import Idealize.ShloMosaic.Lib.ValueIdx

noncomputable section

namespace Cert.Spec

open Idealize.ShloMosaic

/-- `silu x = x · logistic x`. -/
def silu (x : EReal) : EReal := x * Ideal.logistic x

/-- One output element of the perceptron applied to the row `cat`. -/
def mlpRow {K : Nat} (cat : Fin K → EReal) (w1 : Fin K → Fin 64 → EReal) (b1 : Fin 64 → EReal)
    (w2 : Fin 64 → Fin 64 → EReal) (b2 : Fin 64 → EReal) (j : Fin 64) : EReal :=
  (∑ h : Fin 64, silu ((∑ f : Fin K, cat f * w1 f h) + b1 h) * w2 h j) + b2 j

end Cert.Spec

end
-- ==== Proof.MlpKernel.lean ====
/-
  Each of the four kernel bodies stores one value: its payload, a function of the five blocks it loads. Read at row
  `r` and column `j`, that payload is the two-layer perceptron of the specification applied to row `r` of the first
  block: the first product summed over the row's features plus the first bias, `x · logistic x` of that, the second
  product summed over the 64 hidden units plus the second bias. On the extended reals every operation is exact and
  the change of format between the two products is the identity, so the equality is termwise.
-/
import proofs.«174539_j57174604644524_1_alg».proof.Proof.Gen.KernelIdeal.Skeleton
import proofs.«174539_j57174604644524_1_alg».proof.Proof.Spec
import Idealize.ShloMosaic.PureOps.Ideal.Laws
import Idealize.ShloMosaic.Lib.Pipeline.Value
import Idealize.ShloMosaic.Lib.ValueIdx

noncomputable section

namespace Cert.MlpKernel

open Idealize.ShloMosaic Idealize.SL.Sem Idealize.ShloMosaic.ValueIdx
open Cert.KernelIdeal Cert.KernelIdeal.Gen

/-- A bias row broadcast down the 10000 rows reads, at `(r, j)`, the row's entry `j`. -/
theorem bias_apply (b : FVec Ideal S1x64 .f32) (r : Fin 10000) (j : Fin 64) :
    broadcastTo S10000x64 b broadcasts_S1x64_S10000x64 (ix2 r j) = b (ix2 0 j) :=
  broadcastTo_apply b broadcasts_S1x64_S10000x64 (ix2 r j) (ix2 0 j) (fun a => by
    match a with
    | ⟨0, _⟩ => rfl
    | ⟨1, _⟩ => rfl)

/-- The hidden activation: `x · logistic x` elementwise, then a change of format that is the identity here. -/
theorem hidden_apply (a : FVec Ideal S10000x64 .f32) (h : FTy.bf16.bits < FTy.f32.bits) (i : S10000x64.Idx) :
    truncf .bf16 (mulf a (logistic a)) h i = Cert.Spec.silu (a i) := rfl

/-! The first product of bodies 0 and 2 at `(r, j)`: the sum over the 192 features. -/
theorem mm192_lhs0 (i : S10000x64.Idx) (q : dot_S10000x192_S192x64_S10000x64_1_0_0_1_n_n.contr.Idx) : (dot_S10000x192_S192x64_S10000x64_1_0_0_1_n_n.lhsIdx i q 0).val = (i 0).val := by
  unfold DotDims.lhsIdx
  rw [dif_neg (show ¬(0 : Fin S10000x192.rank) ∈ dot_S10000x192_S192x64_S10000x64_1_0_0_1_n_n.lhsBatch by decide),
    dif_pos (show (0 : Fin S10000x192.rank) ∈ dot_S10000x192_S192x64_S10000x64_1_0_0_1_n_n.lhsNonContracting by decide)]
  rfl
theorem mm192_rhs1 (i : S10000x64.Idx) (q : dot_S10000x192_S192x64_S10000x64_1_0_0_1_n_n.contr.Idx) : (dot_S10000x192_S192x64_S10000x64_1_0_0_1_n_n.rhsIdx i q 1).val = (i 1).val := by
  unfold DotDims.rhsIdx
  rw [dif_neg (show ¬(1 : Fin S192x64.rank) ∈ dot_S10000x192_S192x64_S10000x64_1_0_0_1_n_n.rhsBatch by decide),
    dif_pos (show (1 : Fin S192x64.rank) ∈ dot_S10000x192_S192x64_S10000x64_1_0_0_1_n_n.rhsNonContracting by decide)]
  rfl
theorem mm192 (a : FVec Ideal S10000x192 .bf16) (b : FVec Ideal S192x64 .bf16) (r : Fin 10000) (j : Fin 64) :
    matmul dot_S10000x192_S192x64_S10000x64_1_0_0_1_n_n none a b (constant S10000x64 .f32 0x00000000#32) (ix2 r j)
      = ∑ k : Fin 192, a (ix2 r k) * b (ix2 k j) := by
  refine (Ideal.matmul_constant_zero_apply dot_S10000x192_S192x64_S10000x64_1_0_0_1_n_n none a b (ix2 r j)).trans ?_
  rw [← Equiv.sum_comp (ValueIdx.contrEquiv1 dot_S10000x192_S192x64_S10000x64_1_0_0_1_n_n 192 rfl rfl).symm]
  refine Finset.sum_congr rfl fun k _ => ?_
  have hk := ValueIdx.contrEquiv1_symm_val dot_S10000x192_S192x64_S10000x64_1_0_0_1_n_n 192 rfl rfl k
  have el : dot_S10000x192_S192x64_S10000x64_1_0_0_1_n_n.lhsIdx (ix2 r j) ((ValueIdx.contrEquiv1 dot_S10000x192_S192x64_S10000x64_1_0_0_1_n_n 192 rfl rfl).symm k) = ix2 r k :=
    funext fun a => Fin.ext (by
      match a with
      | ⟨0, _⟩ => exact mm192_lhs0 _ _
      | ⟨1, _⟩ => exact (dot_S10000x192_S192x64_S10000x64_1_0_0_1_n_n.lhsIdx_val_of_single rfl _ _).trans hk)
  have er : dot_S10000x192_S192x64_S10000x64_1_0_0_1_n_n.rhsIdx (ix2 r j) ((ValueIdx.contrEquiv1 dot_S10000x192_S192x64_S10000x64_1_0_0_1_n_n 192 rfl rfl).symm k) = ix2 k j :=
    funext fun a => Fin.ext (by
      match a with
      | ⟨0, _⟩ => exact (dot_S10000x192_S192x64_S10000x64_1_0_0_1_n_n.rhsIdx_val_of_single rfl _ _).trans hk
      | ⟨1, _⟩ => exact mm192_rhs1 _ _)
  rw [el, er]

/-! The first product of bodies 1 and 3 at `(r, j)`: the sum over the 128 features. -/
theorem mm128_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem mm128_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl
theorem mm128 (a : FVec Ideal S10000x128 .bf16) (b : FVec Ideal S128x64 .bf16) (r : Fin 10000) (j : Fin 64) :
    matmul dot_S10000x128_S128x64_S10000x64_1_0_0_1_n_n none a b (constant S10000x64 .f32 0x00000000#32) (ix2 r j)
      = ∑ k : Fin 128, a (ix2 r k) * b (ix2 k j) := by
  refine (Ideal.matmul_constant_zero_apply dot_S10000x128_S128x64_S10000x64_1_0_0_1_n_n none a b (ix2 r j)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 r j) ((ValueIdx.contrEquiv1 dot_S10000x128_S128x64_S10000x64_1_0_0_1_n_n 128 rfl rfl).symm k) = ix2 r k :=
    funext fun a => Fin.ext (by
      match a with
      | ⟨0, _⟩ => exact mm128_lhs0 _ _
      | ⟨1, _⟩ => exact (dot_S10000x128_S128x64_S10000x64_1_0_0_1_n_n.lhsIdx_val_of_single rfl _ _).trans hk)
  have er : dot_S10000x128_S128x64_S10000x64_1_0_0_1_n_n.rhsIdx (ix2 r j) ((ValueIdx.contrEquiv1 dot_S10000x128_S128x64_S10000x64_1_0_0_1_n_n 128 rfl rfl).symm k) = ix2 k j :=
    funext fun a => Fin.ext (by
      match a with
      | ⟨0, _⟩ => exact (dot_S10000x128_S128x64_S10000x64_1_0_0_1_n_n.rhsIdx_val_of_single rfl _ _).trans hk
      | ⟨1, _⟩ => exact mm128_rhs1 _ _)
  rw [el, er]

/-! The second product of every body at `(r, j)`: the sum over the 64 hidden units. -/
theorem mm64_lhs0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem mm64_rhs1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl
theorem mm64 (a : FVec Ideal S10000x64 .bf16) (b : FVec Ideal S64x64 .bf16) (r : Fin 10000) (j : Fin 64) :
    matmul dot_S10000x64_S64x64_S10000x64_1_0_0_1_n_n none a b (constant S10000x64 .f32 0x00000000#32) (ix2 r j)
      = ∑ k : Fin 64, a (ix2 r k) * b (ix2 k j) := by
  refine (Ideal.matmul_constant_zero_apply dot_S10000x64_S64x64_S10000x64_1_0_0_1_n_n none a b (ix2 r j)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k :=
    funext fun a => Fin.ext (by
      match a with
      | ⟨0, _⟩ => exact mm64_lhs0 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl _ _).trans hk
      | ⟨1, _⟩ => exact mm64_rhs1 _ _)
  rw [el, er]

/-- Body 0's payload at `(r, j)` is the specification's perceptron row over 192 features. -/
theorem pay0_apply (x0 : Vec Ideal S10000x192 .bf16) (x1 : Vec Ideal S192x64 .bf16) (x2 : Vec Ideal S1x64 .f32)
    (x3 : Vec Ideal S64x64 .bf16) (x4 : Vec Ideal S1x64 .f32) (r : Fin 10000) (j : Fin 64) :
    Cert.KernelIdeal.Gen.k0_pay1 (F := Ideal) x0 x1 x2 x3 x4 (ix2 r j)
      = Cert.Spec.mlpRow (fun f => x0 (ix2 r f)) (fun f h => x1 (ix2 f h)) (fun h => x2 (ix2 0 h))
          (fun h j => x3 (ix2 h j)) (fun j => x4 (ix2 0 j)) j := by
  unfold Cert.KernelIdeal.Gen.k0_pay1 Cert.Spec.mlpRow
  simp only [shapeCast_self]
  refine (ValueIdx.addf_apply _ _ _).trans ?_
  refine congrArg₂ (· + ·) ?_ (bias_apply x4 r j)
  refine (mm64 _ _ r j).trans ?_
  refine Finset.sum_congr rfl fun h _ => ?_
  refine congrArg (· * x3 (ix2 h j)) ?_
  refine (hidden_apply _ _ (ix2 r h)).trans ?_
  refine congrArg Cert.Spec.silu ?_
  refine (ValueIdx.addf_apply _ _ _).trans ?_
  exact congrArg₂ (· + ·) (mm192 _ _ r h) (bias_apply x2 r h)

/-- Body 1's payload at `(r, j)` is the specification's perceptron row over 128 features. -/
theorem pay1_apply (x0 : Vec Ideal S10000x128 .bf16) (x1 : Vec Ideal S128x64 .bf16) (x2 : Vec Ideal S1x64 .f32)
    (x3 : Vec Ideal S64x64 .bf16) (x4 : Vec Ideal S1x64 .f32) (r : Fin 10000) (j : Fin 64) :
    Cert.KernelIdeal.Gen.k1_pay1 (F := Ideal) x0 x1 x2 x3 x4 (ix2 r j)
      = Cert.Spec.mlpRow (fun f => x0 (ix2 r f)) (fun f h => x1 (ix2 f h)) (fun h => x2 (ix2 0 h))
          (fun h j => x3 (ix2 h j)) (fun j => x4 (ix2 0 j)) j := by
  unfold Cert.KernelIdeal.Gen.k1_pay1 Cert.Spec.mlpRow
  simp only [shapeCast_self]
  refine (ValueIdx.addf_apply _ _ _).trans ?_
  refine congrArg₂ (· + ·) ?_ (bias_apply x4 r j)
  refine (mm64 _ _ r j).trans ?_
  refine Finset.sum_congr rfl fun h _ => ?_
  refine congrArg (· * x3 (ix2 h j)) ?_
  refine (hidden_apply _ _ (ix2 r h)).trans ?_
  refine congrArg Cert.Spec.silu ?_
  refine (ValueIdx.addf_apply _ _ _).trans ?_
  exact congrArg₂ (· + ·) (mm128 _ _ r h) (bias_apply x2 r h)

/-- Body 2's payload at `(r, j)` is the specification's perceptron row over 192 features. -/
theorem pay2_apply (x0 : Vec Ideal S10000x192 .bf16) (x1 : Vec Ideal S192x64 .bf16) (x2 : Vec Ideal S1x64 .f32)
    (x3 : Vec Ideal S64x64 .bf16) (x4 : Vec Ideal S1x64 .f32) (r : Fin 10000) (j : Fin 64) :
    Cert.KernelIdeal.Gen.k2_pay1 (F := Ideal) x0 x1 x2 x3 x4 (ix2 r j)
      = Cert.Spec.mlpRow (fun f => x0 (ix2 r f)) (fun f h => x1 (ix2 f h)) (fun h => x2 (ix2 0 h))
          (fun h j => x3 (ix2 h j)) (fun j => x4 (ix2 0 j)) j := by
  unfold Cert.KernelIdeal.Gen.k2_pay1 Cert.Spec.mlpRow
  simp only [shapeCast_self]
  refine (ValueIdx.addf_apply _ _ _).trans ?_
  refine congrArg₂ (· + ·) ?_ (bias_apply x4 r j)
  refine (mm64 _ _ r j).trans ?_
  refine Finset.sum_congr rfl fun h _ => ?_
  refine congrArg (· * x3 (ix2 h j)) ?_
  refine (hidden_apply _ _ (ix2 r h)).trans ?_
  refine congrArg Cert.Spec.silu ?_
  refine (ValueIdx.addf_apply _ _ _).trans ?_
  exact congrArg₂ (· + ·) (mm192 _ _ r h) (bias_apply x2 r h)

/-- Body 3's payload at `(r, j)` is the specification's perceptron row over 128 features. -/
theorem pay3_apply (x0 : Vec Ideal S10000x128 .bf16) (x1 : Vec Ideal S128x64 .bf16) (x2 : Vec Ideal S1x64 .f32)
    (x3 : Vec Ideal S64x64 .bf16) (x4 : Vec Ideal S1x64 .f32) (r : Fin 10000) (j : Fin 64) :
    Cert.KernelIdeal.Gen.k3_pay1 (F := Ideal) x0 x1 x2 x3 x4 (ix2 r j)
      = Cert.Spec.mlpRow (fun f => x0 (ix2 r f)) (fun f h => x1 (ix2 f h)) (fun h => x2 (ix2 0 h))
          (fun h j => x3 (ix2 h j)) (fun j => x4 (ix2 0 j)) j := by
  unfold Cert.KernelIdeal.Gen.k3_pay1 Cert.Spec.mlpRow
  simp only [shapeCast_self]
  refine (ValueIdx.addf_apply _ _ _).trans ?_
  refine congrArg₂ (· + ·) ?_ (bias_apply x4 r j)
  refine (mm64 _ _ r j).trans ?_
  refine Finset.sum_congr rfl fun h _ => ?_
  refine congrArg (· * x3 (ix2 h j)) ?_
  refine (hidden_apply _ _ (ix2 r h)).trans ?_
  refine congrArg Cert.Spec.silu ?_
  refine (ValueIdx.addf_apply _ _ _).trans ?_
  exact congrArg₂ (· + ·) (mm128 _ _ r h) (bias_apply x2 r h)

end Cert.MlpKernel

end
-- ==== Proof.IdealOut.lean ====
/-
  Each kernel region's output array after the region, as one function of the arrays the region reads.

  A region runs a grid of points; point `t` stages rows `[10000·t, 10000·t + 10000)` of the feature array and the whole
  weight and bias arrays, computes the two-layer perceptron of every staged row, and writes the rows back to the same
  rows of the output array.  The tiles of the points cover the output array, so after the region row `n` of the output
  is the perceptron (`Cert.Spec.mlpRow`) of row `n` of the feature array.
-/
import proofs.«174539_j57174604644524_1_alg».proof.Proof.IdealRegion0
import proofs.«174539_j57174604644524_1_alg».proof.Proof.IdealRegion1
import proofs.«174539_j57174604644524_1_alg».proof.Proof.IdealRegion2
import proofs.«174539_j57174604644524_1_alg».proof.Proof.IdealRegion3
import proofs.«174539_j57174604644524_1_alg».proof.Proof.MlpKernel
import proofs.«174539_j57174604644524_1_alg».proof.Proof.Spec
import Idealize.ShloMosaic.Lib.Pipeline.Value
import Idealize.ShloMosaic.Lib.ValueIdx

noncomputable section

namespace Cert.KernelIdeal.Out

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The perceptron of every row of an edge feature array `[800000, 192]`. -/
def rowsE (cat : S800000x192.Idx → EReal) (w1 : S192x64.Idx → EReal) (b1 : S1x64.Idx → EReal) (w2 : S64x64.Idx → EReal)
    (b2 : S1x64.Idx → EReal) : S800000x64.Idx → EReal :=
  fun i => Cert.Spec.mlpRow (fun f => cat (ix2 ⟨(i 0).val, (i 0).isLt⟩ f)) (fun f h => w1 (ix2 f h)) (fun h => b1 (ix2 0 h))
    (fun h j => w2 (ix2 h j)) (fun j => b2 (ix2 0 j)) ⟨(i 1).val, (i 1).isLt⟩

/-- The perceptron of every row of a node feature array `[50000, 128]`. -/
def rowsN (cat : S50000x128.Idx → EReal) (w1 : S128x64.Idx → EReal) (b1 : S1x64.Idx → EReal) (w2 : S64x64.Idx → EReal)
    (b2 : S1x64.Idx → EReal) : S50000x64.Idx → EReal :=
  fun i => Cert.Spec.mlpRow (fun f => cat (ix2 ⟨(i 0).val, (i 0).isLt⟩ f)) (fun f h => w1 (ix2 f h)) (fun h => b1 (ix2 0 h))
    (fun h j => w2 (ix2 h j)) (fun j => b2 (ix2 0 j)) ⟨(i 1).val, (i 1).isLt⟩

/-! ## Region 0 -/

/-- The printed index maps of region 0, decided over the grid: the feature and output tiles are tile `t`, the weights
    and biases the whole arrays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_N0 (t : Fin cfg0.N) : t.val < 80 := lt_of_lt_of_eq t.isLt N_0

/-- The feature tile of point `t`, read at `(r, f)`: row `10000·t + r` of the feature array. -/
theorem blk0_0 (c : Dev nD) (t : Fin cfg0.N) (r : Fin 10000) (f : Fin 192) (h : t.val * 10000 + r.val < 800000) :
    iblk0 V c 0 t (ix2 r f) = V c main_v21 (ix2 ⟨t.val * 10000 + r.val, h⟩ f) := by
  show V c main_v21 (((cfg0.win 0).blk t).view.emb (ix2 r f)) = _
  refine congrArg (V c main_v21) ?_
  obtain ⟨e0, e1, -⟩ := idx_facts0 t
  funext a; apply Fin.ext
  match a with
  | ⟨0, _⟩ => show win0_0.index t (0 : Fin 2) * 10000 + 1 * r.val = t.val * 10000 + r.val; omega
  | ⟨1, _⟩ => show win0_0.index t (1 : Fin 2) * 192 + 1 * f.val = f.val; omega

/-- The first weight matrix's block at every point is the whole matrix. -/
theorem blk0_1 (c : Dev nD) (t : Fin cfg0.N) (f : Fin 192) (h : Fin 64) :
    iblk0 V c 1 t (ix2 f h) = V c main_v24 (ix2 f h) := by
  show V c main_v24 (((cfg0.win 1).blk t).view.emb (ix2 f h)) = _
  refine congrArg (V c main_v24) ?_
  obtain ⟨-, -, e0, e1, -⟩ := idx_facts0 t
  funext a; apply Fin.ext
  match a with
  | ⟨0, _⟩ => show win0_1.index t (0 : Fin 2) * 192 + 1 * f.val = f.val; omega
  | ⟨1, _⟩ => show win0_1.index t (1 : Fin 2) * 64 + 1 * h.val = h.val; omega

/-- The first bias row's block at every point is the whole row. -/
theorem blk0_2 (c : Dev nD) (t : Fin cfg0.N) (z : Fin 1) (h : Fin 64) :
    iblk0 V c 2 t (ix2 z h) = V c main_v32 (ix2 z h) := by
  show V c main_v32 (((cfg0.win 2).blk t).view.emb (ix2 z h)) = _
  refine congrArg (V c main_v32) ?_
  obtain ⟨-, -, -, -, e0, e1, -⟩ := idx_facts0 t
  funext a; apply Fin.ext
  match a with
  | ⟨0, _⟩ => show win0_2.index t (0 : Fin 2) * 1 + 1 * z.val = z.val; omega
  | ⟨1, _⟩ => show win0_2.index t (1 : Fin 2) * 64 + 1 * h.val = h.val; omega

/-- The second weight matrix's block at every point is the whole matrix. -/
theorem blk0_3 (c : Dev nD) (t : Fin cfg0.N) (h : Fin 64) (j : Fin 64) :
    iblk0 V c 3 t (ix2 h j) = V c main_v27 (ix2 h j) := by
  show V c main_v27 (((cfg0.win 3).blk t).view.emb (ix2 h j)) = _
  refine congrArg (V c main_v27) ?_
  obtain ⟨-, -, -, -, -, -, e0, e1, -⟩ := idx_facts0 t
  funext a; apply Fin.ext
  match a with
  | ⟨0, _⟩ => show win0_3.index t (0 : Fin 2) * 64 + 1 * h.val = h.val; omega
  | ⟨1, _⟩ => show win0_3.index t (1 : Fin 2) * 64 + 1 * j.val = j.val; omega

/-- The second bias row's block at every point is the whole row. -/
theorem blk0_4 (c : Dev nD) (t : Fin cfg0.N) (z : Fin 1) (j : Fin 64) :
    iblk0 V c 4 t (ix2 z j) = V c main_v33 (ix2 z j) := by
  show V c main_v33 (((cfg0.win 4).blk t).view.emb (ix2 z j)) = _
  refine congrArg (V c main_v33) ?_
  obtain ⟨-, -, -, -, -, -, -, -, e0, e1, -⟩ := idx_facts0 t
  funext a; apply Fin.ext
  match a with
  | ⟨0, _⟩ => show win0_4.index t (0 : Fin 2) * 1 + 1 * z.val = z.val; omega
  | ⟨1, _⟩ => show win0_4.index t (1 : Fin 2) * 64 + 1 * j.val = j.val; omega

/-- The output tile of point `t` of any array, read at `(r, q)`: row `10000·t + r` of the array. -/
theorem blk0_5 (G : S800000x64.Idx → EReal) (t : Fin cfg0.N) (r : Fin 10000) (q : Fin 64) (h : t.val * 10000 + r.val < 800000) :
    ((cfg0.win 5).blk t).view.read (Elt Ideal) G (ix2 r q) = G (ix2 ⟨t.val * 10000 + r.val, h⟩ q) := by
  show G (((cfg0.win 5).blk t).view.emb (ix2 r q)) = _
  refine congrArg G ?_
  obtain ⟨-, -, -, -, -, -, -, -, -, -, e0, e1⟩ := idx_facts0 t
  funext a; apply Fin.ext
  match a with
  | ⟨0, _⟩ => show win0_5.index t (0 : Fin 2) * 10000 + 1 * r.val = t.val * 10000 + r.val; omega
  | ⟨1, _⟩ => show win0_5.index t (1 : Fin 2) * 64 + 1 * q.val = q.val; omega

/-- What point `t` writes back is tile `t` of the perceptron of the feature array's rows. -/
theorem flushed0 (c : Dev nD) (t : Fin cfg0.N) :
    (dat0 V c).flushed 5 t = ((cfg0.win 5).blk t).view.read (Elt Ideal) (rowsE (V c main_v21) (V c main_v24) (V c main_v32) (V c main_v27) (V c main_v33)) := by
  show (cfg0.win 5).cut (grid0.coords t) ((dat0 V c).after 5 t) = _
  rw [after0_5]
  unfold out0_5
  rw [View.canon_unit_zero hz]
  simp only [View.ld_unit_zero (S := S10000x192) hz, View.ld_unit_zero (S := S192x64) hz, View.ld_unit_zero (S := S1x64) hz,
    View.ld_unit_zero (S := S64x64) hz]
  funext j
  obtain ⟨r, q, rfl⟩ : ∃ (r : Fin 10000) (q : Fin 64), j = ix2 r q := ⟨j 0, j 1, eq_ix2 j⟩
  have hN := lt_N0 t
  have hr : t.val * 10000 + r.val < 800000 := by have := r.isLt; omega
  show k0_pay1 (F := Ideal) (iblk0 V c 0 t) (iblk0 V c 1 t) (iblk0 V c 2 t) (iblk0 V c 3 t) (iblk0 V c 4 t) (ix2 r q) = _
  refine (Cert.MlpKernel.pay0_apply _ _ _ _ _ r q).trans ?_
  rw [blk0_5 _ t r q hr]
  show _ = Cert.Spec.mlpRow (fun f => V c main_v21 (ix2 ⟨t.val * 10000 + r.val, hr⟩ f)) (fun f h => V c main_v24 (ix2 f h))
    (fun h => V c main_v32 (ix2 0 h)) (fun h j => V c main_v27 (ix2 h j)) (fun j => V c main_v33 (ix2 0 j)) q
  simp only [blk0_0 V c t r _ hr, blk0_1 V c t, blk0_2 V c t, blk0_3 V c t, blk0_4 V c t]

/-- An index of the output array is in point `t`'s tile iff each coordinate is in the tile's range on its axis. -/
theorem mem_blk0 (t : Fin cfg0.N) (i : S800000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v34).slice (win0_5.rect t)).set ↔ _
  rw [View.set_slice_whole, Rect.mem_set_unit]
  exact Iff.rfl

/-- Every index of the output array is in the tile of the point its row falls in. -/
theorem cover0 (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  obtain ⟨t, ht⟩ : ∃ t : Fin cfg0.N, t.val = (i 0).val / 10000 :=
    ⟨⟨(i 0).val / 10000, lt_of_lt_of_eq (show (i 0).val / 10000 < 80 by omega) N_0.symm⟩, rfl⟩
  obtain ⟨-, -, -, -, -, -, -, -, -, -, e0, e1⟩ := idx_facts0 t
  refine ⟨t, flush0_5 t, ?_⟩
  rw [mem_blk0]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- The output array after region 0: the perceptron of every row of the feature array. -/
theorem out0 (c : Dev nD) : (dat0 (F := Ideal) V c).arrAt 5 cfg0.N = rowsE (V c main_v21) (V c main_v24) (V c main_v32) (V c main_v27) (V c main_v33) :=
  (dat0 V c).arrAt_eq_of_cover 5 _ (fun t _ => flushed0 V c t) cover0

/-! ## Region 1 -/

/-- The printed index maps of region 1, decided over the grid: the feature and output tiles are tile `t`, the weights
    and biases the whole arrays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_N1 (t : Fin cfg1.N) : t.val < 5 := lt_of_lt_of_eq t.isLt N_1

/-- The feature tile of point `t`, read at `(r, f)`: row `10000·t + r` of the feature array. -/
theorem blk1_0 (c : Dev nD) (t : Fin cfg1.N) (r : Fin 10000) (f : Fin 128) (h : t.val * 10000 + r.val < 50000) :
    iblk1 V c 0 t (ix2 r f) = V c main_v44 (ix2 ⟨t.val * 10000 + r.val, h⟩ f) := by
  show V c main_v44 (((cfg1.win 0).blk t).view.emb (ix2 r f)) = _
  refine congrArg (V c main_v44) ?_
  obtain ⟨e0, e1, -⟩ := idx_facts1 t
  funext a; apply Fin.ext
  match a with
  | ⟨0, _⟩ => show win1_0.index t (0 : Fin 2) * 10000 + 1 * r.val = t.val * 10000 + r.val; omega
  | ⟨1, _⟩ => show win1_0.index t (1 : Fin 2) * 128 + 1 * f.val = f.val; omega

/-- The first weight matrix's block at every point is the whole matrix. -/
theorem blk1_1 (c : Dev nD) (t : Fin cfg1.N) (f : Fin 128) (h : Fin 64) :
    iblk1 V c 1 t (ix2 f h) = V c main_v47 (ix2 f h) := by
  show V c main_v47 (((cfg1.win 1).blk t).view.emb (ix2 f h)) = _
  refine congrArg (V c main_v47) ?_
  obtain ⟨-, -, e0, e1, -⟩ := idx_facts1 t
  funext a; apply Fin.ext
  match a with
  | ⟨0, _⟩ => show win1_1.index t (0 : Fin 2) * 128 + 1 * f.val = f.val; omega
  | ⟨1, _⟩ => show win1_1.index t (1 : Fin 2) * 64 + 1 * h.val = h.val; omega

/-- The first bias row's block at every point is the whole row. -/
theorem blk1_2 (c : Dev nD) (t : Fin cfg1.N) (z : Fin 1) (h : Fin 64) :
    iblk1 V c 2 t (ix2 z h) = V c main_v55 (ix2 z h) := by
  show V c main_v55 (((cfg1.win 2).blk t).view.emb (ix2 z h)) = _
  refine congrArg (V c main_v55) ?_
  obtain ⟨-, -, -, -, e0, e1, -⟩ := idx_facts1 t
  funext a; apply Fin.ext
  match a with
  | ⟨0, _⟩ => show win1_2.index t (0 : Fin 2) * 1 + 1 * z.val = z.val; omega
  | ⟨1, _⟩ => show win1_2.index t (1 : Fin 2) * 64 + 1 * h.val = h.val; omega

/-- The second weight matrix's block at every point is the whole matrix. -/
theorem blk1_3 (c : Dev nD) (t : Fin cfg1.N) (h : Fin 64) (j : Fin 64) :
    iblk1 V c 3 t (ix2 h j) = V c main_v50 (ix2 h j) := by
  show V c main_v50 (((cfg1.win 3).blk t).view.emb (ix2 h j)) = _
  refine congrArg (V c main_v50) ?_
  obtain ⟨-, -, -, -, -, -, e0, e1, -⟩ := idx_facts1 t
  funext a; apply Fin.ext
  match a with
  | ⟨0, _⟩ => show win1_3.index t (0 : Fin 2) * 64 + 1 * h.val = h.val; omega
  | ⟨1, _⟩ => show win1_3.index t (1 : Fin 2) * 64 + 1 * j.val = j.val; omega

/-- The second bias row's block at every point is the whole row. -/
theorem blk1_4 (c : Dev nD) (t : Fin cfg1.N) (z : Fin 1) (j : Fin 64) :
    iblk1 V c 4 t (ix2 z j) = V c main_v56 (ix2 z j) := by
  show V c main_v56 (((cfg1.win 4).blk t).view.emb (ix2 z j)) = _
  refine congrArg (V c main_v56) ?_
  obtain ⟨-, -, -, -, -, -, -, -, e0, e1, -⟩ := idx_facts1 t
  funext a; apply Fin.ext
  match a with
  | ⟨0, _⟩ => show win1_4.index t (0 : Fin 2) * 1 + 1 * z.val = z.val; omega
  | ⟨1, _⟩ => show win1_4.index t (1 : Fin 2) * 64 + 1 * j.val = j.val; omega

/-- The output tile of point `t` of any array, read at `(r, q)`: row `10000·t + r` of the array. -/
theorem blk1_5 (G : S50000x64.Idx → EReal) (t : Fin cfg1.N) (r : Fin 10000) (q : Fin 64) (h : t.val * 10000 + r.val < 50000) :
    ((cfg1.win 5).blk t).view.read (Elt Ideal) G (ix2 r q) = G (ix2 ⟨t.val * 10000 + r.val, h⟩ q) := by
  show G (((cfg1.win 5).blk t).view.emb (ix2 r q)) = _
  refine congrArg G ?_
  obtain ⟨-, -, -, -, -, -, -, -, -, -, e0, e1⟩ := idx_facts1 t
  funext a; apply Fin.ext
  match a with
  | ⟨0, _⟩ => show win1_5.index t (0 : Fin 2) * 10000 + 1 * r.val = t.val * 10000 + r.val; omega
  | ⟨1, _⟩ => show win1_5.index t (1 : Fin 2) * 64 + 1 * q.val = q.val; omega

/-- What point `t` writes back is tile `t` of the perceptron of the feature array's rows. -/
theorem flushed1 (c : Dev nD) (t : Fin cfg1.N) :
    (dat1 V c).flushed 5 t = ((cfg1.win 5).blk t).view.read (Elt Ideal) (rowsN (V c main_v44) (V c main_v47) (V c main_v55) (V c main_v50) (V c main_v56)) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x64) hz, View.ld_unit_zero (S := S1x64) hz,
    View.ld_unit_zero (S := S64x64) hz]
  funext j
  obtain ⟨r, q, rfl⟩ : ∃ (r : Fin 10000) (q : Fin 64), j = ix2 r q := ⟨j 0, j 1, eq_ix2 j⟩
  have hN := lt_N1 t
  have hr : t.val * 10000 + r.val < 50000 := by have := r.isLt; omega
  show k1_pay1 (F := Ideal) (iblk1 V c 0 t) (iblk1 V c 1 t) (iblk1 V c 2 t) (iblk1 V c 3 t) (iblk1 V c 4 t) (ix2 r q) = _
  refine (Cert.MlpKernel.pay1_apply _ _ _ _ _ r q).trans ?_
  rw [blk1_5 _ t r q hr]
  show _ = Cert.Spec.mlpRow (fun f => V c main_v44 (ix2 ⟨t.val * 10000 + r.val, hr⟩ f)) (fun f h => V c main_v47 (ix2 f h))
    (fun h => V c main_v55 (ix2 0 h)) (fun h j => V c main_v50 (ix2 h j)) (fun j => V c main_v56 (ix2 0 j)) q
  simp only [blk1_0 V c t r _ hr, blk1_1 V c t, blk1_2 V c t, blk1_3 V c t, blk1_4 V c t]

/-- An index of the output array is in point `t`'s tile iff each coordinate is in the tile's range on its axis. -/
theorem mem_blk1 (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v57).slice (win1_5.rect t)).set ↔ _
  rw [View.set_slice_whole, Rect.mem_set_unit]
  exact Iff.rfl

/-- Every index of the output array is in the tile of the point its row falls in. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, lt_of_lt_of_eq (show (i 0).val / 10000 < 5 by omega) N_1.symm⟩, rfl⟩
  obtain ⟨-, -, -, -, -, -, -, -, -, -, e0, e1⟩ := idx_facts1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The output array after region 1: the perceptron of every row of the feature array. -/
theorem out1 (c : Dev nD) : (dat1 (F := Ideal) V c).arrAt 5 cfg1.N = rowsN (V c main_v44) (V c main_v47) (V c main_v55) (V c main_v50) (V c main_v56) :=
  (dat1 V c).arrAt_eq_of_cover 5 _ (fun t _ => flushed1 V c t) cover1

/-! ## Region 2 -/

/-- The printed index maps of region 2, decided over the grid: the feature and output tiles are tile `t`, the weights
    and biases the whole arrays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_N2 (t : Fin cfg2.N) : t.val < 80 := lt_of_lt_of_eq t.isLt N_2

/-- The feature tile of point `t`, read at `(r, f)`: row `10000·t + r` of the feature array. -/
theorem blk2_0 (c : Dev nD) (t : Fin cfg2.N) (r : Fin 10000) (f : Fin 192) (h : t.val * 10000 + r.val < 800000) :
    iblk2 V c 0 t (ix2 r f) = V c main_v73 (ix2 ⟨t.val * 10000 + r.val, h⟩ f) := by
  show V c main_v73 (((cfg2.win 0).blk t).view.emb (ix2 r f)) = _
  refine congrArg (V c main_v73) ?_
  obtain ⟨e0, e1, -⟩ := idx_facts2 t
  funext a; apply Fin.ext
  match a with
  | ⟨0, _⟩ => show win2_0.index t (0 : Fin 2) * 10000 + 1 * r.val = t.val * 10000 + r.val; omega
  | ⟨1, _⟩ => show win2_0.index t (1 : Fin 2) * 192 + 1 * f.val = f.val; omega

/-- The first weight matrix's block at every point is the whole matrix. -/
theorem blk2_1 (c : Dev nD) (t : Fin cfg2.N) (f : Fin 192) (h : Fin 64) :
    iblk2 V c 1 t (ix2 f h) = V c main_v76 (ix2 f h) := by
  show V c main_v76 (((cfg2.win 1).blk t).view.emb (ix2 f h)) = _
  refine congrArg (V c main_v76) ?_
  obtain ⟨-, -, e0, e1, -⟩ := idx_facts2 t
  funext a; apply Fin.ext
  match a with
  | ⟨0, _⟩ => show win2_1.index t (0 : Fin 2) * 192 + 1 * f.val = f.val; omega
  | ⟨1, _⟩ => show win2_1.index t (1 : Fin 2) * 64 + 1 * h.val = h.val; omega

/-- The first bias row's block at every point is the whole row. -/
theorem blk2_2 (c : Dev nD) (t : Fin cfg2.N) (z : Fin 1) (h : Fin 64) :
    iblk2 V c 2 t (ix2 z h) = V c main_v84 (ix2 z h) := by
  show V c main_v84 (((cfg2.win 2).blk t).view.emb (ix2 z h)) = _
  refine congrArg (V c main_v84) ?_
  obtain ⟨-, -, -, -, e0, e1, -⟩ := idx_facts2 t
  funext a; apply Fin.ext
  match a with
  | ⟨0, _⟩ => show win2_2.index t (0 : Fin 2) * 1 + 1 * z.val = z.val; omega
  | ⟨1, _⟩ => show win2_2.index t (1 : Fin 2) * 64 + 1 * h.val = h.val; omega

/-- The second weight matrix's block at every point is the whole matrix. -/
theorem blk2_3 (c : Dev nD) (t : Fin cfg2.N) (h : Fin 64) (j : Fin 64) :
    iblk2 V c 3 t (ix2 h j) = V c main_v79 (ix2 h j) := by
  show V c main_v79 (((cfg2.win 3).blk t).view.emb (ix2 h j)) = _
  refine congrArg (V c main_v79) ?_
  obtain ⟨-, -, -, -, -, -, e0, e1, -⟩ := idx_facts2 t
  funext a; apply Fin.ext
  match a with
  | ⟨0, _⟩ => show win2_3.index t (0 : Fin 2) * 64 + 1 * h.val = h.val; omega
  | ⟨1, _⟩ => show win2_3.index t (1 : Fin 2) * 64 + 1 * j.val = j.val; omega

/-- The second bias row's block at every point is the whole row. -/
theorem blk2_4 (c : Dev nD) (t : Fin cfg2.N) (z : Fin 1) (j : Fin 64) :
    iblk2 V c 4 t (ix2 z j) = V c main_v85 (ix2 z j) := by
  show V c main_v85 (((cfg2.win 4).blk t).view.emb (ix2 z j)) = _
  refine congrArg (V c main_v85) ?_
  obtain ⟨-, -, -, -, -, -, -, -, e0, e1, -⟩ := idx_facts2 t
  funext a; apply Fin.ext
  match a with
  | ⟨0, _⟩ => show win2_4.index t (0 : Fin 2) * 1 + 1 * z.val = z.val; omega
  | ⟨1, _⟩ => show win2_4.index t (1 : Fin 2) * 64 + 1 * j.val = j.val; omega

/-- The output tile of point `t` of any array, read at `(r, q)`: row `10000·t + r` of the array. -/
theorem blk2_5 (G : S800000x64.Idx → EReal) (t : Fin cfg2.N) (r : Fin 10000) (q : Fin 64) (h : t.val * 10000 + r.val < 800000) :
    ((cfg2.win 5).blk t).view.read (Elt Ideal) G (ix2 r q) = G (ix2 ⟨t.val * 10000 + r.val, h⟩ q) := by
  show G (((cfg2.win 5).blk t).view.emb (ix2 r q)) = _
  refine congrArg G ?_
  obtain ⟨-, -, -, -, -, -, -, -, -, -, e0, e1⟩ := idx_facts2 t
  funext a; apply Fin.ext
  match a with
  | ⟨0, _⟩ => show win2_5.index t (0 : Fin 2) * 10000 + 1 * r.val = t.val * 10000 + r.val; omega
  | ⟨1, _⟩ => show win2_5.index t (1 : Fin 2) * 64 + 1 * q.val = q.val; omega

/-- What point `t` writes back is tile `t` of the perceptron of the feature array's rows. -/
theorem flushed2 (c : Dev nD) (t : Fin cfg2.N) :
    (dat2 V c).flushed 5 t = ((cfg2.win 5).blk t).view.read (Elt Ideal) (rowsE (V c main_v73) (V c main_v76) (V c main_v84) (V c main_v79) (V c main_v85)) := by
  show (cfg2.win 5).cut (grid2.coords t) ((dat2 V c).after 5 t) = _
  rw [after2_5]
  unfold out2_5
  rw [View.canon_unit_zero hz]
  simp only [View.ld_unit_zero (S := S10000x192) hz, View.ld_unit_zero (S := S192x64) hz, View.ld_unit_zero (S := S1x64) hz,
    View.ld_unit_zero (S := S64x64) hz]
  funext j
  obtain ⟨r, q, rfl⟩ : ∃ (r : Fin 10000) (q : Fin 64), j = ix2 r q := ⟨j 0, j 1, eq_ix2 j⟩
  have hN := lt_N2 t
  have hr : t.val * 10000 + r.val < 800000 := by have := r.isLt; omega
  show k2_pay1 (F := Ideal) (iblk2 V c 0 t) (iblk2 V c 1 t) (iblk2 V c 2 t) (iblk2 V c 3 t) (iblk2 V c 4 t) (ix2 r q) = _
  refine (Cert.MlpKernel.pay2_apply _ _ _ _ _ r q).trans ?_
  rw [blk2_5 _ t r q hr]
  show _ = Cert.Spec.mlpRow (fun f => V c main_v73 (ix2 ⟨t.val * 10000 + r.val, hr⟩ f)) (fun f h => V c main_v76 (ix2 f h))
    (fun h => V c main_v84 (ix2 0 h)) (fun h j => V c main_v79 (ix2 h j)) (fun j => V c main_v85 (ix2 0 j)) q
  simp only [blk2_0 V c t r _ hr, blk2_1 V c t, blk2_2 V c t, blk2_3 V c t, blk2_4 V c t]

/-- An index of the output array is in point `t`'s tile iff each coordinate is in the tile's range on its axis. -/
theorem mem_blk2 (t : Fin cfg2.N) (i : S800000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v86).slice (win2_5.rect t)).set ↔ _
  rw [View.set_slice_whole, Rect.mem_set_unit]
  exact Iff.rfl

/-- Every index of the output array is in the tile of the point its row falls in. -/
theorem cover2 (i : S800000x64.Idx) :
    ∃ t : Fin cfg2.N, (cfg2.win 5).flush t = true ∧ i ∈ ((cfg2.win 5).blk t).view.set := by
  have hi0 : (i 0).val < 800000 := (i 0).isLt
  have hi1 : (i 1).val < 64 := (i 1).isLt
  obtain ⟨t, ht⟩ : ∃ t : Fin cfg2.N, t.val = (i 0).val / 10000 :=
    ⟨⟨(i 0).val / 10000, lt_of_lt_of_eq (show (i 0).val / 10000 < 80 by omega) N_2.symm⟩, rfl⟩
  obtain ⟨-, -, -, -, -, -, -, -, -, -, e0, e1⟩ := idx_facts2 t
  refine ⟨t, flush2_5 t, ?_⟩
  rw [mem_blk2]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- The output array after region 2: the perceptron of every row of the feature array. -/
theorem out2 (c : Dev nD) : (dat2 (F := Ideal) V c).arrAt 5 cfg2.N = rowsE (V c main_v73) (V c main_v76) (V c main_v84) (V c main_v79) (V c main_v85) :=
  (dat2 V c).arrAt_eq_of_cover 5 _ (fun t _ => flushed2 V c t) cover2

/-! ## Region 3 -/

/-- The printed index maps of region 3, decided over the grid: the feature and output tiles are tile `t`, the weights
    and biases the whole arrays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt_N3 (t : Fin cfg3.N) : t.val < 5 := lt_of_lt_of_eq t.isLt N_3

/-- The feature tile of point `t`, read at `(r, f)`: row `10000·t + r` of the feature array. -/
theorem blk3_0 (c : Dev nD) (t : Fin cfg3.N) (r : Fin 10000) (f : Fin 128) (h : t.val * 10000 + r.val < 50000) :
    iblk3 V c 0 t (ix2 r f) = V c main_v96 (ix2 ⟨t.val * 10000 + r.val, h⟩ f) := by
  show V c main_v96 (((cfg3.win 0).blk t).view.emb (ix2 r f)) = _
  refine congrArg (V c main_v96) ?_
  obtain ⟨e0, e1, -⟩ := idx_facts3 t
  funext a; apply Fin.ext
  match a with
  | ⟨0, _⟩ => show win3_0.index t (0 : Fin 2) * 10000 + 1 * r.val = t.val * 10000 + r.val; omega
  | ⟨1, _⟩ => show win3_0.index t (1 : Fin 2) * 128 + 1 * f.val = f.val; omega

/-- The first weight matrix's block at every point is the whole matrix. -/
theorem blk3_1 (c : Dev nD) (t : Fin cfg3.N) (f : Fin 128) (h : Fin 64) :
    iblk3 V c 1 t (ix2 f h) = V c main_v99 (ix2 f h) := by
  show V c main_v99 (((cfg3.win 1).blk t).view.emb (ix2 f h)) = _
  refine congrArg (V c main_v99) ?_
  obtain ⟨-, -, e0, e1, -⟩ := idx_facts3 t
  funext a; apply Fin.ext
  match a with
  | ⟨0, _⟩ => show win3_1.index t (0 : Fin 2) * 128 + 1 * f.val = f.val; omega
  | ⟨1, _⟩ => show win3_1.index t (1 : Fin 2) * 64 + 1 * h.val = h.val; omega

/-- The first bias row's block at every point is the whole row. -/
theorem blk3_2 (c : Dev nD) (t : Fin cfg3.N) (z : Fin 1) (h : Fin 64) :
    iblk3 V c 2 t (ix2 z h) = V c main_v107 (ix2 z h) := by
  show V c main_v107 (((cfg3.win 2).blk t).view.emb (ix2 z h)) = _
  refine congrArg (V c main_v107) ?_
  obtain ⟨-, -, -, -, e0, e1, -⟩ := idx_facts3 t
  funext a; apply Fin.ext
  match a with
  | ⟨0, _⟩ => show win3_2.index t (0 : Fin 2) * 1 + 1 * z.val = z.val; omega
  | ⟨1, _⟩ => show win3_2.index t (1 : Fin 2) * 64 + 1 * h.val = h.val; omega

/-- The second weight matrix's block at every point is the whole matrix. -/
theorem blk3_3 (c : Dev nD) (t : Fin cfg3.N) (h : Fin 64) (j : Fin 64) :
    iblk3 V c 3 t (ix2 h j) = V c main_v102 (ix2 h j) := by
  show V c main_v102 (((cfg3.win 3).blk t).view.emb (ix2 h j)) = _
  refine congrArg (V c main_v102) ?_
  obtain ⟨-, -, -, -, -, -, e0, e1, -⟩ := idx_facts3 t
  funext a; apply Fin.ext
  match a with
  | ⟨0, _⟩ => show win3_3.index t (0 : Fin 2) * 64 + 1 * h.val = h.val; omega
  | ⟨1, _⟩ => show win3_3.index t (1 : Fin 2) * 64 + 1 * j.val = j.val; omega

/-- The second bias row's block at every point is the whole row. -/
theorem blk3_4 (c : Dev nD) (t : Fin cfg3.N) (z : Fin 1) (j : Fin 64) :
    iblk3 V c 4 t (ix2 z j) = V c main_v108 (ix2 z j) := by
  show V c main_v108 (((cfg3.win 4).blk t).view.emb (ix2 z j)) = _
  refine congrArg (V c main_v108) ?_
  obtain ⟨-, -, -, -, -, -, -, -, e0, e1, -⟩ := idx_facts3 t
  funext a; apply Fin.ext
  match a with
  | ⟨0, _⟩ => show win3_4.index t (0 : Fin 2) * 1 + 1 * z.val = z.val; omega
  | ⟨1, _⟩ => show win3_4.index t (1 : Fin 2) * 64 + 1 * j.val = j.val; omega

/-- The output tile of point `t` of any array, read at `(r, q)`: row `10000·t + r` of the array. -/
theorem blk3_5 (G : S50000x64.Idx → EReal) (t : Fin cfg3.N) (r : Fin 10000) (q : Fin 64) (h : t.val * 10000 + r.val < 50000) :
    ((cfg3.win 5).blk t).view.read (Elt Ideal) G (ix2 r q) = G (ix2 ⟨t.val * 10000 + r.val, h⟩ q) := by
  show G (((cfg3.win 5).blk t).view.emb (ix2 r q)) = _
  refine congrArg G ?_
  obtain ⟨-, -, -, -, -, -, -, -, -, -, e0, e1⟩ := idx_facts3 t
  funext a; apply Fin.ext
  match a with
  | ⟨0, _⟩ => show win3_5.index t (0 : Fin 2) * 10000 + 1 * r.val = t.val * 10000 + r.val; omega
  | ⟨1, _⟩ => show win3_5.index t (1 : Fin 2) * 64 + 1 * q.val = q.val; omega

/-- What point `t` writes back is tile `t` of the perceptron of the feature array's rows. -/
theorem flushed3 (c : Dev nD) (t : Fin cfg3.N) :
    (dat3 V c).flushed 5 t = ((cfg3.win 5).blk t).view.read (Elt Ideal) (rowsN (V c main_v96) (V c main_v99) (V c main_v107) (V c main_v102) (V c main_v108)) := by
  show (cfg3.win 5).cut (grid3.coords t) ((dat3 V c).after 5 t) = _
  rw [after3_5]
  unfold out3_5
  rw [View.canon_unit_zero hz]
  simp only [View.ld_unit_zero (S := S10000x128) hz, View.ld_unit_zero (S := S128x64) hz, View.ld_unit_zero (S := S1x64) hz,
    View.ld_unit_zero (S := S64x64) hz]
  funext j
  obtain ⟨r, q, rfl⟩ : ∃ (r : Fin 10000) (q : Fin 64), j = ix2 r q := ⟨j 0, j 1, eq_ix2 j⟩
  have hN := lt_N3 t
  have hr : t.val * 10000 + r.val < 50000 := by have := r.isLt; omega
  show k3_pay1 (F := Ideal) (iblk3 V c 0 t) (iblk3 V c 1 t) (iblk3 V c 2 t) (iblk3 V c 3 t) (iblk3 V c 4 t) (ix2 r q) = _
  refine (Cert.MlpKernel.pay3_apply _ _ _ _ _ r q).trans ?_
  rw [blk3_5 _ t r q hr]
  show _ = Cert.Spec.mlpRow (fun f => V c main_v96 (ix2 ⟨t.val * 10000 + r.val, hr⟩ f)) (fun f h => V c main_v99 (ix2 f h))
    (fun h => V c main_v107 (ix2 0 h)) (fun h j => V c main_v102 (ix2 h j)) (fun j => V c main_v108 (ix2 0 j)) q
  simp only [blk3_0 V c t r _ hr, blk3_1 V c t, blk3_2 V c t, blk3_3 V c t, blk3_4 V c t]

/-- An index of the output array is in point `t`'s tile iff each coordinate is in the tile's range on its axis. -/
theorem mem_blk3 (t : Fin cfg3.N) (i : S50000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v109).slice (win3_5.rect t)).set ↔ _
  rw [View.set_slice_whole, Rect.mem_set_unit]
  exact Iff.rfl

/-- Every index of the output array is in the tile of the point its row falls in. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ : ∃ t : Fin cfg3.N, t.val = (i 0).val / 10000 :=
    ⟨⟨(i 0).val / 10000, lt_of_lt_of_eq (show (i 0).val / 10000 < 5 by omega) N_3.symm⟩, rfl⟩
  obtain ⟨-, -, -, -, -, -, -, -, -, -, e0, e1⟩ := idx_facts3 t
  refine ⟨t, flush3_5 t, ?_⟩
  rw [mem_blk3]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- The output array after region 3: the perceptron of every row of the feature array. -/
theorem out3 (c : Dev nD) : (dat3 (F := Ideal) V c).arrAt 5 cfg3.N = rowsN (V c main_v96) (V c main_v99) (V c main_v107) (V c main_v102) (V c main_v108) :=
  (dat3 V c).arrAt_eq_of_cover 5 _ (fun t _ => flushed3 V c t) cover3

end Cert.KernelIdeal.Out

end
-- ==== Proof.KForms.lean ====
/-
  The kernel program's results as closed functions of its eleven argument arrays, at the exact instance: the host
  operations between the four regions spelt as the program spells them, and each region's output as the row-wise
  perceptron of its input arrays. Per layer: the edge features are concatenated with the rows of the node features
  gathered at the edges' two endpoints and go through the edge perceptron; the new edge features are added up at their
  destination nodes; the node features concatenated with these sums go through the node perceptron.
-/
import proofs.«174539_j57174604644524_1_alg».proof.Proof.IdealOut

noncomputable section

namespace Cert.KernelIdeal.KF

open Cert.KernelIdeal Cert.KernelIdeal.Facts₀ Cert.KernelIdeal.Facts Cert.KernelIdeal.Out Idealize.ShloMosaic Idealize.ShloMosaic.TcCoe

/-- The contents of a buffer of a given shape and element type, at the exact instance. -/
abbrev BC (t : BufTy) : Type := t.Contents (Elt Ideal)

/-- Row 0 of the edge list: the source node of every edge. -/
def row0 (x2 : BC ⟨S2x800000, .i32⟩) : BC ⟨S800000, .i32⟩ :=
  shapeCast _ (extractStridedSlice S1x800000 ![0, 0] x2 slices_S2x800000_S1x800000_0_0) shapeCasts_S1x800000_S800000
/-- Row 1 of the edge list: the destination node of every edge. -/
def row1 (x2 : BC ⟨S2x800000, .i32⟩) : BC ⟨S800000, .i32⟩ :=
  shapeCast _ (extractStridedSlice S1x800000 ![1, 0] x2 slices_S2x800000_S1x800000_1_0) shapeCasts_S1x800000_S800000
/-- A row of node numbers with the negative ones wrapped around (n ↦ n + 50000), as a column of start indices. -/
def col (r : BC ⟨S800000, .i32⟩) : BC ⟨S800000x1, .i32⟩ :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
/-- The node features without the unit batch axis. -/
def nodes0 (x0 : BC ⟨S1x50000x64, .f32⟩) : BC ⟨S50000x64, .f32⟩ := shapeCast _ x0 shapeCasts_S1x50000x64_S50000x64
/-- The edge features without the unit batch axis. -/
def edges0 (x1 : BC ⟨S1x800000x64, .f32⟩) : BC ⟨S800000x64, .f32⟩ := shapeCast _ x1 shapeCasts_S1x800000x64_S800000x64
/-- The edge perceptron's input: edge features beside the node features at the edge's source and at its destination. -/
def catE (ea : BC ⟨S800000x64, .f32⟩) (x : BC ⟨S50000x64, .f32⟩) (x2 : BC ⟨S2x800000, .i32⟩) : BC ⟨S800000x192, .bf16⟩ :=
  truncf (F := Ideal) .bf16 (concatenate S800000x192 1 [⟨S800000x64, ea⟩,
    ⟨S800000x64, Host.gather gather_S50000x64_S800000x1_S800000x64_1_0_n_n_0_1_164 x (col (row0 x2))⟩,
    ⟨S800000x64, Host.gather gather_S50000x64_S800000x1_S800000x64_1_0_n_n_0_1_164 x (col (row1 x2))⟩]
    concatenates_S800000x64_S800000x64_S800000x64_S800000x192_d1) bitsLt_bf16_f32
/-- The new edge features added up at their destination nodes. -/
def agg (u : BC ⟨S800000x64, .f32⟩) (x2 : BC ⟨S2x800000, .i32⟩) : BC ⟨S50000x64, .f32⟩ :=
  Host.scatterAdd (F := Ideal) scatter_S50000x64_S800000x1_S800000x64_1_0_0_1
    (broadcastInDim S50000x64 ![] bcast_S_S50000x64 (constant (F := Ideal) S_ .f32 0x00000000#32)) (col (row1 x2)) u
/-- The node perceptron's input: node features beside the sums of the incoming edges' features. -/
def catN (x : BC ⟨S50000x64, .f32⟩) (a : BC ⟨S50000x64, .f32⟩) : BC ⟨S50000x128, .bf16⟩ :=
  truncf (F := Ideal) .bf16 (concatenate S50000x128 1 [⟨S50000x64, x⟩, ⟨S50000x64, a⟩] concatenates_S50000x64_S50000x64_S50000x128_d1) bitsLt_bf16_f32

/-- The edge perceptron's input from the two rows of the edge list already read. -/
def catER (ea : BC ⟨S800000x64, .f32⟩) (x : BC ⟨S50000x64, .f32⟩) (r0 r1 : BC ⟨S800000, .i32⟩) : BC ⟨S800000x192, .bf16⟩ :=
  truncf (F := Ideal) .bf16 (concatenate S800000x192 1 [⟨S800000x64, ea⟩,
    ⟨S800000x64, Host.gather gather_S50000x64_S800000x1_S800000x64_1_0_n_n_0_1_164 x (col r0)⟩,
    ⟨S800000x64, Host.gather gather_S50000x64_S800000x1_S800000x64_1_0_n_n_0_1_164 x (col r1)⟩]
    concatenates_S800000x64_S800000x64_S800000x64_S800000x192_d1) bitsLt_bf16_f32
/-- The sums of the edge features at their destination nodes, from the destination row already read. -/
def aggR (u : BC ⟨S800000x64, .f32⟩) (r1 : BC ⟨S800000, .i32⟩) : BC ⟨S50000x64, .f32⟩ :=
  Host.scatterAdd (F := Ideal) scatter_S50000x64_S800000x1_S800000x64_1_0_0_1
    (broadcastInDim S50000x64 ![] bcast_S_S50000x64 (constant (F := Ideal) S_ .f32 0x00000000#32)) (col r1) u
theorem catE_eq (ea : BC ⟨S800000x64, .f32⟩) (x : BC ⟨S50000x64, .f32⟩) (x2 : BC ⟨S2x800000, .i32⟩) : catE ea x x2 = catER ea x (row0 x2) (row1 x2) := rfl
theorem agg_eq (u : BC ⟨S800000x64, .f32⟩) (x2 : BC ⟨S2x800000, .i32⟩) : agg u x2 = aggR u (row1 x2) := rfl
/-- The two results' last operation: the unit batch axis put back. -/
def unsq0 (y : BC ⟨S50000x64, .f32⟩) : BC ⟨S1x50000x64, .f32⟩ := broadcastInDim S1x50000x64 ![1, 2] bcast_S50000x64_S1x50000x64_1_2 y
def unsq1 (y : BC ⟨S800000x64, .f32⟩) : BC ⟨S1x800000x64, .f32⟩ := broadcastInDim S1x800000x64 ![1, 2] bcast_S800000x64_S1x800000x64_1_2 y

/-! The weights of layer 0 and of layer 1: slice `l` of a stacked parameter, without its unit axis. -/
def w1e0 (x3 : BC ⟨S2x192x64, .f32⟩) : BC ⟨S192x64, .bf16⟩ :=
  truncf (F := Ideal) .bf16 (shapeCast _ (extractStridedSlice S1x192x64 ![0, 0, 0] x3 slices_S2x192x64_S1x192x64_0_0_0) shapeCasts_S1x192x64_S192x64) bitsLt_bf16_f32
def w1e1 (x3 : BC ⟨S2x192x64, .f32⟩) : BC ⟨S192x64, .bf16⟩ :=
  truncf (F := Ideal) .bf16 (shapeCast _ (extractStridedSlice S1x192x64 ![1, 0, 0] x3 slices_S2x192x64_S1x192x64_1_0_0) shapeCasts_S1x192x64_S192x64) bitsLt_bf16_f32
def w1n0 (x7 : BC ⟨S2x128x64, .f32⟩) : BC ⟨S128x64, .bf16⟩ :=
  truncf (F := Ideal) .bf16 (shapeCast _ (extractStridedSlice S1x128x64 ![0, 0, 0] x7 slices_S2x128x64_S1x128x64_0_0_0) shapeCasts_S1x128x64_S128x64) bitsLt_bf16_f32
def w1n1 (x7 : BC ⟨S2x128x64, .f32⟩) : BC ⟨S128x64, .bf16⟩ :=
  truncf (F := Ideal) .bf16 (shapeCast _ (extractStridedSlice S1x128x64 ![1, 0, 0] x7 slices_S2x128x64_S1x128x64_1_0_0) shapeCasts_S1x128x64_S128x64) bitsLt_bf16_f32
def w2_0 (x5 : BC ⟨S2x64x64, .f32⟩) : BC ⟨S64x64, .bf16⟩ :=
  truncf (F := Ideal) .bf16 (shapeCast _ (extractStridedSlice S1x64x64 ![0, 0, 0] x5 slices_S2x64x64_S1x64x64_0_0_0) shapeCasts_S1x64x64_S64x64) bitsLt_bf16_f32
def w2_1 (x5 : BC ⟨S2x64x64, .f32⟩) : BC ⟨S64x64, .bf16⟩ :=
  truncf (F := Ideal) .bf16 (shapeCast _ (extractStridedSlice S1x64x64 ![1, 0, 0] x5 slices_S2x64x64_S1x64x64_1_0_0) shapeCasts_S1x64x64_S64x64) bitsLt_bf16_f32
def b_0 (x4 : BC ⟨S2x64, .f32⟩) : BC ⟨S1x64, .f32⟩ :=
  shapeCast _ (shapeCast _ (extractStridedSlice S1x64 ![0, 0] x4 slices_S2x64_S1x64_0_0) shapeCasts_S1x64_S64) shapeCasts_S64_S1x64
def b_1 (x4 : BC ⟨S2x64, .f32⟩) : BC ⟨S1x64, .f32⟩ :=
  shapeCast _ (shapeCast _ (extractStridedSlice S1x64 ![1, 0] x4 slices_S2x64_S1x64_1_0) shapeCasts_S1x64_S64) shapeCasts_S64_S1x64

section Layers
variable (x0 : BC ⟨S1x50000x64, .f32⟩) (x1 : BC ⟨S1x800000x64, .f32⟩) (x2 : BC ⟨S2x800000, .i32⟩) (x3 : BC ⟨S2x192x64, .f32⟩) (x4 : BC ⟨S2x64, .f32⟩)
  (x5 : BC ⟨S2x64x64, .f32⟩) (x6 : BC ⟨S2x64, .f32⟩) (x7 : BC ⟨S2x128x64, .f32⟩) (x8 : BC ⟨S2x64, .f32⟩) (x9 : BC ⟨S2x64x64, .f32⟩) (x10 : BC ⟨S2x64, .f32⟩)

/-- The edge features after layer 0. -/
def ea1 : BC ⟨S800000x64, .f32⟩ := rowsE (catE (edges0 x1) (nodes0 x0) x2) (w1e0 x3) (b_0 x4) (w2_0 x5) (b_0 x6)
/-- The node features after layer 0. -/
def xn1 : BC ⟨S50000x64, .f32⟩ := rowsN (catN (nodes0 x0) (agg (ea1 x0 x1 x2 x3 x4 x5 x6) x2)) (w1n0 x7) (b_0 x8) (w2_0 x9) (b_0 x10)
/-- The edge features after layer 1. -/
def ea2 : BC ⟨S800000x64, .f32⟩ :=
  rowsE (catE (ea1 x0 x1 x2 x3 x4 x5 x6) (xn1 x0 x1 x2 x3 x4 x5 x6 x7 x8 x9 x10) x2) (w1e1 x3) (b_1 x4) (w2_1 x5) (b_1 x6)
/-- The node features after layer 1. -/
def xn2 : BC ⟨S50000x64, .f32⟩ :=
  rowsN (catN (xn1 x0 x1 x2 x3 x4 x5 x6 x7 x8 x9 x10) (agg (ea2 x0 x1 x2 x3 x4 x5 x6 x7 x8 x9 x10) x2)) (w1n1 x7) (b_1 x8) (w2_1 x9) (b_1 x10)
/-- The first result: the node features after layer 1, with the unit batch axis back. -/
def res0 : BC ⟨S1x50000x64, .f32⟩ := broadcastInDim S1x50000x64 ![1, 2] bcast_S50000x64_S1x50000x64_1_2 (xn2 x0 x1 x2 x3 x4 x5 x6 x7 x8 x9 x10)
/-- The second result: the edge features after layer 1, with the unit batch axis back. -/
def res1 : BC ⟨S1x800000x64, .f32⟩ := broadcastInDim S1x800000x64 ![1, 2] bcast_S800000x64_S1x800000x64_1_2 (ea2 x0 x1 x2 x3 x4 x5 x6 x7 x8 x9 x10)

end Layers

end Cert.KernelIdeal.KF

end
-- ==== Proof.KRun.lean ====
/-
  The kernel program's run read into closed forms: what the unscoped buffers hold at each boundary of @main, as the
  closed functions of the argument arrays. A host stretch is read over an arbitrary valuation, one written buffer at a
  time, as the stretch's operations of the buffers it reads; a region leaves its output array at the row-wise perceptron
  of its input arrays and every other buffer as it was.
-/
import proofs.«174539_j57174604644524_1_alg».proof.Proof.IdealRun
import proofs.«174539_j57174604644524_1_alg».proof.Proof.KForms

set_option maxRecDepth 16384

noncomputable section

namespace Cert.KernelIdeal.KR

open Cert.KernelIdeal Cert.KernelIdeal.Gen Cert.KernelIdeal.Fr Cert.KernelIdeal.Out
open Idealize.ShloMosaic Idealize.ShloMosaic.TcCoe Idealize.ShloMosaic.StableHlo Idealize.SL.Sem

variable (W : Valuation τ sig (Elt Ideal))

/-! ## The first host stretch -/

theorem s0_v1 : after (hostOps0 (F := Ideal)) W (Proc.devRef .tc main_v1) = KF.row0 (W (Proc.devRef .tc main_arg2)) := by
  after_results; rfl
theorem s0_v3 : after (hostOps0 (F := Ideal)) W (Proc.devRef .tc main_v3) = KF.row1 (W (Proc.devRef .tc main_arg2)) := by
  after_results; rfl
theorem s0_v4 : after (hostOps0 (F := Ideal)) W (Proc.devRef .tc main_v4) = KF.nodes0 (W (Proc.devRef .tc main_arg0)) := by
  after_results; rfl
theorem s0_v24 : after (hostOps0 (F := Ideal)) W (Proc.devRef .tc main_v24) = KF.w1e0 (W (Proc.devRef .tc main_arg3)) := by
  after_results; rfl
theorem s0_v32 : after (hostOps0 (F := Ideal)) W (Proc.devRef .tc main_v32) = KF.b_0 (W (Proc.devRef .tc main_arg4)) := by
  after_results; rfl
theorem s0_v27 : after (hostOps0 (F := Ideal)) W (Proc.devRef .tc main_v27) = KF.w2_0 (W (Proc.devRef .tc main_arg5)) := by
  after_results; rfl
theorem s0_v33 : after (hostOps0 (F := Ideal)) W (Proc.devRef .tc main_v33) = KF.b_0 (W (Proc.devRef .tc main_arg6)) := by
  after_results; rfl
theorem s0_v21 : after (hostOps0 (F := Ideal)) W (Proc.devRef .tc main_v21)
    = KF.catE (KF.edges0 (W (Proc.devRef .tc main_arg1))) (KF.nodes0 (W (Proc.devRef .tc main_arg0))) (W (Proc.devRef .tc main_arg2)) := by
  after_results_simp; rfl

/-! ## The second host stretch -/

theorem s1_v44 : after (hostOps1 (F := Ideal)) W (Proc.devRef .tc main_v44) = KF.catN (W (Proc.devRef .tc main_v4)) (KF.aggR (W (Proc.devRef .tc main_v34)) (W (Proc.devRef .tc main_v3))) := by
  after_results_simp; rfl
theorem s1_v47 : after (hostOps1 (F := Ideal)) W (Proc.devRef .tc main_v47) = KF.w1n0 (W (Proc.devRef .tc main_arg7)) := by
  after_results; rfl
theorem s1_v55 : after (hostOps1 (F := Ideal)) W (Proc.devRef .tc main_v55) = KF.b_0 (W (Proc.devRef .tc main_arg8)) := by
  after_results; rfl
theorem s1_v50 : after (hostOps1 (F := Ideal)) W (Proc.devRef .tc main_v50) = KF.w2_0 (W (Proc.devRef .tc main_arg9)) := by
  after_results; rfl
theorem s1_v56 : after (hostOps1 (F := Ideal)) W (Proc.devRef .tc main_v56) = KF.b_0 (W (Proc.devRef .tc main_arg10)) := by
  after_results; rfl

/-! ## The third host stretch -/

theorem s2_v73 : after (hostOps2 (F := Ideal)) W (Proc.devRef .tc main_v73) = KF.catER (W (Proc.devRef .tc main_v34)) (W (Proc.devRef .tc main_v57)) (W (Proc.devRef .tc main_v1)) (W (Proc.devRef .tc main_v3)) := by
  after_results_simp; rfl
theorem s2_v76 : after (hostOps2 (F := Ideal)) W (Proc.devRef .tc main_v76) = KF.w1e1 (W (Proc.devRef .tc main_arg3)) := by
  after_results; rfl
theorem s2_v84 : after (hostOps2 (F := Ideal)) W (Proc.devRef .tc main_v84) = KF.b_1 (W (Proc.devRef .tc main_arg4)) := by
  after_results; rfl
theorem s2_v79 : after (hostOps2 (F := Ideal)) W (Proc.devRef .tc main_v79) = KF.w2_1 (W (Proc.devRef .tc main_arg5)) := by
  after_results; rfl
theorem s2_v85 : after (hostOps2 (F := Ideal)) W (Proc.devRef .tc main_v85) = KF.b_1 (W (Proc.devRef .tc main_arg6)) := by
  after_results; rfl

/-! ## The fourth host stretch -/

theorem s3_v96 : after (hostOps3 (F := Ideal)) W (Proc.devRef .tc main_v96) = KF.catN (W (Proc.devRef .tc main_v57)) (KF.aggR (W (Proc.devRef .tc main_v86)) (W (Proc.devRef .tc main_v3))) := by
  after_results_simp; rfl
theorem s3_v99 : after (hostOps3 (F := Ideal)) W (Proc.devRef .tc main_v99) = KF.w1n1 (W (Proc.devRef .tc main_arg7)) := by
  after_results; rfl
theorem s3_v107 : after (hostOps3 (F := Ideal)) W (Proc.devRef .tc main_v107) = KF.b_1 (W (Proc.devRef .tc main_arg8)) := by
  after_results; rfl
theorem s3_v102 : after (hostOps3 (F := Ideal)) W (Proc.devRef .tc main_v102) = KF.w2_1 (W (Proc.devRef .tc main_arg9)) := by
  after_results; rfl
theorem s3_v108 : after (hostOps3 (F := Ideal)) W (Proc.devRef .tc main_v108) = KF.b_1 (W (Proc.devRef .tc main_arg10)) := by
  after_results; rfl

/-! ## The last host stretch -/

theorem s4_v110 : after (hostOps4 (F := Ideal)) W (Proc.devRef .tc main_v110) = KF.unsq0 (W (Proc.devRef .tc main_v109)) := by
  after_results; rfl
theorem s4_v111 : after (hostOps4 (F := Ideal)) W (Proc.devRef .tc main_v111) = KF.unsq1 (W (Proc.devRef .tc main_v86)) := by
  after_results; rfl

/-! ## What a host stretch does not write it leaves -/

theorem keep0 (r : Ref sig .tc) (h : r ∉ hostOps0_W) : after (hostOps0 (F := Ideal)) W (Proc.devRef .tc r) = W (Proc.devRef .tc r) :=
  StableHlo.after_of_writes_sub hostOps0 W hostOps0_writes h
theorem keep1 (r : Ref sig .tc) (h : r ∉ hostOps1_W) : after (hostOps1 (F := Ideal)) W (Proc.devRef .tc r) = W (Proc.devRef .tc r) :=
  StableHlo.after_of_writes_sub hostOps1 W hostOps1_writes h
theorem keep2 (r : Ref sig .tc) (h : r ∉ hostOps2_W) : after (hostOps2 (F := Ideal)) W (Proc.devRef .tc r) = W (Proc.devRef .tc r) :=
  StableHlo.after_of_writes_sub hostOps2 W hostOps2_writes h
theorem keep3 (r : Ref sig .tc) (h : r ∉ hostOps3_W) : after (hostOps3 (F := Ideal)) W (Proc.devRef .tc r) = W (Proc.devRef .tc r) :=
  StableHlo.after_of_writes_sub hostOps3 W hostOps3_writes h
theorem keep4 (r : Ref sig .tc) (h : r ∉ hostOps4_W) : after (hostOps4 (F := Ideal)) W (Proc.devRef .tc r) = W (Proc.devRef .tc r) :=
  StableHlo.after_of_writes_sub hostOps4 W hostOps4_writes h

/-! ## The chain of boundary contents -/

section Chain
variable (m : (ℓ : Loc nD τ sig) → Buf (Elt Ideal) ℓ) (c : Dev nD)

/-- An argument array as launched. -/
abbrev arg (r : Ref sig .tc) : Buf (Elt Ideal) ((c.tc : Thread nD τ).loc r) := m ((c.tc : Thread nD τ).loc r)

theorem X1_def : X1 m c = after (hostOps0 (F := Ideal)) (Gen.V0 m c) := rfl
theorem X3_def : X3 m c = after (hostOps1 (F := Ideal)) (X2 m c) := rfl
theorem X5_def : X5 m c = after (hostOps2 (F := Ideal)) (X4 m c) := rfl
theorem X7_def : X7 m c = after (hostOps3 (F := Ideal)) (X6 m c) := rfl
theorem X9_def : X9 m c = after (hostOps4 (F := Ideal)) (X8 m c) := rfl
theorem V0_at (r : Ref sig .tc) : Gen.V0 m c (Proc.devRef .tc r) = arg m c r := rfl

attribute [local irreducible] X1 X2 X3 X4 X5 X6 X7 X8 X9

/-! A buffer no host stretch writes and no region changes holds its launch contents throughout. -/
theorem u1 (r : Ref sig .tc) (h0 : r ∉ hostOps0_W) : X1 m c (Proc.devRef .tc r) = arg m c r := by
  rw [X1_def, keep0 _ r h0, V0_at]
theorem u2 (r : Ref sig .tc) (h0 : r ∉ hostOps0_W) (n2 : r ≠ main_v34) : X2 m c (Proc.devRef .tc r) = arg m c r := by
  rw [X2_of_ne m c r n2, u1 m c r h0]
theorem u3 (r : Ref sig .tc) (h0 : r ∉ hostOps0_W) (n2 : r ≠ main_v34) (h1 : r ∉ hostOps1_W) : X3 m c (Proc.devRef .tc r) = arg m c r := by
  rw [X3_def, keep1 _ r h1, u2 m c r h0 n2]
theorem u4 (r : Ref sig .tc) (h0 : r ∉ hostOps0_W) (n2 : r ≠ main_v34) (h1 : r ∉ hostOps1_W) (n4 : r ≠ main_v57) : X4 m c (Proc.devRef .tc r) = arg m c r := by
  rw [X4_of_ne m c r n4, u3 m c r h0 n2 h1]
theorem u5 (r : Ref sig .tc) (h0 : r ∉ hostOps0_W) (n2 : r ≠ main_v34) (h1 : r ∉ hostOps1_W) (n4 : r ≠ main_v57) (h2 : r ∉ hostOps2_W) : X5 m c (Proc.devRef .tc r) = arg m c r := by
  rw [X5_def, keep2 _ r h2, u4 m c r h0 n2 h1 n4]
theorem u6 (r : Ref sig .tc) (h0 : r ∉ hostOps0_W) (n2 : r ≠ main_v34) (h1 : r ∉ hostOps1_W) (n4 : r ≠ main_v57) (h2 : r ∉ hostOps2_W) (n6 : r ≠ main_v86) : X6 m c (Proc.devRef .tc r) = arg m c r := by
  rw [X6_of_ne m c r n6, u5 m c r h0 n2 h1 n4 h2]

/-! The two rows of the edge list, read once by the first stretch, stay. -/
theorem v3_1 : X1 m c (Proc.devRef .tc main_v3) = KF.row1 (arg m c main_arg2) := by rw [X1_def, s0_v3, V0_at]
theorem v3_2 : X2 m c (Proc.devRef .tc main_v3) = KF.row1 (arg m c main_arg2) := by rw [X2_of_ne m c _ (by decide), v3_1]
theorem v3_3 : X3 m c (Proc.devRef .tc main_v3) = KF.row1 (arg m c main_arg2) := by rw [X3_def, keep1 _ _ (by decide), v3_2]
theorem v3_4 : X4 m c (Proc.devRef .tc main_v3) = KF.row1 (arg m c main_arg2) := by rw [X4_of_ne m c _ (by decide), v3_3]
theorem v3_5 : X5 m c (Proc.devRef .tc main_v3) = KF.row1 (arg m c main_arg2) := by rw [X5_def, keep2 _ _ (by decide), v3_4]
theorem v3_6 : X6 m c (Proc.devRef .tc main_v3) = KF.row1 (arg m c main_arg2) := by rw [X6_of_ne m c _ (by decide), v3_5]
theorem v1_1 : X1 m c (Proc.devRef .tc main_v1) = KF.row0 (arg m c main_arg2) := by rw [X1_def, s0_v1, V0_at]
theorem v1_2 : X2 m c (Proc.devRef .tc main_v1) = KF.row0 (arg m c main_arg2) := by rw [X2_of_ne m c _ (by decide), v1_1]
theorem v1_3 : X3 m c (Proc.devRef .tc main_v1) = KF.row0 (arg m c main_arg2) := by rw [X3_def, keep1 _ _ (by decide), v1_2]
theorem v1_4 : X4 m c (Proc.devRef .tc main_v1) = KF.row0 (arg m c main_arg2) := by rw [X4_of_ne m c _ (by decide), v1_3]

/-! Layer 0, the edge perceptron. -/
theorem v34_2 : X2 m c (Proc.devRef .tc main_v34) = KF.ea1 (arg m c main_arg0) (arg m c main_arg1) (arg m c main_arg2) (arg m c main_arg3) (arg m c main_arg4) (arg m c main_arg5) (arg m c main_arg6) := by
  rw [X2_out, out0]
  show rowsE (X1 m c (Proc.devRef .tc main_v21)) (X1 m c (Proc.devRef .tc main_v24)) (X1 m c (Proc.devRef .tc main_v32)) (X1 m c (Proc.devRef .tc main_v27)) (X1 m c (Proc.devRef .tc main_v33)) = _
  rw [X1_def, s0_v21, s0_v24, s0_v32, s0_v27, s0_v33]
  rfl
theorem v34_3 : X3 m c (Proc.devRef .tc main_v34) = KF.ea1 (arg m c main_arg0) (arg m c main_arg1) (arg m c main_arg2) (arg m c main_arg3) (arg m c main_arg4) (arg m c main_arg5) (arg m c main_arg6) := by
  rw [X3_def, keep1 _ _ (by decide), v34_2]
theorem v34_4 : X4 m c (Proc.devRef .tc main_v34) = KF.ea1 (arg m c main_arg0) (arg m c main_arg1) (arg m c main_arg2) (arg m c main_arg3) (arg m c main_arg4) (arg m c main_arg5) (arg m c main_arg6) := by
  rw [X4_of_ne m c _ (by decide), v34_3]
theorem v4_2 : X2 m c (Proc.devRef .tc main_v4) = KF.nodes0 (arg m c main_arg0) := by
  rw [X2_of_ne m c _ (by decide), X1_def, s0_v4, V0_at]

/-! Layer 0, the node perceptron. -/
theorem v57_4 : X4 m c (Proc.devRef .tc main_v57) = KF.xn1 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X4_out, out1]
  show rowsN (X3 m c (Proc.devRef .tc main_v44)) (X3 m c (Proc.devRef .tc main_v47)) (X3 m c (Proc.devRef .tc main_v55)) (X3 m c (Proc.devRef .tc main_v50)) (X3 m c (Proc.devRef .tc main_v56)) = _
  rw [X3_def, s1_v44, s1_v47, s1_v55, s1_v50, s1_v56, v4_2, v34_2, v3_2,
    u2 m c main_arg7 (by decide) (by decide), u2 m c main_arg8 (by decide) (by decide), u2 m c main_arg9 (by decide) (by decide), u2 m c main_arg10 (by decide) (by decide)]
  rfl
theorem v57_5 : X5 m c (Proc.devRef .tc main_v57) = KF.xn1 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X5_def, keep2 _ _ (by decide), v57_4]
theorem v57_6 : X6 m c (Proc.devRef .tc main_v57) = KF.xn1 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X6_of_ne m c _ (by decide), v57_5]

/-! Layer 1, the edge perceptron. -/
theorem v86_6 : X6 m c (Proc.devRef .tc main_v86) = KF.ea2 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X6_out, out2]
  show rowsE (X5 m c (Proc.devRef .tc main_v73)) (X5 m c (Proc.devRef .tc main_v76)) (X5 m c (Proc.devRef .tc main_v84)) (X5 m c (Proc.devRef .tc main_v79)) (X5 m c (Proc.devRef .tc main_v85)) = _
  rw [X5_def, s2_v73, s2_v76, s2_v84, s2_v79, s2_v85, v34_4, v57_4, v1_4, v3_4,
    u4 m c main_arg3 (by decide) (by decide) (by decide) (by decide), u4 m c main_arg4 (by decide) (by decide) (by decide) (by decide),
    u4 m c main_arg5 (by decide) (by decide) (by decide) (by decide), u4 m c main_arg6 (by decide) (by decide) (by decide) (by decide), ← KF.catE_eq]
  rfl
theorem v86_7 : X7 m c (Proc.devRef .tc main_v86) = KF.ea2 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X7_def, keep3 _ _ (by decide), v86_6]
theorem v86_8 : X8 m c (Proc.devRef .tc main_v86) = KF.ea2 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X8_of_ne m c _ (by decide), v86_7]

/-! Layer 1, the node perceptron. -/
theorem v109_8 : X8 m c (Proc.devRef .tc main_v109) = KF.xn2 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X8_out, out3]
  show rowsN (X7 m c (Proc.devRef .tc main_v96)) (X7 m c (Proc.devRef .tc main_v99)) (X7 m c (Proc.devRef .tc main_v107)) (X7 m c (Proc.devRef .tc main_v102)) (X7 m c (Proc.devRef .tc main_v108)) = _
  rw [X7_def, s3_v96, s3_v99, s3_v107, s3_v102, s3_v108, v57_6, v86_6, v3_6,
    u6 m c main_arg7 (by decide) (by decide) (by decide) (by decide) (by decide) (by decide), u6 m c main_arg8 (by decide) (by decide) (by decide) (by decide) (by decide) (by decide),
    u6 m c main_arg9 (by decide) (by decide) (by decide) (by decide) (by decide) (by decide), u6 m c main_arg10 (by decide) (by decide) (by decide) (by decide) (by decide) (by decide), ← KF.agg_eq]
  rfl

/-! ## The two results -/

theorem x9_v110 : X9 m c (Proc.devRef .tc main_v110) = KF.res0 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X9_def, s4_v110, v109_8]; rfl
theorem x9_v111 : X9 m c (Proc.devRef .tc main_v111) = KF.res1 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  rw [X9_def, s4_v111, v86_8]; rfl

end Chain

end Cert.KernelIdeal.KR

end
-- ==== Proof.RefFold.lean ====
/-
  The reference is a straight line of 166 operations. What a buffer holds after the line is a fold of the operations'
  results over the contents at the start; this module reads that fold in eight segments, cut after the operations that
  write the inputs and outputs of the four perceptrons. Over arbitrary contents, each segment leaves in the buffers
  read after it the corresponding stage of the reference as a function of the eleven arguments, given that the buffers
  it reads hold the stages before it; it leaves every buffer it does not write as it was. Chained, the two results are
  the last stages read at the arguments, and the arguments are unchanged: the statement of the reference's run.
-/
import proofs.«174539_j57174604644524_1_alg».proof.Proof.RefRunP
import proofs.«174539_j57174604644524_1_alg».proof.Proof.RefReadP

noncomputable section

namespace Cert.RefFold

open Cert.ReferenceIdeal Cert.ReferenceIdeal.Gen Cert.ReferenceIdeal.Read Cert.ReferenceIdeal.ValueP Idealize.ShloMosaic
  Idealize.ShloMosaic.TcCoe Idealize.SL.Sem Idealize.ShloMosaic.StableHlo

variable {F : FTy → Type} [FloatOps F]

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ### The eight segments of the line -/

abbrev opsA : List (HloOp τ sig (Elt F)) :=
  [
    unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S1x50000x64_S800000x1_S1x800000x64_02_1_n_n_1_1_1164 x i) : (⟨S1x50000x64, .f32⟩ : BufTy).Contents (Elt F) → (⟨S800000x1, .i32⟩ : BufTy).Contents (Elt F) → (⟨S1x800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S1x50000x64_S800000x1_S1x800000x64_02_1_n_n_1_1_1164 x i) : (⟨S1x50000x64, .f32⟩ : BufTy).Contents (Elt F) → (⟨S800000x1, .i32⟩ : BufTy).Contents (Elt F) → (⟨S1x800000x64, .f32⟩ : BufTy).Contents (Elt F)),
    nary ![main_arg1, main_v10, main_v17] main_v18 (fun u => concatenate S1x800000x192 2 [⟨S1x800000x64, u 0⟩, ⟨S1x800000x64, u 1⟩, ⟨S1x800000x64, u 2⟩] concatenates_S1x800000x64_S1x800000x64_S1x800000x64_S1x800000x192_d2) ]

abbrev opsB : List (HloOp τ sig (Elt F)) :=
  [
    unary main_arg3 main_v19 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v19 main_v20 rfl shapeCasts_S1x192x64_S192x64,
    binary main_v18 main_v20 main_v21 ((fun l r => Host.dotGeneral dot_S1x800000x192_S192x64_S1x800000x64_2_0_01_1_n_n none l r) : (⟨S1x800000x192, .f32⟩ : BufTy).Contents (Elt F) → (⟨S192x64, .f32⟩ : BufTy).Contents (Elt F) → (⟨S1x800000x64, .f32⟩ : BufTy).Contents (Elt F)),
    unary main_arg4 main_v22 ((extractStridedSlice S1x64 ![0, 0] · slices_S2x64_S1x64_0_0) : (⟨S2x64, .f32⟩ : BufTy).Contents (Elt F) → (⟨S1x64, .f32⟩ : BufTy).Contents (Elt F)),
    reshape main_v22 main_v23 rfl shapeCasts_S1x64_S64,
    unary main_v23 main_v24 (broadcastInDim S1x1x64 ![2] bcast_S64_S1x1x64_2 : (⟨S64, .f32⟩ : BufTy).Contents (Elt F) → (⟨S1x1x64, .f32⟩ : BufTy).Contents (Elt F)),
    unary main_v24 main_v25 (broadcastInDim S1x800000x64 ![0, 1, 2] bcast_S1x1x64_S1x800000x64_0_1_2 : (⟨S1x1x64, .f32⟩ : BufTy).Contents (Elt F) → (⟨S1x800000x64, .f32⟩ : BufTy).Contents (Elt F)),
    binary main_v21 main_v25 main_v26 (addf : (⟨S1x800000x64, .f32⟩ : BufTy).Contents (Elt F) → (⟨S1x800000x64, .f32⟩ : BufTy).Contents (Elt F) → (⟨S1x800000x64, .f32⟩ : BufTy).Contents (Elt F)),
    TRef.unary (TRef.of (T := ⟨S1x800000x64, .f32⟩) main_v26) (TRef.of (T := ⟨S1x800000x64, .f32⟩) main_call0_v0) Host.negf,
    TRef.unary (TRef.of (T := ⟨S1x800000x64, .f32⟩) main_call0_v0) (TRef.of (T := ⟨S1x800000x64, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S1x800000x64, .f32⟩) main_call0_v2) (broadcastInDim S1x800000x64 ![] bcast_S_S1x800000x64),
    TRef.binary (TRef.of (T := ⟨S1x800000x64, .f32⟩) main_call0_v2) (TRef.of (T := ⟨S1x800000x64, .f32⟩) main_call0_v1) (TRef.of (T := ⟨S1x800000x64, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S1x800000x64, .f32⟩) main_call0_v4) (broadcastInDim S1x800000x64 ![] bcast_S_S1x800000x64),
    TRef.binary (TRef.of (T := ⟨S1x800000x64, .f32⟩) main_call0_v4) (TRef.of (T := ⟨S1x800000x64, .f32⟩) main_call0_v3) (TRef.of (T := ⟨S1x800000x64, .f32⟩) main_call0_v5) Host.divf,
    TRef.binary (TRef.of (T := ⟨S1x800000x64, .f32⟩) main_v26) (TRef.of (T := ⟨S1x800000x64, .f32⟩) main_call0_v5) (TRef.of (T := ⟨S1x800000x64, .f32⟩) main_v27) mulf,
    unary main_arg5 main_v28 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v28 main_v29 rfl shapeCasts_S1x64x64_S64x64,
    binary main_v27 main_v29 main_v30 ((fun l r => Host.dotGeneral dot_S1x800000x64_S64x64_S1x800000x64_2_0_01_1_n_n none l r) : (⟨S1x800000x64, .f32⟩ : BufTy).Contents (Elt F) → (⟨S64x64, .f32⟩ : BufTy).Contents (Elt F) → (⟨S1x800000x64, .f32⟩ : BufTy).Contents (Elt F)),
    unary main_arg6 main_v31 ((extractStridedSlice S1x64 ![0, 0] · slices_S2x64_S1x64_0_0) : (⟨S2x64, .f32⟩ : BufTy).Contents (Elt F) → (⟨S1x64, .f32⟩ : BufTy).Contents (Elt F)),
    reshape main_v31 main_v32 rfl shapeCasts_S1x64_S64,
    unary main_v32 main_v33 (broadcastInDim S1x1x64 ![2] bcast_S64_S1x1x64_2 : (⟨S64, .f32⟩ : BufTy).Contents (Elt F) → (⟨S1x1x64, .f32⟩ : BufTy).Contents (Elt F)),
    unary main_v33 main_v34 (broadcastInDim S1x800000x64 ![0, 1, 2] bcast_S1x1x64_S1x800000x64_0_1_2 : (⟨S1x1x64, .f32⟩ : BufTy).Contents (Elt F) → (⟨S1x800000x64, .f32⟩ : BufTy).Contents (Elt F)),
    binary main_v30 main_v34 main_v35 (addf : (⟨S1x800000x64, .f32⟩ : BufTy).Contents (Elt F) → (⟨S1x800000x64, .f32⟩ : BufTy).Contents (Elt F) → (⟨S1x800000x64, .f32⟩ : BufTy).Contents (Elt F)) ]

abbrev opsC : List (HloOp τ sig (Elt F)) :=
  [
    nullary main_cst (constant S_ .f32 0x00000000#32),
    unary main_cst main_v36 (broadcastInDim S1x50000x64 ![] bcast_S_S1x50000x64 : (⟨S_, .f32⟩ : BufTy).Contents (Elt F) → (⟨S1x50000x64, .f32⟩ : BufTy).Contents (Elt F)),
    nullary main_c_3 (constantI S_ 32 0#32),
    unary main_c_3 main_v37 (broadcastInDim S800000 ![] bcast_S_S800000 : (⟨S_, .i32⟩ : BufTy).Contents (Elt F) → (⟨S800000, .i32⟩ : BufTy).Contents (Elt F)),
    binary main_v3 main_v37 main_v38 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v39 (broadcastInDim S800000 ![] bcast_S_S800000 : (⟨S_, .i32⟩ : BufTy).Contents (Elt F) → (⟨S800000, .i32⟩ : BufTy).Contents (Elt F)),
    binary main_v3 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v3 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    ternary main_v36 main_v42 main_v35 main_v43 ((fun x i u => Host.scatterAdd scatter_S1x50000x64_S800000x1_S1x800000x64_02_1_1_1 x i u) : (⟨S1x50000x64, .f32⟩ : BufTy).Contents (Elt F) → (⟨S800000x1, .i32⟩ : BufTy).Contents (Elt F) → (⟨S1x800000x64, .f32⟩ : BufTy).Contents (Elt F) → (⟨S1x50000x64, .f32⟩ : BufTy).Contents (Elt F)),
    binary main_arg0 main_v43 main_v44 ((fun a b => concatenate S1x50000x128 2 [⟨S1x50000x64, a⟩, ⟨S1x50000x64, b⟩] concatenates_S1x50000x64_S1x50000x64_S1x50000x128_d2) : (⟨S1x50000x64, .f32⟩ : BufTy).Contents (Elt F) → (⟨S1x50000x64, .f32⟩ : BufTy).Contents (Elt F) → (⟨S1x50000x128, .f32⟩ : BufTy).Contents (Elt F)) ]

abbrev opsD : List (HloOp τ sig (Elt F)) :=
  [
    unary main_arg7 main_v45 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v45 main_v46 rfl shapeCasts_S1x128x64_S128x64,
    binary main_v44 main_v46 main_v47 ((fun l r => Host.dotGeneral dot_S1x50000x128_S128x64_S1x50000x64_2_0_01_1_n_n none l r) : (⟨S1x50000x128, .f32⟩ : BufTy).Contents (Elt F) → (⟨S128x64, .f32⟩ : BufTy).Contents (Elt F) → (⟨S1x50000x64, .f32⟩ : BufTy).Contents (Elt F)),
    unary main_arg8 main_v48 ((extractStridedSlice S1x64 ![0, 0] · slices_S2x64_S1x64_0_0) : (⟨S2x64, .f32⟩ : BufTy).Contents (Elt F) → (⟨S1x64, .f32⟩ : BufTy).Contents (Elt F)),
    reshape main_v48 main_v49 rfl shapeCasts_S1x64_S64,
    unary main_v49 main_v50 (broadcastInDim S1x1x64 ![2] bcast_S64_S1x1x64_2 : (⟨S64, .f32⟩ : BufTy).Contents (Elt F) → (⟨S1x1x64, .f32⟩ : BufTy).Contents (Elt F)),
    unary main_v50 main_v51 (broadcastInDim S1x50000x64 ![0, 1, 2] bcast_S1x1x64_S1x50000x64_0_1_2 : (⟨S1x1x64, .f32⟩ : BufTy).Contents (Elt F) → (⟨S1x50000x64, .f32⟩ : BufTy).Contents (Elt F)),
    binary main_v47 main_v51 main_v52 (addf : (⟨S1x50000x64, .f32⟩ : BufTy).Contents (Elt F) → (⟨S1x50000x64, .f32⟩ : BufTy).Contents (Elt F) → (⟨S1x50000x64, .f32⟩ : BufTy).Contents (Elt F)),
    TRef.unary (TRef.of (T := ⟨S1x50000x64, .f32⟩) main_v52) (TRef.of (T := ⟨S1x50000x64, .f32⟩) main_call1_v0) Host.negf,
    TRef.unary (TRef.of (T := ⟨S1x50000x64, .f32⟩) main_call1_v0) (TRef.of (T := ⟨S1x50000x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S1x50000x64, .f32⟩) main_call1_v2) (broadcastInDim S1x50000x64 ![] bcast_S_S1x50000x64),
    TRef.binary (TRef.of (T := ⟨S1x50000x64, .f32⟩) main_call1_v2) (TRef.of (T := ⟨S1x50000x64, .f32⟩) main_call1_v1) (TRef.of (T := ⟨S1x50000x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S1x50000x64, .f32⟩) main_call1_v4) (broadcastInDim S1x50000x64 ![] bcast_S_S1x50000x64),
    TRef.binary (TRef.of (T := ⟨S1x50000x64, .f32⟩) main_call1_v4) (TRef.of (T := ⟨S1x50000x64, .f32⟩) main_call1_v3) (TRef.of (T := ⟨S1x50000x64, .f32⟩) main_call1_v5) Host.divf,
    TRef.binary (TRef.of (T := ⟨S1x50000x64, .f32⟩) main_v52) (TRef.of (T := ⟨S1x50000x64, .f32⟩) main_call1_v5) (TRef.of (T := ⟨S1x50000x64, .f32⟩) main_v53) mulf,
    unary main_arg9 main_v54 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v54 main_v55 rfl shapeCasts_S1x64x64_S64x64,
    binary main_v53 main_v55 main_v56 ((fun l r => Host.dotGeneral dot_S1x50000x64_S64x64_S1x50000x64_2_0_01_1_n_n none l r) : (⟨S1x50000x64, .f32⟩ : BufTy).Contents (Elt F) → (⟨S64x64, .f32⟩ : BufTy).Contents (Elt F) → (⟨S1x50000x64, .f32⟩ : BufTy).Contents (Elt F)),
    unary main_arg10 main_v57 ((extractStridedSlice S1x64 ![0, 0] · slices_S2x64_S1x64_0_0) : (⟨S2x64, .f32⟩ : BufTy).Contents (Elt F) → (⟨S1x64, .f32⟩ : BufTy).Contents (Elt F)),
    reshape main_v57 main_v58 rfl shapeCasts_S1x64_S64,
    unary main_v58 main_v59 (broadcastInDim S1x1x64 ![2] bcast_S64_S1x1x64_2 : (⟨S64, .f32⟩ : BufTy).Contents (Elt F) → (⟨S1x1x64, .f32⟩ : BufTy).Contents (Elt F)),
    unary main_v59 main_v60 (broadcastInDim S1x50000x64 ![0, 1, 2] bcast_S1x1x64_S1x50000x64_0_1_2 : (⟨S1x1x64, .f32⟩ : BufTy).Contents (Elt F) → (⟨S1x50000x64, .f32⟩ : BufTy).Contents (Elt F)),
    binary main_v56 main_v60 main_v61 (addf : (⟨S1x50000x64, .f32⟩ : BufTy).Contents (Elt F) → (⟨S1x50000x64, .f32⟩ : BufTy).Contents (Elt F) → (⟨S1x50000x64, .f32⟩ : BufTy).Contents (Elt F)) ]

abbrev opsE : List (HloOp τ sig (Elt F)) :=
  [
    nullary main_c_5 (constantI S_ 32 0#32),
    unary main_c_5 main_v62 (broadcastInDim S800000 ![] bcast_S_S800000 : (⟨S_, .i32⟩ : BufTy).Contents (Elt F) → (⟨S800000, .i32⟩ : BufTy).Contents (Elt F)),
    binary main_v1 main_v62 main_v63 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v64 (broadcastInDim S800000 ![] bcast_S_S800000 : (⟨S_, .i32⟩ : BufTy).Contents (Elt F) → (⟨S800000, .i32⟩ : BufTy).Contents (Elt F)),
    binary main_v1 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    binary main_v61 main_v67 main_v68 ((fun x i => Host.gather gather_S1x50000x64_S800000x1_S1x800000x64_02_1_n_n_1_1_1164 x i) : (⟨S1x50000x64, .f32⟩ : BufTy).Contents (Elt F) → (⟨S800000x1, .i32⟩ : BufTy).Contents (Elt F) → (⟨S1x800000x64, .f32⟩ : BufTy).Contents (Elt F)),
    nullary main_c_7 (constantI S_ 32 0#32),
    unary main_c_7 main_v69 (broadcastInDim S800000 ![] bcast_S_S800000 : (⟨S_, .i32⟩ : BufTy).Contents (Elt F) → (⟨S800000, .i32⟩ : BufTy).Contents (Elt F)),
    binary main_v3 main_v69 main_v70 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v71 (broadcastInDim S800000 ![] bcast_S_S800000 : (⟨S_, .i32⟩ : BufTy).Contents (Elt F) → (⟨S800000, .i32⟩ : BufTy).Contents (Elt F)),
    binary main_v3 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_v3 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v61 main_v74 main_v75 ((fun x i => Host.gather gather_S1x50000x64_S800000x1_S1x800000x64_02_1_n_n_1_1_1164 x i) : (⟨S1x50000x64, .f32⟩ : BufTy).Contents (Elt F) → (⟨S800000x1, .i32⟩ : BufTy).Contents (Elt F) → (⟨S1x800000x64, .f32⟩ : BufTy).Contents (Elt F)),
    nary ![main_v35, main_v68, main_v75] main_v76 (fun u => concatenate S1x800000x192 2 [⟨S1x800000x64, u 0⟩, ⟨S1x800000x64, u 1⟩, ⟨S1x800000x64, u 2⟩] concatenates_S1x800000x64_S1x800000x64_S1x800000x64_S1x800000x192_d2) ]

abbrev opsF : List (HloOp τ sig (Elt F)) :=
  [
    unary main_arg3 main_v77 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v77 main_v78 rfl shapeCasts_S1x192x64_S192x64,
    binary main_v76 main_v78 main_v79 ((fun l r => Host.dotGeneral dot_S1x800000x192_S192x64_S1x800000x64_2_0_01_1_n_n none l r) : (⟨S1x800000x192, .f32⟩ : BufTy).Contents (Elt F) → (⟨S192x64, .f32⟩ : BufTy).Contents (Elt F) → (⟨S1x800000x64, .f32⟩ : BufTy).Contents (Elt F)),
    unary main_arg4 main_v80 ((extractStridedSlice S1x64 ![1, 0] · slices_S2x64_S1x64_1_0) : (⟨S2x64, .f32⟩ : BufTy).Contents (Elt F) → (⟨S1x64, .f32⟩ : BufTy).Contents (Elt F)),
    reshape main_v80 main_v81 rfl shapeCasts_S1x64_S64,
    unary main_v81 main_v82 (broadcastInDim S1x1x64 ![2] bcast_S64_S1x1x64_2 : (⟨S64, .f32⟩ : BufTy).Contents (Elt F) → (⟨S1x1x64, .f32⟩ : BufTy).Contents (Elt F)),
    unary main_v82 main_v83 (broadcastInDim S1x800000x64 ![0, 1, 2] bcast_S1x1x64_S1x800000x64_0_1_2 : (⟨S1x1x64, .f32⟩ : BufTy).Contents (Elt F) → (⟨S1x800000x64, .f32⟩ : BufTy).Contents (Elt F)),
    binary main_v79 main_v83 main_v84 (addf : (⟨S1x800000x64, .f32⟩ : BufTy).Contents (Elt F) → (⟨S1x800000x64, .f32⟩ : BufTy).Contents (Elt F) → (⟨S1x800000x64, .f32⟩ : BufTy).Contents (Elt F)),
    TRef.unary (TRef.of (T := ⟨S1x800000x64, .f32⟩) main_v84) (TRef.of (T := ⟨S1x800000x64, .f32⟩) main_call2_v0) Host.negf,
    TRef.unary (TRef.of (T := ⟨S1x800000x64, .f32⟩) main_call2_v0) (TRef.of (T := ⟨S1x800000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S1x800000x64, .f32⟩) main_call2_v2) (broadcastInDim S1x800000x64 ![] bcast_S_S1x800000x64),
    TRef.binary (TRef.of (T := ⟨S1x800000x64, .f32⟩) main_call2_v2) (TRef.of (T := ⟨S1x800000x64, .f32⟩) main_call2_v1) (TRef.of (T := ⟨S1x800000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S1x800000x64, .f32⟩) main_call2_v4) (broadcastInDim S1x800000x64 ![] bcast_S_S1x800000x64),
    TRef.binary (TRef.of (T := ⟨S1x800000x64, .f32⟩) main_call2_v4) (TRef.of (T := ⟨S1x800000x64, .f32⟩) main_call2_v3) (TRef.of (T := ⟨S1x800000x64, .f32⟩) main_call2_v5) Host.divf,
    TRef.binary (TRef.of (T := ⟨S1x800000x64, .f32⟩) main_v84) (TRef.of (T := ⟨S1x800000x64, .f32⟩) main_call2_v5) (TRef.of (T := ⟨S1x800000x64, .f32⟩) main_v85) mulf,
    unary main_arg5 main_v86 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S1x800000x64_S64x64_S1x800000x64_2_0_01_1_n_n none l r) : (⟨S1x800000x64, .f32⟩ : BufTy).Contents (Elt F) → (⟨S64x64, .f32⟩ : BufTy).Contents (Elt F) → (⟨S1x800000x64, .f32⟩ : BufTy).Contents (Elt F)),
    unary main_arg6 main_v89 ((extractStridedSlice S1x64 ![1, 0] · slices_S2x64_S1x64_1_0) : (⟨S2x64, .f32⟩ : BufTy).Contents (Elt F) → (⟨S1x64, .f32⟩ : BufTy).Contents (Elt F)),
    reshape main_v89 main_v90 rfl shapeCasts_S1x64_S64,
    unary main_v90 main_v91 (broadcastInDim S1x1x64 ![2] bcast_S64_S1x1x64_2 : (⟨S64, .f32⟩ : BufTy).Contents (Elt F) → (⟨S1x1x64, .f32⟩ : BufTy).Contents (Elt F)),
    unary main_v91 main_v92 (broadcastInDim S1x800000x64 ![0, 1, 2] bcast_S1x1x64_S1x800000x64_0_1_2 : (⟨S1x1x64, .f32⟩ : BufTy).Contents (Elt F) → (⟨S1x800000x64, .f32⟩ : BufTy).Contents (Elt F)),
    binary main_v88 main_v92 main_v93 (addf : (⟨S1x800000x64, .f32⟩ : BufTy).Contents (Elt F) → (⟨S1x800000x64, .f32⟩ : BufTy).Contents (Elt F) → (⟨S1x800000x64, .f32⟩ : BufTy).Contents (Elt F)) ]

abbrev opsG : List (HloOp τ sig (Elt F)) :=
  [
    nullary main_cst_9 (constant S_ .f32 0x00000000#32),
    unary main_cst_9 main_v94 (broadcastInDim S1x50000x64 ![] bcast_S_S1x50000x64 : (⟨S_, .f32⟩ : BufTy).Contents (Elt F) → (⟨S1x50000x64, .f32⟩ : BufTy).Contents (Elt F)),
    nullary main_c_10 (constantI S_ 32 0#32),
    unary main_c_10 main_v95 (broadcastInDim S800000 ![] bcast_S_S800000 : (⟨S_, .i32⟩ : BufTy).Contents (Elt F) → (⟨S800000, .i32⟩ : BufTy).Contents (Elt F)),
    binary main_v3 main_v95 main_v96 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v97 (broadcastInDim S800000 ![] bcast_S_S800000 : (⟨S_, .i32⟩ : BufTy).Contents (Elt F) → (⟨S800000, .i32⟩ : BufTy).Contents (Elt F)),
    binary main_v3 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_v3 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    ternary main_v94 main_v100 main_v93 main_v101 ((fun x i u => Host.scatterAdd scatter_S1x50000x64_S800000x1_S1x800000x64_02_1_1_1 x i u) : (⟨S1x50000x64, .f32⟩ : BufTy).Contents (Elt F) → (⟨S800000x1, .i32⟩ : BufTy).Contents (Elt F) → (⟨S1x800000x64, .f32⟩ : BufTy).Contents (Elt F) → (⟨S1x50000x64, .f32⟩ : BufTy).Contents (Elt F)),
    binary main_v61 main_v101 main_v102 ((fun a b => concatenate S1x50000x128 2 [⟨S1x50000x64, a⟩, ⟨S1x50000x64, b⟩] concatenates_S1x50000x64_S1x50000x64_S1x50000x128_d2) : (⟨S1x50000x64, .f32⟩ : BufTy).Contents (Elt F) → (⟨S1x50000x64, .f32⟩ : BufTy).Contents (Elt F) → (⟨S1x50000x128, .f32⟩ : BufTy).Contents (Elt F)) ]

abbrev opsH : List (HloOp τ sig (Elt F)) :=
  [
    unary main_arg7 main_v103 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v103 main_v104 rfl shapeCasts_S1x128x64_S128x64,
    binary main_v102 main_v104 main_v105 ((fun l r => Host.dotGeneral dot_S1x50000x128_S128x64_S1x50000x64_2_0_01_1_n_n none l r) : (⟨S1x50000x128, .f32⟩ : BufTy).Contents (Elt F) → (⟨S128x64, .f32⟩ : BufTy).Contents (Elt F) → (⟨S1x50000x64, .f32⟩ : BufTy).Contents (Elt F)),
    unary main_arg8 main_v106 ((extractStridedSlice S1x64 ![1, 0] · slices_S2x64_S1x64_1_0) : (⟨S2x64, .f32⟩ : BufTy).Contents (Elt F) → (⟨S1x64, .f32⟩ : BufTy).Contents (Elt F)),
    reshape main_v106 main_v107 rfl shapeCasts_S1x64_S64,
    unary main_v107 main_v108 (broadcastInDim S1x1x64 ![2] bcast_S64_S1x1x64_2 : (⟨S64, .f32⟩ : BufTy).Contents (Elt F) → (⟨S1x1x64, .f32⟩ : BufTy).Contents (Elt F)),
    unary main_v108 main_v109 (broadcastInDim S1x50000x64 ![0, 1, 2] bcast_S1x1x64_S1x50000x64_0_1_2 : (⟨S1x1x64, .f32⟩ : BufTy).Contents (Elt F) → (⟨S1x50000x64, .f32⟩ : BufTy).Contents (Elt F)),
    binary main_v105 main_v109 main_v110 (addf : (⟨S1x50000x64, .f32⟩ : BufTy).Contents (Elt F) → (⟨S1x50000x64, .f32⟩ : BufTy).Contents (Elt F) → (⟨S1x50000x64, .f32⟩ : BufTy).Contents (Elt F)),
    TRef.unary (TRef.of (T := ⟨S1x50000x64, .f32⟩) main_v110) (TRef.of (T := ⟨S1x50000x64, .f32⟩) main_call3_v0) Host.negf,
    TRef.unary (TRef.of (T := ⟨S1x50000x64, .f32⟩) main_call3_v0) (TRef.of (T := ⟨S1x50000x64, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S1x50000x64, .f32⟩) main_call3_v2) (broadcastInDim S1x50000x64 ![] bcast_S_S1x50000x64),
    TRef.binary (TRef.of (T := ⟨S1x50000x64, .f32⟩) main_call3_v2) (TRef.of (T := ⟨S1x50000x64, .f32⟩) main_call3_v1) (TRef.of (T := ⟨S1x50000x64, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S1x50000x64, .f32⟩) main_call3_v4) (broadcastInDim S1x50000x64 ![] bcast_S_S1x50000x64),
    TRef.binary (TRef.of (T := ⟨S1x50000x64, .f32⟩) main_call3_v4) (TRef.of (T := ⟨S1x50000x64, .f32⟩) main_call3_v3) (TRef.of (T := ⟨S1x50000x64, .f32⟩) main_call3_v5) Host.divf,
    TRef.binary (TRef.of (T := ⟨S1x50000x64, .f32⟩) main_v110) (TRef.of (T := ⟨S1x50000x64, .f32⟩) main_call3_v5) (TRef.of (T := ⟨S1x50000x64, .f32⟩) main_v111) mulf,
    unary main_arg9 main_v112 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v112 main_v113 rfl shapeCasts_S1x64x64_S64x64,
    binary main_v111 main_v113 main_v114 ((fun l r => Host.dotGeneral dot_S1x50000x64_S64x64_S1x50000x64_2_0_01_1_n_n none l r) : (⟨S1x50000x64, .f32⟩ : BufTy).Contents (Elt F) → (⟨S64x64, .f32⟩ : BufTy).Contents (Elt F) → (⟨S1x50000x64, .f32⟩ : BufTy).Contents (Elt F)),
    unary main_arg10 main_v115 ((extractStridedSlice S1x64 ![1, 0] · slices_S2x64_S1x64_1_0) : (⟨S2x64, .f32⟩ : BufTy).Contents (Elt F) → (⟨S1x64, .f32⟩ : BufTy).Contents (Elt F)),
    reshape main_v115 main_v116 rfl shapeCasts_S1x64_S64,
    unary main_v116 main_v117 (broadcastInDim S1x1x64 ![2] bcast_S64_S1x1x64_2 : (⟨S64, .f32⟩ : BufTy).Contents (Elt F) → (⟨S1x1x64, .f32⟩ : BufTy).Contents (Elt F)),
    unary main_v117 main_v118 (broadcastInDim S1x50000x64 ![0, 1, 2] bcast_S1x1x64_S1x50000x64_0_1_2 : (⟨S1x1x64, .f32⟩ : BufTy).Contents (Elt F) → (⟨S1x50000x64, .f32⟩ : BufTy).Contents (Elt F)),
    binary main_v114 main_v118 main_v119 (addf : (⟨S1x50000x64, .f32⟩ : BufTy).Contents (Elt F) → (⟨S1x50000x64, .f32⟩ : BufTy).Contents (Elt F) → (⟨S1x50000x64, .f32⟩ : BufTy).Contents (Elt F)) ]

set_option maxRecDepth 8192 in
theorem ops_split : (ops : List (HloOp τ sig (Elt F))) = opsA ++ opsB ++ opsC ++ opsD ++ opsE ++ opsF ++ opsG ++ opsH := rfl

/-! ### A segment leaves the buffers it does not write as they were -/

/-- The eleven argument buffers hold in `V` what they hold in `W`. -/
structure ArgsKept (V W : Valuation τ sig (Elt F)) : Prop where
  k0 : V (Proc.devRef .tc main_arg0) = W (Proc.devRef .tc main_arg0)
  k1 : V (Proc.devRef .tc main_arg1) = W (Proc.devRef .tc main_arg1)
  k2 : V (Proc.devRef .tc main_arg2) = W (Proc.devRef .tc main_arg2)
  k3 : V (Proc.devRef .tc main_arg3) = W (Proc.devRef .tc main_arg3)
  k4 : V (Proc.devRef .tc main_arg4) = W (Proc.devRef .tc main_arg4)
  k5 : V (Proc.devRef .tc main_arg5) = W (Proc.devRef .tc main_arg5)
  k6 : V (Proc.devRef .tc main_arg6) = W (Proc.devRef .tc main_arg6)
  k7 : V (Proc.devRef .tc main_arg7) = W (Proc.devRef .tc main_arg7)
  k8 : V (Proc.devRef .tc main_arg8) = W (Proc.devRef .tc main_arg8)
  k9 : V (Proc.devRef .tc main_arg9) = W (Proc.devRef .tc main_arg9)
  k10 : V (Proc.devRef .tc main_arg10) = W (Proc.devRef .tc main_arg10)

theorem ArgsKept.trans {V₂ V₁ V₀ : Valuation τ sig (Elt F)} (h₁ : ArgsKept V₂ V₁) (h₂ : ArgsKept V₁ V₀) : ArgsKept V₂ V₀ :=
  ⟨h₁.k0.trans h₂.k0, h₁.k1.trans h₂.k1, h₁.k2.trans h₂.k2, h₁.k3.trans h₂.k3, h₁.k4.trans h₂.k4, h₁.k5.trans h₂.k5, h₁.k6.trans h₂.k6, h₁.k7.trans h₂.k7, h₁.k8.trans h₂.k8, h₁.k9.trans h₂.k9, h₁.k10.trans h₂.k10⟩

/-- A one-element set of a listed reference lies in the list's set. -/
theorem single_sub {wr : List (Ref sig .tc)} {y : Ref sig .tc} (h : y ∈ wr) :
    ({Proc.devRef (τ := τ) .tc y} : Finset (DevRef τ sig)) ⊆ (wr.map (Proc.devRef (τ := τ) .tc)).toFinset :=
  Finset.singleton_subset_iff.mpr (List.mem_toFinset.mpr (List.mem_map.mpr ⟨y, h, rfl⟩))

abbrev wrA : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18]

set_option maxRecDepth 8192 in
theorem keepA (W : Valuation τ sig (Elt F)) (r : Ref sig .tc) (hr : r ∉ wrA) :
    after opsA W (Proc.devRef .tc r) = W (Proc.devRef .tc r) :=
  after_of_writes_sub (W := wrA) opsA W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsA (W : Valuation τ sig (Elt F)) : ArgsKept (after opsA W) W :=
  ⟨keepA W main_arg0 (by decide), keepA W main_arg1 (by decide), keepA W main_arg2 (by decide), keepA W main_arg3 (by decide), keepA W main_arg4 (by decide), keepA W main_arg5 (by decide), keepA W main_arg6 (by decide), keepA W main_arg7 (by decide), keepA W main_arg8 (by decide), keepA W main_arg9 (by decide), keepA W main_arg10 (by decide)⟩

abbrev wrB : List (Ref sig .tc) :=
  [main_v19, main_v20, main_v21, main_v22, main_v23, main_v24, main_v25, main_v26, main_call0_v0, main_call0_v1, main_call0_cst, main_call0_v2, main_call0_v3, main_call0_cst_0, main_call0_v4, main_call0_v5, main_v27, main_v28, main_v29, main_v30, main_v31, main_v32, main_v33, main_v34, main_v35]

set_option maxRecDepth 8192 in
theorem keepB (W : Valuation τ sig (Elt F)) (r : Ref sig .tc) (hr : r ∉ wrB) :
    after opsB W (Proc.devRef .tc r) = W (Proc.devRef .tc r) :=
  after_of_writes_sub (W := wrB) opsB W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsB (W : Valuation τ sig (Elt F)) : ArgsKept (after opsB W) W :=
  ⟨keepB W main_arg0 (by decide), keepB W main_arg1 (by decide), keepB W main_arg2 (by decide), keepB W main_arg3 (by decide), keepB W main_arg4 (by decide), keepB W main_arg5 (by decide), keepB W main_arg6 (by decide), keepB W main_arg7 (by decide), keepB W main_arg8 (by decide), keepB W main_arg9 (by decide), keepB W main_arg10 (by decide)⟩

abbrev wrC : List (Ref sig .tc) :=
  [main_cst, main_v36, main_c_3, main_v37, main_v38, main_c_4, main_v39, main_v40, main_v41, main_v42, main_v43, main_v44]

set_option maxRecDepth 8192 in
theorem keepC (W : Valuation τ sig (Elt F)) (r : Ref sig .tc) (hr : r ∉ wrC) :
    after opsC W (Proc.devRef .tc r) = W (Proc.devRef .tc r) :=
  after_of_writes_sub (W := wrC) opsC W
    ⟨single_sub (by decide), single_sub (by decide), single_sub (by decide), single_sub (by decide), single_sub (by decide), single_sub (by decide), single_sub (by decide), single_sub (by decide), single_sub (by decide), single_sub (by decide), single_sub (by decide), single_sub (by decide)⟩ hr

theorem argsC (W : Valuation τ sig (Elt F)) : ArgsKept (after opsC W) W :=
  ⟨keepC W main_arg0 (by decide), keepC W main_arg1 (by decide), keepC W main_arg2 (by decide), keepC W main_arg3 (by decide), keepC W main_arg4 (by decide), keepC W main_arg5 (by decide), keepC W main_arg6 (by decide), keepC W main_arg7 (by decide), keepC W main_arg8 (by decide), keepC W main_arg9 (by decide), keepC W main_arg10 (by decide)⟩

abbrev wrD : List (Ref sig .tc) :=
  [main_v45, main_v46, main_v47, main_v48, main_v49, main_v50, main_v51, main_v52, main_call1_v0, main_call1_v1, main_call1_cst, main_call1_v2, main_call1_v3, main_call1_cst_0, main_call1_v4, main_call1_v5, main_v53, main_v54, main_v55, main_v56, main_v57, main_v58, main_v59, main_v60, main_v61]

set_option maxRecDepth 8192 in
theorem keepD (W : Valuation τ sig (Elt F)) (r : Ref sig .tc) (hr : r ∉ wrD) :
    after opsD W (Proc.devRef .tc r) = W (Proc.devRef .tc r) :=
  after_of_writes_sub (W := wrD) opsD W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsD (W : Valuation τ sig (Elt F)) : ArgsKept (after opsD W) W :=
  ⟨keepD W main_arg0 (by decide), keepD W main_arg1 (by decide), keepD W main_arg2 (by decide), keepD W main_arg3 (by decide), keepD W main_arg4 (by decide), keepD W main_arg5 (by decide), keepD W main_arg6 (by decide), keepD W main_arg7 (by decide), keepD W main_arg8 (by decide), keepD W main_arg9 (by decide), keepD W main_arg10 (by decide)⟩

abbrev wrE : List (Ref sig .tc) :=
  [main_c_5, main_v62, main_v63, main_c_6, main_v64, main_v65, main_v66, main_v67, main_v68, main_c_7, main_v69, main_v70, main_c_8, main_v71, main_v72, main_v73, main_v74, main_v75, main_v76]

set_option maxRecDepth 8192 in
theorem keepE (W : Valuation τ sig (Elt F)) (r : Ref sig .tc) (hr : r ∉ wrE) :
    after opsE W (Proc.devRef .tc r) = W (Proc.devRef .tc r) :=
  after_of_writes_sub (W := wrE) opsE W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsE (W : Valuation τ sig (Elt F)) : ArgsKept (after opsE W) W :=
  ⟨keepE W main_arg0 (by decide), keepE W main_arg1 (by decide), keepE W main_arg2 (by decide), keepE W main_arg3 (by decide), keepE W main_arg4 (by decide), keepE W main_arg5 (by decide), keepE W main_arg6 (by decide), keepE W main_arg7 (by decide), keepE W main_arg8 (by decide), keepE W main_arg9 (by decide), keepE W main_arg10 (by decide)⟩

abbrev wrF : List (Ref sig .tc) :=
  [main_v77, main_v78, main_v79, main_v80, main_v81, main_v82, main_v83, main_v84, main_call2_v0, main_call2_v1, main_call2_cst, main_call2_v2, main_call2_v3, main_call2_cst_0, main_call2_v4, main_call2_v5, main_v85, main_v86, main_v87, main_v88, main_v89, main_v90, main_v91, main_v92, main_v93]

set_option maxRecDepth 8192 in
theorem keepF (W : Valuation τ sig (Elt F)) (r : Ref sig .tc) (hr : r ∉ wrF) :
    after opsF W (Proc.devRef .tc r) = W (Proc.devRef .tc r) :=
  after_of_writes_sub (W := wrF) opsF W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsF (W : Valuation τ sig (Elt F)) : ArgsKept (after opsF W) W :=
  ⟨keepF W main_arg0 (by decide), keepF W main_arg1 (by decide), keepF W main_arg2 (by decide), keepF W main_arg3 (by decide), keepF W main_arg4 (by decide), keepF W main_arg5 (by decide), keepF W main_arg6 (by decide), keepF W main_arg7 (by decide), keepF W main_arg8 (by decide), keepF W main_arg9 (by decide), keepF W main_arg10 (by decide)⟩

abbrev wrG : List (Ref sig .tc) :=
  [main_cst_9, main_v94, main_c_10, main_v95, main_v96, main_c_11, main_v97, main_v98, main_v99, main_v100, main_v101, main_v102]

set_option maxRecDepth 8192 in
theorem keepG (W : Valuation τ sig (Elt F)) (r : Ref sig .tc) (hr : r ∉ wrG) :
    after opsG W (Proc.devRef .tc r) = W (Proc.devRef .tc r) :=
  after_of_writes_sub (W := wrG) opsG W
    ⟨single_sub (by decide), single_sub (by decide), single_sub (by decide), single_sub (by decide), single_sub (by decide), single_sub (by decide), single_sub (by decide), single_sub (by decide), single_sub (by decide), single_sub (by decide), single_sub (by decide), single_sub (by decide)⟩ hr

theorem argsG (W : Valuation τ sig (Elt F)) : ArgsKept (after opsG W) W :=
  ⟨keepG W main_arg0 (by decide), keepG W main_arg1 (by decide), keepG W main_arg2 (by decide), keepG W main_arg3 (by decide), keepG W main_arg4 (by decide), keepG W main_arg5 (by decide), keepG W main_arg6 (by decide), keepG W main_arg7 (by decide), keepG W main_arg8 (by decide), keepG W main_arg9 (by decide), keepG W main_arg10 (by decide)⟩

abbrev wrH : List (Ref sig .tc) :=
  [main_v103, main_v104, main_v105, main_v106, main_v107, main_v108, main_v109, main_v110, main_call3_v0, main_call3_v1, main_call3_cst, main_call3_v2, main_call3_v3, main_call3_cst_0, main_call3_v4, main_call3_v5, main_v111, main_v112, main_v113, main_v114, main_v115, main_v116, main_v117, main_v118, main_v119]

set_option maxRecDepth 8192 in
theorem keepH (W : Valuation τ sig (Elt F)) (r : Ref sig .tc) (hr : r ∉ wrH) :
    after opsH W (Proc.devRef .tc r) = W (Proc.devRef .tc r) :=
  after_of_writes_sub (W := wrH) opsH W
    ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

theorem argsH (W : Valuation τ sig (Elt F)) : ArgsKept (after opsH W) W :=
  ⟨keepH W main_arg0 (by decide), keepH W main_arg1 (by decide), keepH W main_arg2 (by decide), keepH W main_arg3 (by decide), keepH W main_arg4 (by decide), keepH W main_arg5 (by decide), keepH W main_arg6 (by decide), keepH W main_arg7 (by decide), keepH W main_arg8 (by decide), keepH W main_arg9 (by decide), keepH W main_arg10 (by decide)⟩

/-! ### What each segment leaves in the buffers that are read after it, given what it finds in those it reads -/

set_option maxRecDepth 8192 in
theorem segA_v18 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F))
    (h0 : W (Proc.devRef .tc main_arg0) = a0) (h1 : W (Proc.devRef .tc main_arg1) = a1) (h2 : W (Proc.devRef .tc main_arg2) = a2) :
    after opsA W (Proc.devRef .tc main_v18) = val_main_v18 (F := F) a0 a1 a2 := by
  subst h0 h1 h2
  after_results_simp
  rfl

set_option maxRecDepth 8192 in
theorem segA_v1 (W : Valuation τ sig (Elt F)) (a2 : (⟨S2x800000, .i32⟩ : BufTy).Contents (Elt F))
    (h2 : W (Proc.devRef .tc main_arg2) = a2) :
    after opsA W (Proc.devRef .tc main_v1) = val_main_v1 (F := F) a2 := by
  subst h2
  after_results_simp
  rfl

set_option maxRecDepth 8192 in
theorem segA_v3 (W : Valuation τ sig (Elt F)) (a2 : (⟨S2x800000, .i32⟩ : BufTy).Contents (Elt F))
    (h2 : W (Proc.devRef .tc main_arg2) = a2) :
    after opsA W (Proc.devRef .tc main_v3) = val_main_v3 (F := F) a2 := by
  subst h2
  after_results_simp
  rfl

set_option maxRecDepth 8192 in
theorem segB_v35 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F))
    (h18 : W (Proc.devRef .tc main_v18) = val_main_v18 (F := F) a0 a1 a2) (h3 : W (Proc.devRef .tc main_arg3) = a3) (h4 : W (Proc.devRef .tc main_arg4) = a4) (h5 : W (Proc.devRef .tc main_arg5) = a5) (h6 : W (Proc.devRef .tc main_arg6) = a6) :
    after opsB W (Proc.devRef .tc main_v35) = val_main_v35 (F := F) a0 a1 a2 a3 a4 a5 a6 := by
  subst h3 h4 h5 h6
  after_results_simp
  rw [h18]
  rfl

set_option maxRecDepth 8192 in
theorem segC_v44 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F))
    (h3v : W (Proc.devRef .tc main_v3) = val_main_v3 (F := F) a2) (h35 : W (Proc.devRef .tc main_v35) = val_main_v35 (F := F) a0 a1 a2 a3 a4 a5 a6) (h0 : W (Proc.devRef .tc main_arg0) = a0) :
    after opsC W (Proc.devRef .tc main_v44) = val_main_v44 (F := F) a0 a1 a2 a3 a4 a5 a6 := by
  subst h0
  unfold val_main_v44 val_main_v43 val_main_v42 val_main_v41 val_main_v40 val_main_v38
  rw [← h35, ← h3v]
  after_results_simp
  rfl

set_option maxRecDepth 8192 in
theorem segD_v61 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F)) (a7 : (⟨S2x128x64, .f32⟩ : BufTy).Contents (Elt F)) (a8 : (⟨S2x64, .f32⟩ : BufTy).Contents (Elt F)) (a9 : (⟨S2x64x64, .f32⟩ : BufTy).Contents (Elt F)) (a10 : (⟨S2x64, .f32⟩ : BufTy).Contents (Elt F))
    (h44 : W (Proc.devRef .tc main_v44) = val_main_v44 (F := F) a0 a1 a2 a3 a4 a5 a6) (h7 : W (Proc.devRef .tc main_arg7) = a7) (h8 : W (Proc.devRef .tc main_arg8) = a8) (h9 : W (Proc.devRef .tc main_arg9) = a9) (h10 : W (Proc.devRef .tc main_arg10) = a10) :
    after opsD W (Proc.devRef .tc main_v61) = val_main_v61 (F := F) a0 a1 a2 a3 a4 a5 a6 a7 a8 a9 a10 := by
  subst h7 h8 h9 h10
  after_results_simp
  rw [h44]
  rfl

set_option maxRecDepth 8192 in
theorem segE_v76 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F)) (a7 : (⟨S2x128x64, .f32⟩ : BufTy).Contents (Elt F)) (a8 : (⟨S2x64, .f32⟩ : BufTy).Contents (Elt F)) (a9 : (⟨S2x64x64, .f32⟩ : BufTy).Contents (Elt F)) (a10 : (⟨S2x64, .f32⟩ : BufTy).Contents (Elt F))
    (h1v : W (Proc.devRef .tc main_v1) = val_main_v1 (F := F) a2) (h3v : W (Proc.devRef .tc main_v3) = val_main_v3 (F := F) a2) (h61 : W (Proc.devRef .tc main_v61) = val_main_v61 (F := F) a0 a1 a2 a3 a4 a5 a6 a7 a8 a9 a10) (h35 : W (Proc.devRef .tc main_v35) = val_main_v35 (F := F) a0 a1 a2 a3 a4 a5 a6) :
    after opsE W (Proc.devRef .tc main_v76) = val_main_v76 (F := F) a0 a1 a2 a3 a4 a5 a6 a7 a8 a9 a10 := by
  unfold val_main_v76 val_main_v68 val_main_v67 val_main_v66 val_main_v65 val_main_v63 val_main_v75 val_main_v74 val_main_v73 val_main_v72 val_main_v70
  rw [← h35, ← h61, ← h1v, ← h3v]
  after_results_simp
  rfl

set_option maxRecDepth 8192 in
theorem segF_v93 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F)) (a7 : (⟨S2x128x64, .f32⟩ : BufTy).Contents (Elt F)) (a8 : (⟨S2x64, .f32⟩ : BufTy).Contents (Elt F)) (a9 : (⟨S2x64x64, .f32⟩ : BufTy).Contents (Elt F)) (a10 : (⟨S2x64, .f32⟩ : BufTy).Contents (Elt F))
    (h76 : W (Proc.devRef .tc main_v76) = val_main_v76 (F := F) a0 a1 a2 a3 a4 a5 a6 a7 a8 a9 a10) (h3 : W (Proc.devRef .tc main_arg3) = a3) (h4 : W (Proc.devRef .tc main_arg4) = a4) (h5 : W (Proc.devRef .tc main_arg5) = a5) (h6 : W (Proc.devRef .tc main_arg6) = a6) :
    after opsF W (Proc.devRef .tc main_v93) = val_main_v93 (F := F) a0 a1 a2 a3 a4 a5 a6 a7 a8 a9 a10 := by
  subst h3 h4 h5 h6
  after_results_simp
  rw [h76]
  rfl

set_option maxRecDepth 8192 in
theorem segG_v102 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F)) (a7 : (⟨S2x128x64, .f32⟩ : BufTy).Contents (Elt F)) (a8 : (⟨S2x64, .f32⟩ : BufTy).Contents (Elt F)) (a9 : (⟨S2x64x64, .f32⟩ : BufTy).Contents (Elt F)) (a10 : (⟨S2x64, .f32⟩ : BufTy).Contents (Elt F))
    (h3v : W (Proc.devRef .tc main_v3) = val_main_v3 (F := F) a2) (h93 : W (Proc.devRef .tc main_v93) = val_main_v93 (F := F) a0 a1 a2 a3 a4 a5 a6 a7 a8 a9 a10) (h61 : W (Proc.devRef .tc main_v61) = val_main_v61 (F := F) a0 a1 a2 a3 a4 a5 a6 a7 a8 a9 a10) :
    after opsG W (Proc.devRef .tc main_v102) = val_main_v102 (F := F) a0 a1 a2 a3 a4 a5 a6 a7 a8 a9 a10 := by
  unfold val_main_v102 val_main_v101 val_main_v100 val_main_v99 val_main_v98 val_main_v96
  rw [← h61, ← h93, ← h3v]
  after_results_simp
  rfl

set_option maxRecDepth 8192 in
theorem segH_v119 (W : Valuation τ sig (Elt F)) (a0 : (⟨S1x50000x64, .f32⟩ : BufTy).Contents (Elt F)) (a1 : (⟨S1x800000x64, .f32⟩ : BufTy).Contents (Elt F)) (a2 : (⟨S2x800000, .i32⟩ : BufTy).Contents (Elt F)) (a3 : (⟨S2x192x64, .f32⟩ : BufTy).Contents (Elt F)) (a4 : (⟨S2x64, .f32⟩ : BufTy).Contents (Elt F)) (a5 : (⟨S2x64x64, .f32⟩ : BufTy).Contents (Elt F)) (a6 : (⟨S2x64, .f32⟩ : BufTy).Contents (Elt F)) (a7 : (⟨S2x128x64, .f32⟩ : BufTy).Contents (Elt F)) (a8 : (⟨S2x64, .f32⟩ : BufTy).Contents (Elt F)) (a9 : (⟨S2x64x64, .f32⟩ : BufTy).Contents (Elt F)) (a10 : (⟨S2x64, .f32⟩ : BufTy).Contents (Elt F))
    (h102 : W (Proc.devRef .tc main_v102) = val_main_v102 (F := F) a0 a1 a2 a3 a4 a5 a6 a7 a8 a9 a10) (h7 : W (Proc.devRef .tc main_arg7) = a7) (h8 : W (Proc.devRef .tc main_arg8) = a8) (h9 : W (Proc.devRef .tc main_arg9) = a9) (h10 : W (Proc.devRef .tc main_arg10) = a10) :
    after opsH W (Proc.devRef .tc main_v119) = val_main_v119 (F := F) a0 a1 a2 a3 a4 a5 a6 a7 a8 a9 a10 := by
  subst h7 h8 h9 h10
  after_results_simp
  rw [h102]
  rfl

/-! ### The chain -/

/-- The whole line, from any contents `W`: the two results are the last stages of the reference read at `W`'s arguments,
    and the arguments are as `W` had them. -/
theorem fold (W : Valuation τ sig (Elt F)) :
    after ops W (Proc.devRef .tc main_v119) = val_main_v119 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))
    ∧ after ops W (Proc.devRef .tc main_v93) = val_main_v93 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))
    ∧ ArgsKept (after (ops (F := F)) W) W := by
  have hsplit : after (ops (F := F)) W
      = after opsH (after opsG (after opsF (after opsE (after opsD (after opsC (after opsB (after opsA W))))))) := by
    rw [ops_split]; simp only [after_append]
  rw [hsplit]
  -- the gathers and the first concatenation
  have gA := argsA W
  have a18 := segA_v18 W _ _ _ rfl rfl rfl
  have a1 := segA_v1 W _ rfl
  have a3 := segA_v3 W _ rfl
  generalize after opsA W = WA at *
  -- the first layer's edge perceptron
  have gB := (argsB WA).trans gA
  have b35 := segB_v35 WA _ _ _ _ _ _ _ a18 gA.k3 gA.k4 gA.k5 gA.k6
  have b1 := (keepB WA main_v1 (by decide)).trans a1
  have b3 := (keepB WA main_v3 (by decide)).trans a3
  generalize after opsB WA = WB at *
  -- the first scatter and the second concatenation
  have gC := (argsC WB).trans gB
  have c44 := segC_v44 WB _ _ _ _ _ _ _ b3 b35 gB.k0
  have c1 := (keepC WB main_v1 (by decide)).trans b1
  have c3 := (keepC WB main_v3 (by decide)).trans b3
  have c35 := (keepC WB main_v35 (by decide)).trans b35
  generalize after opsC WB = WC at *
  -- the first layer's node perceptron
  have gD := (argsD WC).trans gC
  have d61 := segD_v61 WC _ _ _ _ _ _ _ _ _ _ _ c44 gC.k7 gC.k8 gC.k9 gC.k10
  have d1 := (keepD WC main_v1 (by decide)).trans c1
  have d3 := (keepD WC main_v3 (by decide)).trans c3
  have d35 := (keepD WC main_v35 (by decide)).trans c35
  generalize after opsD WC = WD at *
  -- the second layer's gathers and concatenation
  have gE := (argsE WD).trans gD
  have e76 := segE_v76 WD _ _ _ _ _ _ _ _ _ _ _ d1 d3 d61 d35
  have e3 := (keepE WD main_v3 (by decide)).trans d3
  have e61 := (keepE WD main_v61 (by decide)).trans d61
  generalize after opsE WD = WE at *
  -- the second layer's edge perceptron
  have gF := (argsF WE).trans gE
  have f93 := segF_v93 WE _ _ _ _ _ _ _ _ _ _ _ e76 gE.k3 gE.k4 gE.k5 gE.k6
  have f3 := (keepF WE main_v3 (by decide)).trans e3
  have f61 := (keepF WE main_v61 (by decide)).trans e61
  generalize after opsF WE = WF at *
  -- the second scatter and concatenation
  have gG := (argsG WF).trans gF
  have g102 := segG_v102 WF _ _ _ _ _ _ _ _ _ _ _ f3 f93 f61
  have g93 := (keepG WF main_v93 (by decide)).trans f93
  generalize after opsG WF = WG at *
  -- the second layer's node perceptron
  have gH := (argsH WG).trans gG
  have h119 := segH_v119 WG _ _ _ _ _ _ _ _ _ _ _ g102 gG.k7 gG.k8 gG.k9 gG.k10
  have h93 := (keepH WG main_v93 (by decide)).trans g93
  exact ⟨h119, h93, gH⟩

/-- On every device, from any memory with zero counters: every weakly fair execution of the reference terminates with
    its two results at the last stages of the reference read at the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have f := fold (F := Ideal) (launchContents m c)
    ⟨(h c main_v119).trans f.1, (h c main_v93).trans f.2.1,
      (h c main_arg0).trans f.2.2.k0, (h c main_arg1).trans f.2.2.k1, (h c main_arg2).trans f.2.2.k2, (h c main_arg3).trans f.2.2.k3, (h c main_arg4).trans f.2.2.k4, (h c main_arg5).trans f.2.2.k5, (h c main_arg6).trans f.2.2.k6, (h c main_arg7).trans f.2.2.k7, (h c main_arg8).trans f.2.2.k8, (h c main_arg9).trans f.2.2.k9, (h c main_arg10).trans f.2.2.k10⟩)
    (run_after m ρ)

end Cert.RefFold

end
-- ==== Proof.MlpRef.lean ====
/-
  The reference applies one two-layer perceptron four times: to the edge rows and to the node rows, in each of two
  layers. Each application is a product with a slab of the stacked first weights, a bias row, the activation
  `x · (1 / (1 + e^(−x)))`, a product with a slab of the stacked second weights and a second bias row. Read at row `e`
  and column `j`, its output is the specification's perceptron row of row `e` of its input, with slab and bias row 0 in
  the first layer and 1 in the second; on the extended reals `1 / (1 + e^(−x))` is the logistic function.
-/
import proofs.«174539_j57174604644524_1_alg».proof.Proof.RefReadP
import proofs.«174539_j57174604644524_1_alg».proof.Proof.Spec
import Idealize.ShloMosaic.Lib.IdealHost

noncomputable section

namespace Cert.MlpRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S1x50000x64, .f32⟩ : BufTy).Contents (Elt Ideal)) (x1 : (⟨S1x800000x64, .f32⟩ : BufTy).Contents (Elt Ideal))
  (x2 : (⟨S2x800000, .i32⟩ : BufTy).Contents (Elt Ideal)) (x3 : (⟨S2x192x64, .f32⟩ : BufTy).Contents (Elt Ideal))
  (x4 : (⟨S2x64, .f32⟩ : BufTy).Contents (Elt Ideal)) (x5 : (⟨S2x64x64, .f32⟩ : BufTy).Contents (Elt Ideal))
  (x6 : (⟨S2x64, .f32⟩ : BufTy).Contents (Elt Ideal)) (x7 : (⟨S2x128x64, .f32⟩ : BufTy).Contents (Elt Ideal))
  (x8 : (⟨S2x64, .f32⟩ : BufTy).Contents (Elt Ideal)) (x9 : (⟨S2x64x64, .f32⟩ : BufTy).Contents (Elt Ideal))
  (x10 : (⟨S2x64, .f32⟩ : BufTy).Contents (Elt Ideal))

/-! ## The first layer's edge perceptron -/

/-- The first weight matrix: slab `0` of the stacked weights, as a matrix. -/
theorem w1_edge0 (f : Fin 192) (h : Fin 64) : val_main_v20 (F := Ideal) x3 (ix2 f h) = x3 (ix3 0 f h) := by
  rw [val_main_v20_apply, val_main_v19_apply]
  refine congrArg x3 (funext fun a => Fin.ext ?_)
  have hf := f.isLt
  have hh := h.isLt
  match a with
  | ⟨0, _⟩ => rfl
  | ⟨1, _⟩ => show (f.val * 64 + h.val) / 64 % 192 = f.val; omega
  | ⟨2, _⟩ => show (f.val * 64 + h.val) % 64 = h.val; omega

/-- The first bias, broadcast over the rows: row `0` of the stacked biases. -/
theorem b1_edge0 (e : Fin 800000) (h : Fin 64) : val_main_v25 (F := Ideal) x4 (ix3 0 e h) = x4 (ix2 0 h) := by
  rw [val_main_v25_apply, val_main_v24_apply, val_main_v23_apply, val_main_v22_apply]
  refine congrArg x4 (funext fun a => Fin.ext ?_)
  have hh := h.isLt
  match a with
  | ⟨0, _⟩ => rfl
  | ⟨1, _⟩ => show h.val % 64 = h.val; omega

/-- The hidden pre-activation: the row's features against the first weights, plus the first bias. -/
theorem pre_edge0 (e : Fin 800000) (h : Fin 64) :
    val_main_v26 (F := Ideal) x0 x1 x2 x3 x4 (ix3 0 e h)
      = (∑ f : Fin 192, val_main_v18 (F := Ideal) x0 x1 x2 (ix3 0 e f) * x3 (ix3 0 f h)) + x4 (ix2 0 h) := by
  rw [val_main_v26_apply, Ideal.addf_def]
  refine congrArg₂ (· + ·) ?_ (b1_edge0 x4 e h)
  rw [val_main_v21_apply]
  refine Finset.sum_congr rfl fun f _ => ?_
  have el : lidx_main_v21 (ix3 0 e h) f = ix3 0 e f := funext fun a => Fin.ext (by
    match a with
    | ⟨0, _⟩ => rfl
    | ⟨1, _⟩ => rfl
    | ⟨2, _⟩ => rfl)
  have er : ridx_main_v21 (ix3 0 e h) f = ix2 f h := funext fun a => Fin.ext (by
    match a with
    | ⟨0, _⟩ => rfl
    | ⟨1, _⟩ => rfl)
  rw [el, er, w1_edge0]

/-- The activation, written in the program as `x · (1 / (1 + e^(−x)))`, is `x · logistic x`. -/
theorem act_edge0 (i : S1x800000x64.Idx) :
    val_main_v27 (F := Ideal) x0 x1 x2 x3 x4 i = Cert.Spec.silu (val_main_v26 (F := Ideal) x0 x1 x2 x3 x4 i) := by
  rw [val_main_v27_apply, val_main_call0_v5_apply, val_main_call0_v4_apply, val_main_call0_cst_0_apply,
    val_main_call0_v3_apply, val_main_call0_v2_apply, val_main_call0_cst_apply, val_main_call0_v1_apply,
    val_main_call0_v0_apply]
  generalize val_main_v26 (F := Ideal) x0 x1 x2 x3 x4 i = y
  show y * Ideal.div (Ideal.ofBits .f32 0x3F800000#32) (Ideal.ofBits .f32 0x3F800000#32 + Ideal.exp (-y))
    = y * Ideal.div 1 (1 + Ideal.exp (-y))
  rw [Ideal.ofBits_one_f32]

/-- The second weight matrix: slab `0` of the stacked weights, as a matrix. -/
theorem w2_edge0 (h : Fin 64) (j : Fin 64) : val_main_v29 (F := Ideal) x5 (ix2 h j) = x5 (ix3 0 h j) := by
  rw [val_main_v29_apply, val_main_v28_apply]
  refine congrArg x5 (funext fun a => Fin.ext ?_)
  have hh := h.isLt
  have hj := j.isLt
  match a with
  | ⟨0, _⟩ => rfl
  | ⟨1, _⟩ => show (h.val * 64 + j.val) / 64 % 64 = h.val; omega
  | ⟨2, _⟩ => show (h.val * 64 + j.val) % 64 = j.val; omega

/-- The second bias, broadcast over the rows: row `0` of the stacked biases. -/
theorem b2_edge0 (e : Fin 800000) (j : Fin 64) : val_main_v34 (F := Ideal) x6 (ix3 0 e j) = x6 (ix2 0 j) := by
  rw [val_main_v34_apply, val_main_v33_apply, val_main_v32_apply, val_main_v31_apply]
  refine congrArg x6 (funext fun a => Fin.ext ?_)
  have hj := j.isLt
  match a with
  | ⟨0, _⟩ => rfl
  | ⟨1, _⟩ => show j.val % 64 = j.val; omega

/-- Row `e` of the first layer's edge perceptron's output is the specification's perceptron row of row `e` of its input. -/
theorem ref_edge0 (e : Fin 800000) (j : Fin 64) :
    val_main_v35 (F := Ideal) x0 x1 x2 x3 x4 x5 x6 (ix3 0 e j)
      = Cert.Spec.mlpRow (fun f : Fin 192 => val_main_v18 (F := Ideal) x0 x1 x2 (ix3 0 e f)) (fun f h => x3 (ix3 0 f h))
          (fun h => x4 (ix2 0 h)) (fun h j => x5 (ix3 0 h j)) (fun j => x6 (ix2 0 j)) j := by
  unfold Cert.Spec.mlpRow
  rw [val_main_v35_apply, Ideal.addf_def]
  refine congrArg₂ (· + ·) ?_ (b2_edge0 x6 e j)
  rw [val_main_v30_apply]
  refine Finset.sum_congr rfl fun h _ => ?_
  have el : lidx_main_v30 (ix3 0 e j) h = ix3 0 e h := funext fun a => Fin.ext (by
    match a with
    | ⟨0, _⟩ => rfl
    | ⟨1, _⟩ => rfl
    | ⟨2, _⟩ => rfl)
  have er : ridx_main_v30 (ix3 0 e j) h = ix2 h j := funext fun a => Fin.ext (by
    match a with
    | ⟨0, _⟩ => rfl
    | ⟨1, _⟩ => rfl)
  rw [el, er, w2_edge0, act_edge0, pre_edge0]

/-! ## The first layer's node perceptron -/

/-- The first weight matrix: slab `0` of the stacked weights, as a matrix. -/
theorem w1_node0 (f : Fin 128) (h : Fin 64) : val_main_v46 (F := Ideal) x7 (ix2 f h) = x7 (ix3 0 f h) := by
  rw [val_main_v46_apply, val_main_v45_apply]
  refine congrArg x7 (funext fun a => Fin.ext ?_)
  have hf := f.isLt
  have hh := h.isLt
  match a with
  | ⟨0, _⟩ => rfl
  | ⟨1, _⟩ => show (f.val * 64 + h.val) / 64 % 128 = f.val; omega
  | ⟨2, _⟩ => show (f.val * 64 + h.val) % 64 = h.val; omega

/-- The first bias, broadcast over the rows: row `0` of the stacked biases. -/
theorem b1_node0 (e : Fin 50000) (h : Fin 64) : val_main_v51 (F := Ideal) x8 (ix3 0 e h) = x8 (ix2 0 h) := by
  rw [val_main_v51_apply, val_main_v50_apply, val_main_v49_apply, val_main_v48_apply]
  refine congrArg x8 (funext fun a => Fin.ext ?_)
  have hh := h.isLt
  match a with
  | ⟨0, _⟩ => rfl
  | ⟨1, _⟩ => show h.val % 64 = h.val; omega

/-- The hidden pre-activation: the row's features against the first weights, plus the first bias. -/
theorem pre_node0 (e : Fin 50000) (h : Fin 64) :
    val_main_v52 (F := Ideal) x0 x1 x2 x3 x4 x5 x6 x7 x8 (ix3 0 e h)
      = (∑ f : Fin 128, val_main_v44 (F := Ideal) x0 x1 x2 x3 x4 x5 x6 (ix3 0 e f) * x7 (ix3 0 f h)) + x8 (ix2 0 h) := by
  rw [val_main_v52_apply, Ideal.addf_def]
  refine congrArg₂ (· + ·) ?_ (b1_node0 x8 e h)
  rw [val_main_v47_apply]
  refine Finset.sum_congr rfl fun f _ => ?_
  have el : lidx_main_v47 (ix3 0 e h) f = ix3 0 e f := funext fun a => Fin.ext (by
    match a with
    | ⟨0, _⟩ => rfl
    | ⟨1, _⟩ => rfl
    | ⟨2, _⟩ => rfl)
  have er : ridx_main_v47 (ix3 0 e h) f = ix2 f h := funext fun a => Fin.ext (by
    match a with
    | ⟨0, _⟩ => rfl
    | ⟨1, _⟩ => rfl)
  rw [el, er, w1_node0]

/-- The activation, written in the program as `x · (1 / (1 + e^(−x)))`, is `x · logistic x`. -/
theorem act_node0 (i : S1x50000x64.Idx) :
    val_main_v53 (F := Ideal) x0 x1 x2 x3 x4 x5 x6 x7 x8 i = Cert.Spec.silu (val_main_v52 (F := Ideal) x0 x1 x2 x3 x4 x5 x6 x7 x8 i) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply]
  generalize val_main_v52 (F := Ideal) x0 x1 x2 x3 x4 x5 x6 x7 x8 i = y
  show y * Ideal.div (Ideal.ofBits .f32 0x3F800000#32) (Ideal.ofBits .f32 0x3F800000#32 + Ideal.exp (-y))
    = y * Ideal.div 1 (1 + Ideal.exp (-y))
  rw [Ideal.ofBits_one_f32]

/-- The second weight matrix: slab `0` of the stacked weights, as a matrix. -/
theorem w2_node0 (h : Fin 64) (j : Fin 64) : val_main_v55 (F := Ideal) x9 (ix2 h j) = x9 (ix3 0 h j) := by
  rw [val_main_v55_apply, val_main_v54_apply]
  refine congrArg x9 (funext fun a => Fin.ext ?_)
  have hh := h.isLt
  have hj := j.isLt
  match a with
  | ⟨0, _⟩ => rfl
  | ⟨1, _⟩ => show (h.val * 64 + j.val) / 64 % 64 = h.val; omega
  | ⟨2, _⟩ => show (h.val * 64 + j.val) % 64 = j.val; omega

/-- The second bias, broadcast over the rows: row `0` of the stacked biases. -/
theorem b2_node0 (e : Fin 50000) (j : Fin 64) : val_main_v60 (F := Ideal) x10 (ix3 0 e j) = x10 (ix2 0 j) := by
  rw [val_main_v60_apply, val_main_v59_apply, val_main_v58_apply, val_main_v57_apply]
  refine congrArg x10 (funext fun a => Fin.ext ?_)
  have hj := j.isLt
  match a with
  | ⟨0, _⟩ => rfl
  | ⟨1, _⟩ => show j.val % 64 = j.val; omega

/-- Row `e` of the first layer's node perceptron's output is the specification's perceptron row of row `e` of its input. -/
theorem ref_node0 (e : Fin 50000) (j : Fin 64) :
    val_main_v61 (F := Ideal) x0 x1 x2 x3 x4 x5 x6 x7 x8 x9 x10 (ix3 0 e j)
      = Cert.Spec.mlpRow (fun f : Fin 128 => val_main_v44 (F := Ideal) x0 x1 x2 x3 x4 x5 x6 (ix3 0 e f)) (fun f h => x7 (ix3 0 f h))
          (fun h => x8 (ix2 0 h)) (fun h j => x9 (ix3 0 h j)) (fun j => x10 (ix2 0 j)) j := by
  unfold Cert.Spec.mlpRow
  rw [val_main_v61_apply, Ideal.addf_def]
  refine congrArg₂ (· + ·) ?_ (b2_node0 x10 e j)
  rw [val_main_v56_apply]
  refine Finset.sum_congr rfl fun h _ => ?_
  have el : lidx_main_v56 (ix3 0 e j) h = ix3 0 e h := funext fun a => Fin.ext (by
    match a with
    | ⟨0, _⟩ => rfl
    | ⟨1, _⟩ => rfl
    | ⟨2, _⟩ => rfl)
  have er : ridx_main_v56 (ix3 0 e j) h = ix2 h j := funext fun a => Fin.ext (by
    match a with
    | ⟨0, _⟩ => rfl
    | ⟨1, _⟩ => rfl)
  rw [el, er, w2_node0, act_node0, pre_node0]

/-! ## The second layer's edge perceptron -/

/-- The first weight matrix: slab `1` of the stacked weights, as a matrix. -/
theorem w1_edge1 (f : Fin 192) (h : Fin 64) : val_main_v78 (F := Ideal) x3 (ix2 f h) = x3 (ix3 1 f h) := by
  rw [val_main_v78_apply, val_main_v77_apply]
  refine congrArg x3 (funext fun a => Fin.ext ?_)
  have hf := f.isLt
  have hh := h.isLt
  match a with
  | ⟨0, _⟩ => rfl
  | ⟨1, _⟩ => show (f.val * 64 + h.val) / 64 % 192 = f.val; omega
  | ⟨2, _⟩ => show (f.val * 64 + h.val) % 64 = h.val; omega

/-- The first bias, broadcast over the rows: row `1` of the stacked biases. -/
theorem b1_edge1 (e : Fin 800000) (h : Fin 64) : val_main_v83 (F := Ideal) x4 (ix3 0 e h) = x4 (ix2 1 h) := by
  rw [val_main_v83_apply, val_main_v82_apply, val_main_v81_apply, val_main_v80_apply]
  refine congrArg x4 (funext fun a => Fin.ext ?_)
  have hh := h.isLt
  match a with
  | ⟨0, _⟩ => rfl
  | ⟨1, _⟩ => show h.val % 64 = h.val; omega

/-- The hidden pre-activation: the row's features against the first weights, plus the first bias. -/
theorem pre_edge1 (e : Fin 800000) (h : Fin 64) :
    val_main_v84 (F := Ideal) x0 x1 x2 x3 x4 x5 x6 x7 x8 x9 x10 (ix3 0 e h)
      = (∑ f : Fin 192, val_main_v76 (F := Ideal) x0 x1 x2 x3 x4 x5 x6 x7 x8 x9 x10 (ix3 0 e f) * x3 (ix3 1 f h)) + x4 (ix2 1 h) := by
  rw [val_main_v84_apply, Ideal.addf_def]
  refine congrArg₂ (· + ·) ?_ (b1_edge1 x4 e h)
  rw [val_main_v79_apply]
  refine Finset.sum_congr rfl fun f _ => ?_
  have el : lidx_main_v79 (ix3 0 e h) f = ix3 0 e f := funext fun a => Fin.ext (by
    match a with
    | ⟨0, _⟩ => rfl
    | ⟨1, _⟩ => rfl
    | ⟨2, _⟩ => rfl)
  have er : ridx_main_v79 (ix3 0 e h) f = ix2 f h := funext fun a => Fin.ext (by
    match a with
    | ⟨0, _⟩ => rfl
    | ⟨1, _⟩ => rfl)
  rw [el, er, w1_edge1]

/-- The activation, written in the program as `x · (1 / (1 + e^(−x)))`, is `x · logistic x`. -/
theorem act_edge1 (i : S1x800000x64.Idx) :
    val_main_v85 (F := Ideal) x0 x1 x2 x3 x4 x5 x6 x7 x8 x9 x10 i = Cert.Spec.silu (val_main_v84 (F := Ideal) x0 x1 x2 x3 x4 x5 x6 x7 x8 x9 x10 i) := by
  rw [val_main_v85_apply, val_main_call2_v5_apply, val_main_call2_v4_apply, val_main_call2_cst_0_apply,
    val_main_call2_v3_apply, val_main_call2_v2_apply, val_main_call2_cst_apply, val_main_call2_v1_apply,
    val_main_call2_v0_apply]
  generalize val_main_v84 (F := Ideal) x0 x1 x2 x3 x4 x5 x6 x7 x8 x9 x10 i = y
  show y * Ideal.div (Ideal.ofBits .f32 0x3F800000#32) (Ideal.ofBits .f32 0x3F800000#32 + Ideal.exp (-y))
    = y * Ideal.div 1 (1 + Ideal.exp (-y))
  rw [Ideal.ofBits_one_f32]

/-- The second weight matrix: slab `1` of the stacked weights, as a matrix. -/
theorem w2_edge1 (h : Fin 64) (j : Fin 64) : val_main_v87 (F := Ideal) x5 (ix2 h j) = x5 (ix3 1 h j) := by
  rw [val_main_v87_apply, val_main_v86_apply]
  refine congrArg x5 (funext fun a => Fin.ext ?_)
  have hh := h.isLt
  have hj := j.isLt
  match a with
  | ⟨0, _⟩ => rfl
  | ⟨1, _⟩ => show (h.val * 64 + j.val) / 64 % 64 = h.val; omega
  | ⟨2, _⟩ => show (h.val * 64 + j.val) % 64 = j.val; omega

/-- The second bias, broadcast over the rows: row `1` of the stacked biases. -/
theorem b2_edge1 (e : Fin 800000) (j : Fin 64) : val_main_v92 (F := Ideal) x6 (ix3 0 e j) = x6 (ix2 1 j) := by
  rw [val_main_v92_apply, val_main_v91_apply, val_main_v90_apply, val_main_v89_apply]
  refine congrArg x6 (funext fun a => Fin.ext ?_)
  have hj := j.isLt
  match a with
  | ⟨0, _⟩ => rfl
  | ⟨1, _⟩ => show j.val % 64 = j.val; omega

/-- Row `e` of the second layer's edge perceptron's output is the specification's perceptron row of row `e` of its input. -/
theorem ref_edge1 (e : Fin 800000) (j : Fin 64) :
    val_main_v93 (F := Ideal) x0 x1 x2 x3 x4 x5 x6 x7 x8 x9 x10 (ix3 0 e j)
      = Cert.Spec.mlpRow (fun f : Fin 192 => val_main_v76 (F := Ideal) x0 x1 x2 x3 x4 x5 x6 x7 x8 x9 x10 (ix3 0 e f)) (fun f h => x3 (ix3 1 f h))
          (fun h => x4 (ix2 1 h)) (fun h j => x5 (ix3 1 h j)) (fun j => x6 (ix2 1 j)) j := by
  unfold Cert.Spec.mlpRow
  rw [val_main_v93_apply, Ideal.addf_def]
  refine congrArg₂ (· + ·) ?_ (b2_edge1 x6 e j)
  rw [val_main_v88_apply]
  refine Finset.sum_congr rfl fun h _ => ?_
  have el : lidx_main_v88 (ix3 0 e j) h = ix3 0 e h := funext fun a => Fin.ext (by
    match a with
    | ⟨0, _⟩ => rfl
    | ⟨1, _⟩ => rfl
    | ⟨2, _⟩ => rfl)
  have er : ridx_main_v88 (ix3 0 e j) h = ix2 h j := funext fun a => Fin.ext (by
    match a with
    | ⟨0, _⟩ => rfl
    | ⟨1, _⟩ => rfl)
  rw [el, er, w2_edge1, act_edge1, pre_edge1]

/-! ## The second layer's node perceptron -/

/-- The first weight matrix: slab `1` of the stacked weights, as a matrix. -/
theorem w1_node1 (f : Fin 128) (h : Fin 64) : val_main_v104 (F := Ideal) x7 (ix2 f h) = x7 (ix3 1 f h) := by
  rw [val_main_v104_apply, val_main_v103_apply]
  refine congrArg x7 (funext fun a => Fin.ext ?_)
  have hf := f.isLt
  have hh := h.isLt
  match a with
  | ⟨0, _⟩ => rfl
  | ⟨1, _⟩ => show (f.val * 64 + h.val) / 64 % 128 = f.val; omega
  | ⟨2, _⟩ => show (f.val * 64 + h.val) % 64 = h.val; omega

/-- The first bias, broadcast over the rows: row `1` of the stacked biases. -/
theorem b1_node1 (e : Fin 50000) (h : Fin 64) : val_main_v109 (F := Ideal) x8 (ix3 0 e h) = x8 (ix2 1 h) := by
  rw [val_main_v109_apply, val_main_v108_apply, val_main_v107_apply, val_main_v106_apply]
  refine congrArg x8 (funext fun a => Fin.ext ?_)
  have hh := h.isLt
  match a with
  | ⟨0, _⟩ => rfl
  | ⟨1, _⟩ => show h.val % 64 = h.val; omega

/-- The hidden pre-activation: the row's features against the first weights, plus the first bias. -/
theorem pre_node1 (e : Fin 50000) (h : Fin 64) :
    val_main_v110 (F := Ideal) x0 x1 x2 x3 x4 x5 x6 x7 x8 x9 x10 (ix3 0 e h)
      = (∑ f : Fin 128, val_main_v102 (F := Ideal) x0 x1 x2 x3 x4 x5 x6 x7 x8 x9 x10 (ix3 0 e f) * x7 (ix3 1 f h)) + x8 (ix2 1 h) := by
  rw [val_main_v110_apply, Ideal.addf_def]
  refine congrArg₂ (· + ·) ?_ (b1_node1 x8 e h)
  rw [val_main_v105_apply]
  refine Finset.sum_congr rfl fun f _ => ?_
  have el : lidx_main_v105 (ix3 0 e h) f = ix3 0 e f := funext fun a => Fin.ext (by
    match a with
    | ⟨0, _⟩ => rfl
    | ⟨1, _⟩ => rfl
    | ⟨2, _⟩ => rfl)
  have er : ridx_main_v105 (ix3 0 e h) f = ix2 f h := funext fun a => Fin.ext (by
    match a with
    | ⟨0, _⟩ => rfl
    | ⟨1, _⟩ => rfl)
  rw [el, er, w1_node1]

/-- The activation, written in the program as `x · (1 / (1 + e^(−x)))`, is `x · logistic x`. -/
theorem act_node1 (i : S1x50000x64.Idx) :
    val_main_v111 (F := Ideal) x0 x1 x2 x3 x4 x5 x6 x7 x8 x9 x10 i = Cert.Spec.silu (val_main_v110 (F := Ideal) x0 x1 x2 x3 x4 x5 x6 x7 x8 x9 x10 i) := by
  rw [val_main_v111_apply, val_main_call3_v5_apply, val_main_call3_v4_apply, val_main_call3_cst_0_apply,
    val_main_call3_v3_apply, val_main_call3_v2_apply, val_main_call3_cst_apply, val_main_call3_v1_apply,
    val_main_call3_v0_apply]
  generalize val_main_v110 (F := Ideal) x0 x1 x2 x3 x4 x5 x6 x7 x8 x9 x10 i = y
  show y * Ideal.div (Ideal.ofBits .f32 0x3F800000#32) (Ideal.ofBits .f32 0x3F800000#32 + Ideal.exp (-y))
    = y * Ideal.div 1 (1 + Ideal.exp (-y))
  rw [Ideal.ofBits_one_f32]

/-- The second weight matrix: slab `1` of the stacked weights, as a matrix. -/
theorem w2_node1 (h : Fin 64) (j : Fin 64) : val_main_v113 (F := Ideal) x9 (ix2 h j) = x9 (ix3 1 h j) := by
  rw [val_main_v113_apply, val_main_v112_apply]
  refine congrArg x9 (funext fun a => Fin.ext ?_)
  have hh := h.isLt
  have hj := j.isLt
  match a with
  | ⟨0, _⟩ => rfl
  | ⟨1, _⟩ => show (h.val * 64 + j.val) / 64 % 64 = h.val; omega
  | ⟨2, _⟩ => show (h.val * 64 + j.val) % 64 = j.val; omega

/-- The second bias, broadcast over the rows: row `1` of the stacked biases. -/
theorem b2_node1 (e : Fin 50000) (j : Fin 64) : val_main_v118 (F := Ideal) x10 (ix3 0 e j) = x10 (ix2 1 j) := by
  rw [val_main_v118_apply, val_main_v117_apply, val_main_v116_apply, val_main_v115_apply]
  refine congrArg x10 (funext fun a => Fin.ext ?_)
  have hj := j.isLt
  match a with
  | ⟨0, _⟩ => rfl
  | ⟨1, _⟩ => show j.val % 64 = j.val; omega

/-- Row `e` of the second layer's node perceptron's output is the specification's perceptron row of row `e` of its input. -/
theorem ref_node1 (e : Fin 50000) (j : Fin 64) :
    val_main_v119 (F := Ideal) x0 x1 x2 x3 x4 x5 x6 x7 x8 x9 x10 (ix3 0 e j)
      = Cert.Spec.mlpRow (fun f : Fin 128 => val_main_v102 (F := Ideal) x0 x1 x2 x3 x4 x5 x6 x7 x8 x9 x10 (ix3 0 e f)) (fun f h => x7 (ix3 1 f h))
          (fun h => x8 (ix2 1 h)) (fun h j => x9 (ix3 1 h j)) (fun j => x10 (ix2 1 j)) j := by
  unfold Cert.Spec.mlpRow
  rw [val_main_v119_apply, Ideal.addf_def]
  refine congrArg₂ (· + ·) ?_ (b2_node1 x10 e j)
  rw [val_main_v114_apply]
  refine Finset.sum_congr rfl fun h _ => ?_
  have el : lidx_main_v114 (ix3 0 e j) h = ix3 0 e h := funext fun a => Fin.ext (by
    match a with
    | ⟨0, _⟩ => rfl
    | ⟨1, _⟩ => rfl
    | ⟨2, _⟩ => rfl)
  have er : ridx_main_v114 (ix3 0 e j) h = ix2 h j := funext fun a => Fin.ext (by
    match a with
    | ⟨0, _⟩ => rfl
    | ⟨1, _⟩ => rfl)
  rw [el, er, w2_node1, act_node1, pre_node1]

end Cert.MlpRef

end
-- ==== Proof.LibScatterGather.lean ====
/-
  Scatter with the overwrite body, and the gathers that jnp's `x[idx]` lowers to, read at an index.

  `stablehlo.scatter` whose body returns the update (`x.at[idx].set(v)`) is a left fold over the update indices in
  row-major order: at each operand index the result is the LAST update that lands there, or the operand's element when
  none does.  For scatter indices that are a column `[R, 1]` of row numbers (one scatter dimension, inserted), an
  update `r` — a scalar, or a whole row of `B` elements — lands on operand row `idx[r, 0]`, read as a signed integer,
  when that is a row of the operand, and is dropped otherwise (`keyOf`).  The matching gathers (a scalar or a whole
  row per start index) read the operand at the start index clamped into the operand.
-/
import Idealize.ShloMosaic.Lib.Pipeline.Value
import Idealize.ShloMosaic.Lib.ValueIdx

namespace Cert.LibScatterGather

open Idealize.ShloMosaic Idealize.ShloMosaic.ValueIdx

/-! ## The fold -/

section Fold
variable {s si u : Shape} {w : Nat} {α : Type}

/-- One step of the fold: update `n` (a row-major position of the updates) overwrites the element it lands on. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_of_ne (d : ScatterDims s si u) (idx : IVec si w) (upd : u.Idx → α) (r : s.Idx → α) (n : Fin u.numel) (i : s.Idx)
    (h : d.resultIdx? (u.rowMajor.symm n) idx ≠ some i) : step d idx upd r n i = r i := by
  unfold step
  cases hk : d.resultIdx? (u.rowMajor.symm n) idx with
  | none => rfl
  | some i0 =>
    have : i ≠ i0 := fun e => h (by rw [hk, e])
    simp only [if_neg this]

theorem step_of_eq (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  simp only [if_true]

/-- Updates none of which lands on `i` leave the element at `i`. -/
theorem foldl_of_forall_ne (d : ScatterDims s si u) (idx : IVec si w) (upd : u.Idx → α) (i : s.Idx) :
    ∀ (l : List (Fin u.numel)) (x : s.Idx → α), (∀ n ∈ l, d.resultIdx? (u.rowMajor.symm n) idx ≠ some i) →
      l.foldl (step d idx upd) x i = x i
  | [], _, _ => rfl
  | a :: l, x, h => by
    rw [List.foldl_cons, foldl_of_forall_ne d idx upd i l _ fun n hn => h n (List.mem_cons_of_mem _ hn),
      step_of_ne d idx upd x a i (h a List.mem_cons_self)]

/-- In an increasing list of updates, the last one that lands on `i` decides the element at `i`. -/
theorem foldl_of_last (d : ScatterDims s si u) (idx : IVec si w) (upd : u.Idx → α) (i : s.Idx) (n0 : Fin u.numel)
    (h0 : d.resultIdx? (u.rowMajor.symm n0) idx = some i) :
    ∀ (l : List (Fin u.numel)) (x : s.Idx → α), l.Pairwise (· < ·) → n0 ∈ l →
      (∀ n ∈ l, n0 < n → d.resultIdx? (u.rowMajor.symm n) idx ≠ some i) →
      l.foldl (step d idx upd) x i = upd (u.rowMajor.symm n0)
  | [], _, _, hm, _ => absurd hm List.not_mem_nil
  | a :: l, x, hp, hm, hl => by
    rw [List.foldl_cons]
    rcases List.mem_cons.mp hm with rfl | hm'
    · rw [foldl_of_forall_ne d idx upd i l _ fun n hn =>
        hl n (List.mem_cons_of_mem _ hn) ((List.pairwise_cons.mp hp).1 n hn), step_of_eq d idx upd x n0 i h0]
    · exact foldl_of_last d idx upd i n0 h0 l _ (List.pairwise_cons.mp hp).2 hm'
        fun n hn => hl n (List.mem_cons_of_mem _ hn)

/-- No update lands on `i`: the operand's element. -/
theorem scatter_set_of_forall_ne (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_of_forall_ne d idx upd i _ x fun n _ => h _

/-- The update that lands on `i` last in row-major order. -/
theorem scatter_set_of_last (d : ScatterDims s si u) (x : s.Idx → α) (idx : IVec si w) (upd : u.Idx → α) (i : s.Idx) (j0 : u.Idx)
    (h0 : d.resultIdx? j0 idx = some i) (hl : ∀ j : u.Idx, u.rowMajor j0 < u.rowMajor j → d.resultIdx? j idx ≠ some i) :
    Host.scatter d (fun _ b => b) x idx upd i = upd j0 := by
  rw [scatter_eq_foldl]
  have := foldl_of_last d idx upd i (u.rowMajor j0) (by rw [Equiv.symm_apply_apply]; exact h0) (List.finRange u.numel) x
    (List.sortedLT_finRange _).pairwise (List.mem_finRange _)
    (fun n _ hn => hl (u.rowMajor.symm n) (by rw [Equiv.apply_symm_apply]; exact hn))
  rw [this, Equiv.symm_apply_apply]

end Fold

/-! ## Scatter indices that are a column of row numbers -/

/-- The operand row an index word names, when it names one: the word read as a signed integer, inside `[0, M)`. -/
def keyOf (M : Nat) {w : Nat} (v : BitVec w) : Option (Fin M) :=
  if h : 0 ≤ v.toInt ∧ v.toInt < M then some ⟨v.toInt.toNat, by omega⟩ else none

theorem keyOf_eq_some {M w : Nat} {v : BitVec w} {s : Fin M} : keyOf M v = some s ↔ v.toInt = (s.val : Int) := by
  unfold keyOf
  constructor
  · intro h
    split at h
    · rename_i hc
      have := Option.some.inj h
      have hv : v.toInt.toNat = s.val := congrArg Fin.val this
      omega
    · exact absurd h (by simp)
  · intro h
    have hc : 0 ≤ v.toInt ∧ v.toInt < M := by have := s.isLt; omega
    rw [dif_pos hc]
    exact congrArg some (Fin.ext (by show v.toInt.toNat = s.val; omega))

section Col
variable {M R w : Nat} {α : Type}

/-- `x.at[idx].set(v)` of a flat operand `[M]` at a column `[R, 1]` of indices with scalar updates `[R]`. -/
abbrev putColDims (M R : Nat) (wf : ScatterDims.WF ⟨1, ![M]⟩ ⟨2, ![R, 1]⟩ ⟨1, ![R]⟩ [] [0] [0] 1) :
    ScatterDims ⟨1, ![M]⟩ ⟨2, ![R, 1]⟩ ⟨1, ![R]⟩ where
  updateWindowDims := []
  insertedWindowDims := [0]
  scatterDimsToOperandDims := [0]
  indexVectorDim := 1
  wf := wf

theorem putCol_start (wf) (idx : IVec ⟨2, ![R, 1]⟩ w) (r : Fin R) :
    (putColDims M R wf).start (ix1 r) idx 0 = (idx (ix2 r 0)).toInt := by
  unfold ScatterDims.start
  rw [dif_pos (show (0 : Fin 1) ∈ (putColDims M R wf).scatterDimsToOperandDims from List.mem_singleton.mpr rfl)]
  have hsi : (putColDims M R wf).siIdx (ix1 r) ⟨List.idxOf (0 : Fin 1) (putColDims M R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

theorem putCol_window (wf) (r : Fin R) : (putColDims M R wf).window (ix1 r) 0 = 0 := by
  unfold ScatterDims.window
  rw [dif_neg (show (0 : Fin 1) ∉ (putColDims M R wf).sKept by simp [ScatterDims.sKept, Shape.kept])]

theorem putCol_resultIdx? (wf) (idx : IVec ⟨2, ![R, 1]⟩ w) (r : Fin R) :
    (putColDims M R wf).resultIdx? (ix1 r) idx = (keyOf M (idx (ix2 r 0))).map ix1 := by
  have hs := putCol_start (M := M) wf idx r
  have hw := putCol_window (M := M) wf r
  unfold ScatterDims.resultIdx? keyOf
  by_cases h : 0 ≤ (idx (ix2 r 0)).toInt ∧ (idx (ix2 r 0)).toInt < M
  · rw [dif_pos h, dif_pos (by
      intro a; obtain rfl : a = 0 := Subsingleton.elim _ _
      rw [hs, hw]; simpa using h)]
    simp only [Option.map_some]
    refine congrArg some (funext fun a => ?_)
    obtain rfl : a = 0 := Subsingleton.elim _ _
    refine Fin.ext ?_
    show ((putColDims M R wf).start (ix1 r) idx 0 + ((putColDims M R wf).window (ix1 r) 0 : Int)).toNat = _
    rw [hs, hw]; simp
  · rw [dif_neg h, dif_neg (fun hh => h (by have := hh 0; rw [hs, hw] at this; simpa using this))]
    rfl

end Col

section Row
variable {M B R w : Nat} {α : Type}

/-- `x.at[idx].set(v)` of an operand `[M, B]` at a column `[R, 1]` of row numbers with row updates `[R, B]`. -/
abbrev putRowDims (M B R : Nat) (wf : ScatterDims.WF ⟨2, ![M, B]⟩ ⟨2, ![R, 1]⟩ ⟨2, ![R, B]⟩ [1] [0] [0] 1) :
    ScatterDims ⟨2, ![M, B]⟩ ⟨2, ![R, 1]⟩ ⟨2, ![R, B]⟩ where
  updateWindowDims := [1]
  insertedWindowDims := [0]
  scatterDimsToOperandDims := [0]
  indexVectorDim := 1
  wf := wf

theorem putRow_start0 (wf) (idx : IVec ⟨2, ![R, 1]⟩ w) (r : Fin R) (b : Fin B) :
    (putRowDims M B R wf).start (ix2 r b) idx 0 = (idx (ix2 r 0)).toInt := by
  unfold ScatterDims.start
  rw [dif_pos (show (0 : Fin 2) ∈ (putRowDims M B R wf).scatterDimsToOperandDims from List.mem_singleton.mpr rfl)]
  have hsi : (putRowDims M B R wf).siIdx (ix2 r b) ⟨List.idxOf (0 : Fin 2) (putRowDims M B R wf).scatterDimsToOperandDims,
      List.idxOf_lt_length_iff.2 (List.mem_singleton.mpr rfl)⟩ = ix2 r 0 := by
    funext c; refine Fin.ext ?_
    match c with
    | ⟨0, _⟩ => rfl
    | ⟨1, _⟩ => rfl
  rw [hsi]

theorem putRow_start1 (wf) (idx : IVec ⟨2, ![R, 1]⟩ w) (r : Fin R) (b : Fin B) :
    (putRowDims M B R wf).start (ix2 r b) idx 1 = 0 := by
  unfold ScatterDims.start
  rw [dif_neg (show (1 : Fin 2) ∉ (putRowDims M B R wf).scatterDimsToOperandDims from fun h => absurd (congrArg Fin.val (List.mem_singleton.mp h)) Nat.one_ne_zero)]

theorem putRow_window0 (wf) (r : Fin R) (b : Fin B) : (putRowDims M B R wf).window (ix2 r b) 0 = 0 := by
  unfold ScatterDims.window
  rw [dif_neg (show (0 : Fin 2) ∉ (putRowDims M B R wf).sKept by simp [ScatterDims.sKept, Shape.kept])]

theorem putRow_window1 (wf) (r : Fin R) (b : Fin B) : (putRowDims M B R wf).window (ix2 r b) 1 = b.val := by
  unfold ScatterDims.window
  rw [dif_pos (show (1 : Fin 2) ∈ (putRowDims M B R wf).sKept by simp [ScatterDims.sKept, Shape.kept])]
  rfl

theorem putRow_resultIdx? (wf) (idx : IVec ⟨2, ![R, 1]⟩ w) (r : Fin R) (b : Fin B) :
    (putRowDims M B R wf).resultIdx? (ix2 r b) idx = (keyOf M (idx (ix2 r 0))).map fun s => ix2 s b := by
  have hs0 := putRow_start0 (M := M) wf idx r b
  have hs1 := putRow_start1 (M := M) wf idx r b
  have hw0 := putRow_window0 (M := M) wf r b
  have hw1 := putRow_window1 (M := M) wf r b
  have hb := b.isLt
  unfold ScatterDims.resultIdx? keyOf
  by_cases h : 0 ≤ (idx (ix2 r 0)).toInt ∧ (idx (ix2 r 0)).toInt < M
  · rw [dif_pos h, dif_pos (by
      intro a
      match a with
      | ⟨0, _⟩ =>
        show (0 : Int) ≤ (putRowDims M B R wf).start (ix2 r b) idx 0 + ((putRowDims M B R wf).window (ix2 r b) 0 : Int)
          ∧ (putRowDims M B R wf).start (ix2 r b) idx 0 + ((putRowDims M B R wf).window (ix2 r b) 0 : Int) < (M : Int)
        rw [hs0, hw0]; simpa using h
      | ⟨1, _⟩ =>
        show (0 : Int) ≤ (putRowDims M B R wf).start (ix2 r b) idx 1 + ((putRowDims M B R wf).window (ix2 r b) 1 : Int)
          ∧ (putRowDims M B R wf).start (ix2 r b) idx 1 + ((putRowDims M B R wf).window (ix2 r b) 1 : Int) < (B : Int)
        rw [hs1, hw1]; omega)]
    simp only [Option.map_some]
    refine congrArg some (funext fun a => Fin.ext ?_)
    match a with
    | ⟨0, _⟩ =>
      show ((putRowDims M B R wf).start (ix2 r b) idx 0 + ((putRowDims M B R wf).window (ix2 r b) 0 : Int)).toNat = _
      rw [hs0, hw0]; simp
    | ⟨1, _⟩ =>
      show ((putRowDims M B R wf).start (ix2 r b) idx 1 + ((putRowDims M B R wf).window (ix2 r b) 1 : Int)).toNat = b.val
      rw [hs1, hw1]; simp
  · rw [dif_neg h, dif_neg (fun hh => h (by have := hh 0; rw [hs0, hw0] at this; simpa using this))]
    rfl

end Row

/-! ## The gathers of `x[idx]` at a column of start indices -/

section Take
variable {α : Type}

/-- `x[idx]` of a flat operand `[N]` at a column `[R, 1]` of start indices: result `[R]`. -/
abbrev takeColDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the start index `idx[r, 0]`, read signed and clamped into `[0, N − 1]`. -/
theorem gather_takeCol_apply {N R w : Nat} (hN : 0 < N) (wf) (x : (⟨1, ![N]⟩ : Shape).Idx → α) (idx : IVec ⟨2, ![R, 1]⟩ w) (r : Fin R) :
    Host.gather (takeColDims N R wf) x idx (ix1 r) = x (ix1 ⟨min (idx (ix2 r 0)).toInt.toNat (N - 1), by omega⟩) := by
  unfold Host.gather
  congr 1
  funext a
  obtain rfl : a = 0 := Subsingleton.elim _ _
  refine Fin.ext ?_
  show (takeColDims N R wf).start (ix1 r) idx 0 + (takeColDims N R wf).batchCoord (ix1 r) 0 + (takeColDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims N R wf).startIndexMap from List.mem_singleton.mpr rfl)]
  have hsi : (takeColDims N R wf).siIdx (ix1 r) ⟨List.idxOf (0 : Fin 1) (takeColDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- `x[idx]` of an operand `[A, B]` at a column `[R, 1]` of row numbers: whole rows, result `[R, B]`. -/
abbrev takeRowDims (A B R : Nat) (wf : GatherDims.WF ⟨2, ![A, B]⟩ ⟨2, ![R, 1]⟩ ⟨2, ![R, B]⟩ [1] [0] [] [0] [] 1 ![1, B]) :
    GatherDims ⟨2, ![A, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- The gather read at `(r, b)`: the operand at row `idx[r, 0]` (read signed, clamped into `[0, A − 1]`), column `b`. -/
theorem gather_takeRow_apply {A B R w : Nat} (hA : 0 < A) (wf) (x : (⟨2, ![A, B]⟩ : Shape).Idx → α) (idx : IVec ⟨2, ![R, 1]⟩ w)
    (r : Fin R) (b : Fin B) :
    Host.gather (takeRowDims A B R wf) x idx (ix2 r b) = x (ix2 ⟨min (idx (ix2 r 0)).toInt.toNat (A - 1), by omega⟩ b) := by
  unfold Host.gather
  congr 1
  funext a
  refine Fin.ext ?_
  match a with
  | ⟨0, _⟩ =>
    show (takeRowDims A B R wf).start (ix2 r b) idx 0 + (takeRowDims A B R wf).batchCoord (ix2 r b) 0 + (takeRowDims A B R wf).offCoord (ix2 r b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims A B R wf).startIndexMap from List.mem_singleton.mpr rfl)]
    have hsi : (takeRowDims A B R wf).siIdx (ix2 r b) ⟨List.idxOf (0 : Fin 2) (takeRowDims A B R wf).startIndexMap,
        List.idxOf_lt_length_iff.2 (List.mem_singleton.mpr rfl)⟩ = ix2 r 0 := by
      funext c; refine Fin.ext ?_
      match c with
      | ⟨0, _⟩ => rfl
      | ⟨1, _⟩ => rfl
    rw [hsi]
    rfl
  | ⟨1, _⟩ =>
    show (takeRowDims A B R wf).start (ix2 r b) idx 1 + (takeRowDims A B R wf).batchCoord (ix2 r b) 1 + (takeRowDims A B R wf).offCoord (ix2 r b) 1 = b.val
    rw [GatherDims.batchCoord_eq_zero _ _ _ List.not_mem_nil]
    unfold GatherDims.start
    rw [dif_neg (show (1 : Fin 2) ∉ (takeRowDims A B R wf).startIndexMap from fun h => absurd (congrArg Fin.val (List.mem_singleton.mp h)) Nat.one_ne_zero)]
    unfold GatherDims.offCoord
    rw [dif_pos (show (1 : Fin 2) ∈ (takeRowDims A B R wf).sKept by simp [GatherDims.sKept, Shape.kept])]
    simp only [Nat.zero_add]
    rfl

end Take

end Cert.LibScatterGather
-- ==== Proof.LibBatchRows.lean ====
/-
  Row gathers, row scatter-adds and concatenations along the last axis for arrays with a leading axis of extent one.

  An array `[1, A, B]` read at `(0, a, b)` is the array `[A, B]` read at `(a, b)`.  For a column `[R, 1]` of row numbers,
  the gather of whole rows `x[idx]`, the scatter of whole rows, and the scatter-add `zeros.at[idx].add(u)` on the
  three-axis arrays agree, index by index, with the same operations on the two-axis arrays whenever the operands do;
  so do concatenations of two or three pieces of width 64 along the last axis.
-/
import Idealize.ShloMosaic.Lib.Pipeline.Value
import Idealize.ShloMosaic.Lib.ValueIdx
import proofs.«174539_j57174604644524_1_alg».proof.Proof.LibScatterGather

namespace Cert.LibBatchRows

open Idealize.ShloMosaic Idealize.ShloMosaic.ValueIdx Cert.LibScatterGather

/-! ## The gather of whole rows under a leading unit axis -/

section Take
variable {α : Type}

/-- `x[:, idx]` of an operand `[1, A, B]` at a column `[R, 1]` of row numbers: whole rows, result `[1, R, B]`. -/
abbrev takeBRowDims (A B R : Nat)
    (wf : GatherDims.WF ⟨3, ![1, A, B]⟩ ⟨2, ![R, 1]⟩ ⟨3, ![1, R, B]⟩ [0, 2] [1] [] [1] [] 1 ![1, 1, B]) :
    GatherDims ⟨3, ![1, A, B]⟩ ⟨2, ![R, 1]⟩ ⟨3, ![1, R, B]⟩ where
  offsetDims := [0, 2]
  collapsedSliceDims := [1]
  operandBatchingDims := []
  startIndicesBatchingDims := []
  startIndexMap := [1]
  indexVectorDim := 1
  sliceSizes := ![1, 1, B]
  wf := wf

/-- The gather read at `(0, r, b)`: the operand at row `idx[r, 0]` (read signed, clamped into `[0, A − 1]`), column `b`. -/
theorem gather_takeBRow_apply {A B R w : Nat} (hA : 0 < A) (wf) (x : (⟨3, ![1, A, B]⟩ : Shape).Idx → α)
    (idx : IVec ⟨2, ![R, 1]⟩ w) (r : Fin R) (b : Fin B) :
    Host.gather (takeBRowDims A B R wf) x idx (ix3 0 r b)
      = x (ix3 0 ⟨min (idx (ix2 r 0)).toInt.toNat (A - 1), by omega⟩ b) := by
  unfold Host.gather
  congr 1
  funext a
  refine Fin.ext ?_
  match a with
  | ⟨0, _⟩ =>
    show (takeBRowDims A B R wf).start (ix3 0 r b) idx 0 + (takeBRowDims A B R wf).batchCoord (ix3 0 r b) 0
      + (takeBRowDims A B R wf).offCoord (ix3 0 r b) 0 = 0
    rw [GatherDims.batchCoord_eq_zero _ _ _ List.not_mem_nil]
    unfold GatherDims.start
    rw [dif_neg (show (0 : Fin 3) ∉ (takeBRowDims A B R wf).startIndexMap from
      fun h => absurd (congrArg Fin.val (List.mem_singleton.mp h)) Nat.zero_ne_one)]
    unfold GatherDims.offCoord
    rw [dif_pos (show (0 : Fin 3) ∈ (takeBRowDims A B R wf).sKept by simp [GatherDims.sKept, Shape.kept])]
    simp only [Nat.zero_add]
    rfl
  | ⟨1, _⟩ =>
    show (takeBRowDims A B R wf).start (ix3 0 r b) idx 1 + (takeBRowDims A B R wf).batchCoord (ix3 0 r b) 1
      + (takeBRowDims A B R wf).offCoord (ix3 0 r b) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeBRowDims A B R wf).startIndexMap from List.mem_singleton.mpr rfl)]
    have hsi : (takeBRowDims A B R wf).siIdx (ix3 0 r b) ⟨List.idxOf (1 : Fin 3) (takeBRowDims A B R wf).startIndexMap,
        List.idxOf_lt_length_iff.2 (List.mem_singleton.mpr rfl)⟩ = ix2 r 0 := by
      funext c; refine Fin.ext ?_
      match c with
      | ⟨0, _⟩ => rfl
      | ⟨1, _⟩ => rfl
    rw [hsi]
    rfl
  | ⟨2, _⟩ =>
    show (takeBRowDims A B R wf).start (ix3 0 r b) idx 2 + (takeBRowDims A B R wf).batchCoord (ix3 0 r b) 2
      + (takeBRowDims A B R wf).offCoord (ix3 0 r b) 2 = b.val
    rw [GatherDims.batchCoord_eq_zero _ _ _ List.not_mem_nil]
    unfold GatherDims.start
    rw [dif_neg (show (2 : Fin 3) ∉ (takeBRowDims A B R wf).startIndexMap from
      fun h => absurd (congrArg Fin.val (List.mem_singleton.mp h)) (show (2 : Nat) ≠ 1 by decide))]
    unfold GatherDims.offCoord
    rw [dif_pos (show (2 : Fin 3) ∈ (takeBRowDims A B R wf).sKept by simp [GatherDims.sKept, Shape.kept])]
    simp only [Nat.zero_add]
    rfl

/-- The row gather under a leading unit axis is the row gather of the two-axis operand. -/
theorem gather_rows_bridge {A B R w : Nat} (hA : 0 < A) (wf3) (wf2) (x3 : (⟨3, ![1, A, B]⟩ : Shape).Idx → α)
    (x2 : (⟨2, ![A, B]⟩ : Shape).Idx → α) (idx : IVec ⟨2, ![R, 1]⟩ w)
    (hx : ∀ a b, x3 (ix3 0 a b) = x2 (ix2 a b)) (r : Fin R) (b : Fin B) :
    Host.gather (takeBRowDims A B R wf3) x3 idx (ix3 0 r b) = Host.gather (takeRowDims A B R wf2) x2 idx (ix2 r b) := by
  rw [gather_takeBRow_apply hA, gather_takeRow_apply hA, hx]

end Take

/-! ## The scatter of whole rows under a leading unit axis -/

section Put
variable {M B R w : Nat}

/-- `x.at[:, idx]` of an operand `[1, M, B]` at a column `[R, 1]` of row numbers with row updates `[1, R, B]`. -/
abbrev putBRowDims (M B R : Nat)
    (wf : ScatterDims.WF ⟨3, ![1, M, B]⟩ ⟨2, ![R, 1]⟩ ⟨3, ![1, R, B]⟩ [0, 2] [1] [1] 1) :
    ScatterDims ⟨3, ![1, M, B]⟩ ⟨2, ![R, 1]⟩ ⟨3, ![1, R, B]⟩ where
  updateWindowDims := [0, 2]
  insertedWindowDims := [1]
  scatterDimsToOperandDims := [1]
  indexVectorDim := 1
  wf := wf

theorem putBRow_start0 (wf) (idx : IVec ⟨2, ![R, 1]⟩ w) (r : Fin R) (b : Fin B) :
    (putBRowDims M B R wf).start (ix3 0 r b) idx 0 = 0 := by
  unfold ScatterDims.start
  rw [dif_neg (show (0 : Fin 3) ∉ (putBRowDims M B R wf).scatterDimsToOperandDims from
    fun h => absurd (congrArg Fin.val (List.mem_singleton.mp h)) Nat.zero_ne_one)]

theorem putBRow_start1 (wf) (idx : IVec ⟨2, ![R, 1]⟩ w) (r : Fin R) (b : Fin B) :
    (putBRowDims M B R wf).start (ix3 0 r b) idx 1 = (idx (ix2 r 0)).toInt := by
  unfold ScatterDims.start
  rw [dif_pos (show (1 : Fin 3) ∈ (putBRowDims M B R wf).scatterDimsToOperandDims from List.mem_singleton.mpr rfl)]
  have hsi : (putBRowDims M B R wf).siIdx (ix3 0 r b) ⟨List.idxOf (1 : Fin 3) (putBRowDims M B R wf).scatterDimsToOperandDims,
      List.idxOf_lt_length_iff.2 (List.mem_singleton.mpr rfl)⟩ = ix2 r 0 := by
    funext c; refine Fin.ext ?_
    match c with
    | ⟨0, _⟩ => rfl
    | ⟨1, _⟩ => rfl
  rw [hsi]

theorem putBRow_start2 (wf) (idx : IVec ⟨2, ![R, 1]⟩ w) (r : Fin R) (b : Fin B) :
    (putBRowDims M B R wf).start (ix3 0 r b) idx 2 = 0 := by
  unfold ScatterDims.start
  rw [dif_neg (show (2 : Fin 3) ∉ (putBRowDims M B R wf).scatterDimsToOperandDims from
    fun h => absurd (congrArg Fin.val (List.mem_singleton.mp h)) (show (2 : Nat) ≠ 1 by decide))]

theorem putBRow_window0 (wf) (r : Fin R) (b : Fin B) : (putBRowDims M B R wf).window (ix3 0 r b) 0 = 0 := by
  unfold ScatterDims.window
  rw [dif_pos (show (0 : Fin 3) ∈ (putBRowDims M B R wf).sKept by simp [ScatterDims.sKept, Shape.kept])]
  rfl

theorem putBRow_window1 (wf) (r : Fin R) (b : Fin B) : (putBRowDims M B R wf).window (ix3 0 r b) 1 = 0 := by
  unfold ScatterDims.window
  rw [dif_neg (show (1 : Fin 3) ∉ (putBRowDims M B R wf).sKept by simp [ScatterDims.sKept, Shape.kept])]

theorem putBRow_window2 (wf) (r : Fin R) (b : Fin B) : (putBRowDims M B R wf).window (ix3 0 r b) 2 = b.val := by
  unfold ScatterDims.window
  rw [dif_pos (show (2 : Fin 3) ∈ (putBRowDims M B R wf).sKept by simp [ScatterDims.sKept, Shape.kept])]
  rfl

/-- Update `(0, r, b)` lands on operand element `(0, idx[r, 0], b)` when `idx[r, 0]` is a row of the operand, and is
    dropped otherwise. -/
theorem putBRow_resultIdx? (wf) (idx : IVec ⟨2, ![R, 1]⟩ w) (r : Fin R) (b : Fin B) :
    (putBRowDims M B R wf).resultIdx? (ix3 0 r b) idx = (keyOf M (idx (ix2 r 0))).map fun s => ix3 0 s b := by
  have hs0 := putBRow_start0 (M := M) wf idx r b
  have hs1 := putBRow_start1 (M := M) wf idx r b
  have hs2 := putBRow_start2 (M := M) wf idx r b
  have hw0 := putBRow_window0 (M := M) wf r b
  have hw1 := putBRow_window1 (M := M) wf r b
  have hw2 := putBRow_window2 (M := M) wf r b
  have hb := b.isLt
  unfold ScatterDims.resultIdx? keyOf
  by_cases h : 0 ≤ (idx (ix2 r 0)).toInt ∧ (idx (ix2 r 0)).toInt < M
  · rw [dif_pos h, dif_pos (by
      intro a
      match a with
      | ⟨0, _⟩ =>
        show (0 : Int) ≤ (putBRowDims M B R wf).start (ix3 0 r b) idx 0 + ((putBRowDims M B R wf).window (ix3 0 r b) 0 : Int)
          ∧ (putBRowDims M B R wf).start (ix3 0 r b) idx 0 + ((putBRowDims M B R wf).window (ix3 0 r b) 0 : Int) < (1 : Int)
        rw [hs0, hw0]; omega
      | ⟨1, _⟩ =>
        show (0 : Int) ≤ (putBRowDims M B R wf).start (ix3 0 r b) idx 1 + ((putBRowDims M B R wf).window (ix3 0 r b) 1 : Int)
          ∧ (putBRowDims M B R wf).start (ix3 0 r b) idx 1 + ((putBRowDims M B R wf).window (ix3 0 r b) 1 : Int) < (M : Int)
        rw [hs1, hw1]; simpa using h
      | ⟨2, _⟩ =>
        show (0 : Int) ≤ (putBRowDims M B R wf).start (ix3 0 r b) idx 2 + ((putBRowDims M B R wf).window (ix3 0 r b) 2 : Int)
          ∧ (putBRowDims M B R wf).start (ix3 0 r b) idx 2 + ((putBRowDims M B R wf).window (ix3 0 r b) 2 : Int) < (B : Int)
        rw [hs2, hw2]; omega)]
    simp only [Option.map_some]
    refine congrArg some (funext fun a => Fin.ext ?_)
    match a with
    | ⟨0, _⟩ =>
      show ((putBRowDims M B R wf).start (ix3 0 r b) idx 0 + ((putBRowDims M B R wf).window (ix3 0 r b) 0 : Int)).toNat = 0
      rw [hs0, hw0]; simp
    | ⟨1, _⟩ =>
      show ((putBRowDims M B R wf).start (ix3 0 r b) idx 1 + ((putBRowDims M B R wf).window (ix3 0 r b) 1 : Int)).toNat = _
      rw [hs1, hw1]; simp
    | ⟨2, _⟩ =>
      show ((putBRowDims M B R wf).start (ix3 0 r b) idx 2 + ((putBRowDims M B R wf).window (ix3 0 r b) 2 : Int)).toNat = b.val
      rw [hs2, hw2]; simp
  · rw [dif_neg h, dif_neg (fun hh => h (by have := hh 1; rw [hs1, hw1] at this; simpa using this))]
    rfl

end Put

/-! ## Dropping the leading unit coordinate -/

section Drop
variable {R B : Nat}

/-- Every index of `[1, R, B]` is `(0, r, b)`. -/
theorem exists_ix3_zero (j : (⟨3, ![1, R, B]⟩ : Shape).Idx) : ∃ (r : Fin R) (b : Fin B), j = ix3 0 r b :=
  ⟨j 1, j 2, by
    funext a
    match a with
    | ⟨0, _⟩ => exact Subsingleton.elim (α := Fin 1) _ _
    | ⟨1, _⟩ => rfl
    | ⟨2, _⟩ => rfl⟩

/-- The indices of `[1, R, B]` are the indices of `[R, B]`: `(0, r, b) ↦ (r, b)`. -/
def dropUnit (R B : Nat) : (⟨3, ![1, R, B]⟩ : Shape).Idx ≃ (⟨2, ![R, B]⟩ : Shape).Idx where
  toFun j := ix2 (j 1) (j 2)
  invFun k := ix3 0 (k 0) (k 1)
  left_inv j := by
    funext a
    match a with
    | ⟨0, _⟩ => exact Subsingleton.elim (α := Fin 1) _ _
    | ⟨1, _⟩ => rfl
    | ⟨2, _⟩ => rfl
  right_inv k := by
    funext a
    match a with
    | ⟨0, _⟩ => rfl
    | ⟨1, _⟩ => rfl

theorem dropUnit_ix3 (r : Fin R) (b : Fin B) : dropUnit R B (ix3 0 r b) = ix2 r b := rfl

theorem ix3_zero_inj {r r' : Fin R} {b b' : Fin B} :
    (ix3 0 r b : (⟨3, ![1, R, B]⟩ : Shape).Idx) = ix3 0 r' b' ↔ r = r' ∧ b = b' :=
  ⟨fun h => ⟨congrFun h 1, congrFun h 2⟩, fun h => by rw [h.1, h.2]⟩

theorem ix2_inj {r r' : Fin R} {b b' : Fin B} :
    (ix2 r b : (⟨2, ![R, B]⟩ : Shape).Idx) = ix2 r' b' ↔ r = r' ∧ b = b' :=
  ⟨fun h => ⟨congrFun h 0, congrFun h 1⟩, fun h => by rw [h.1, h.2]⟩

end Drop

/-! ## The scatter-add of whole rows: three axes against two -/

section Add
variable {M B R w : Nat}

/-- `zeros.at[idx].add(u)` under a leading unit axis is the scatter-add of the two-axis arrays: the updates landing on
    `(0, n, b)` are the updates `(0, r, b)` with `idx[r, 0] = n`, and those landing on `(n, b)` are the `(r, b)` with
    `idx[r, 0] = n`. -/
theorem scatterAdd_rows_bridge (wf3) (wf2) (x3 : (⟨3, ![1, M, B]⟩ : Shape).Idx → EReal)
    (x2 : (⟨2, ![M, B]⟩ : Shape).Idx → EReal) (u3 : (⟨3, ![1, R, B]⟩ : Shape).Idx → EReal)
    (u2 : (⟨2, ![R, B]⟩ : Shape).Idx → EReal) (idx : IVec ⟨2, ![R, 1]⟩ w)
    (hx : ∀ n b, x3 (ix3 0 n b) = x2 (ix2 n b)) (hu : ∀ r b, u3 (ix3 0 r b) = u2 (ix2 r b)) (n : Fin M) (b : Fin B) :
    Ideal.hostScatterAdd (putBRowDims M B R wf3) x3 idx u3 (ix3 0 n b)
      = Ideal.hostScatterAdd (putRowDims M B R wf2) x2 idx u2 (ix2 n b) := by
  unfold Ideal.hostScatterAdd
  rw [hx]
  congr 1
  refine Finset.sum_equiv (dropUnit R B) ?_ ?_
  · intro j
    obtain ⟨r, c, rfl⟩ := exists_ix3_zero j
    rw [dropUnit_ix3]
    simp only [Finset.mem_filter, Finset.mem_univ, true_and]
    rw [putBRow_resultIdx?, putRow_resultIdx?]
    cases keyOf M (idx (ix2 r 0)) with
    | none => simp
    | some s =>
      simp only [Option.map_some, Option.some.injEq]
      rw [ix3_zero_inj, ix2_inj]
  · intro j _
    obtain ⟨r, c, rfl⟩ := exists_ix3_zero j
    rw [dropUnit_ix3]
    exact hu r c

end Add

/-! ## Concatenations of pieces of width 64 along the last axis, read at an index -/

section Concat
variable {α : Type}

theorem concat3B_apply_fst {E : Nat} (h : Shape.Concatenates [(⟨3, ![1, E, 64]⟩ : Shape), ⟨3, ![1, E, 64]⟩, ⟨3, ![1, E, 64]⟩] ⟨3, ![1, E, 192]⟩ 2)
    (a3 b3 c3 : (⟨3, ![1, E, 64]⟩ : Shape).Idx → α) (e : Fin E) (f : Fin 192) (hf : f.val < 64) :
    concatenate ⟨3, ![1, E, 192]⟩ 2 [⟨⟨3, ![1, E, 64]⟩, a3⟩, ⟨⟨3, ![1, E, 64]⟩, b3⟩, ⟨⟨3, ![1, E, 64]⟩, c3⟩] h (ix3 0 e f) = a3 (ix3 0 e ⟨f.val, hf⟩) := by
  refine concatenate_apply_piece (t := ⟨3, ![1, E, 192]⟩) 2 [⟨⟨3, ![1, E, 64]⟩, a3⟩, ⟨⟨3, ![1, E, 64]⟩, b3⟩, ⟨⟨3, ![1, E, 64]⟩, c3⟩] h _ 0 (by simp) _ a3 rfl rfl 0 rfl (ix3 0 e ⟨f.val, hf⟩) ?_ ?_
  · intro b hb
    match b with
    | ⟨0, _⟩ => rfl
    | ⟨1, _⟩ => rfl
    | ⟨2, _⟩ => exact absurd rfl hb
  · show 0 + (f.val) = f.val
    omega

theorem concat3B_apply_snd {E : Nat} (h : Shape.Concatenates [(⟨3, ![1, E, 64]⟩ : Shape), ⟨3, ![1, E, 64]⟩, ⟨3, ![1, E, 64]⟩] ⟨3, ![1, E, 192]⟩ 2)
    (a3 b3 c3 : (⟨3, ![1, E, 64]⟩ : Shape).Idx → α) (e : Fin E) (f : Fin 192) (hf : 64 ≤ f.val) (hf' : f.val < 128) :
    concatenate ⟨3, ![1, E, 192]⟩ 2 [⟨⟨3, ![1, E, 64]⟩, a3⟩, ⟨⟨3, ![1, E, 64]⟩, b3⟩, ⟨⟨3, ![1, E, 64]⟩, c3⟩] h (ix3 0 e f) = b3 (ix3 0 e ⟨f.val - 64, by have := f.isLt; omega⟩) := by
  refine concatenate_apply_piece (t := ⟨3, ![1, E, 192]⟩) 2 [⟨⟨3, ![1, E, 64]⟩, a3⟩, ⟨⟨3, ![1, E, 64]⟩, b3⟩, ⟨⟨3, ![1, E, 64]⟩, c3⟩] h _ 1 (by simp) _ b3 rfl rfl 64 rfl (ix3 0 e ⟨f.val - 64, by have := f.isLt; omega⟩) ?_ ?_
  · intro b hb
    match b with
    | ⟨0, _⟩ => rfl
    | ⟨1, _⟩ => rfl
    | ⟨2, _⟩ => exact absurd rfl hb
  · show 64 + (f.val - 64) = f.val
    omega

theorem concat3B_apply_thd {E : Nat} (h : Shape.Concatenates [(⟨3, ![1, E, 64]⟩ : Shape), ⟨3, ![1, E, 64]⟩, ⟨3, ![1, E, 64]⟩] ⟨3, ![1, E, 192]⟩ 2)
    (a3 b3 c3 : (⟨3, ![1, E, 64]⟩ : Shape).Idx → α) (e : Fin E) (f : Fin 192) (hf : 128 ≤ f.val) :
    concatenate ⟨3, ![1, E, 192]⟩ 2 [⟨⟨3, ![1, E, 64]⟩, a3⟩, ⟨⟨3, ![1, E, 64]⟩, b3⟩, ⟨⟨3, ![1, E, 64]⟩, c3⟩] h (ix3 0 e f) = c3 (ix3 0 e ⟨f.val - 128, by have := f.isLt; omega⟩) := by
  refine concatenate_apply_piece (t := ⟨3, ![1, E, 192]⟩) 2 [⟨⟨3, ![1, E, 64]⟩, a3⟩, ⟨⟨3, ![1, E, 64]⟩, b3⟩, ⟨⟨3, ![1, E, 64]⟩, c3⟩] h _ 2 (by simp) _ c3 rfl rfl 128 rfl (ix3 0 e ⟨f.val - 128, by have := f.isLt; omega⟩) ?_ ?_
  · intro b hb
    match b with
    | ⟨0, _⟩ => rfl
    | ⟨1, _⟩ => rfl
    | ⟨2, _⟩ => exact absurd rfl hb
  · show 128 + (f.val - 128) = f.val
    omega

theorem concat3_apply_fst {E : Nat} (h : Shape.Concatenates [(⟨2, ![E, 64]⟩ : Shape), ⟨2, ![E, 64]⟩, ⟨2, ![E, 64]⟩] ⟨2, ![E, 192]⟩ 1)
    (a2 b2 c2 : (⟨2, ![E, 64]⟩ : Shape).Idx → α) (e : Fin E) (f : Fin 192) (hf : f.val < 64) :
    concatenate ⟨2, ![E, 192]⟩ 1 [⟨⟨2, ![E, 64]⟩, a2⟩, ⟨⟨2, ![E, 64]⟩, b2⟩, ⟨⟨2, ![E, 64]⟩, c2⟩] h (ix2 e f) = a2 (ix2 e ⟨f.val, hf⟩) := by
  refine concatenate_apply_piece (t := ⟨2, ![E, 192]⟩) 1 [⟨⟨2, ![E, 64]⟩, a2⟩, ⟨⟨2, ![E, 64]⟩, b2⟩, ⟨⟨2, ![E, 64]⟩, c2⟩] h _ 0 (by simp) _ a2 rfl rfl 0 rfl (ix2 e ⟨f.val, hf⟩) ?_ ?_
  · intro b hb
    match b with
    | ⟨0, _⟩ => rfl
    | ⟨1, _⟩ => exact absurd rfl hb
  · show 0 + (f.val) = f.val
    omega

theorem concat3_apply_snd {E : Nat} (h : Shape.Concatenates [(⟨2, ![E, 64]⟩ : Shape), ⟨2, ![E, 64]⟩, ⟨2, ![E, 64]⟩] ⟨2, ![E, 192]⟩ 1)
    (a2 b2 c2 : (⟨2, ![E, 64]⟩ : Shape).Idx → α) (e : Fin E) (f : Fin 192) (hf : 64 ≤ f.val) (hf' : f.val < 128) :
    concatenate ⟨2, ![E, 192]⟩ 1 [⟨⟨2, ![E, 64]⟩, a2⟩, ⟨⟨2, ![E, 64]⟩, b2⟩, ⟨⟨2, ![E, 64]⟩, c2⟩] h (ix2 e f) = b2 (ix2 e ⟨f.val - 64, by have := f.isLt; omega⟩) := by
  refine concatenate_apply_piece (t := ⟨2, ![E, 192]⟩) 1 [⟨⟨2, ![E, 64]⟩, a2⟩, ⟨⟨2, ![E, 64]⟩, b2⟩, ⟨⟨2, ![E, 64]⟩, c2⟩] h _ 1 (by simp) _ b2 rfl rfl 64 rfl (ix2 e ⟨f.val - 64, by have := f.isLt; omega⟩) ?_ ?_
  · intro b hb
    match b with
    | ⟨0, _⟩ => rfl
    | ⟨1, _⟩ => exact absurd rfl hb
  · show 64 + (f.val - 64) = f.val
    omega

theorem concat3_apply_thd {E : Nat} (h : Shape.Concatenates [(⟨2, ![E, 64]⟩ : Shape), ⟨2, ![E, 64]⟩, ⟨2, ![E, 64]⟩] ⟨2, ![E, 192]⟩ 1)
    (a2 b2 c2 : (⟨2, ![E, 64]⟩ : Shape).Idx → α) (e : Fin E) (f : Fin 192) (hf : 128 ≤ f.val) :
    concatenate ⟨2, ![E, 192]⟩ 1 [⟨⟨2, ![E, 64]⟩, a2⟩, ⟨⟨2, ![E, 64]⟩, b2⟩, ⟨⟨2, ![E, 64]⟩, c2⟩] h (ix2 e f) = c2 (ix2 e ⟨f.val - 128, by have := f.isLt; omega⟩) := by
  refine concatenate_apply_piece (t := ⟨2, ![E, 192]⟩) 1 [⟨⟨2, ![E, 64]⟩, a2⟩, ⟨⟨2, ![E, 64]⟩, b2⟩, ⟨⟨2, ![E, 64]⟩, c2⟩] h _ 2 (by simp) _ c2 rfl rfl 128 rfl (ix2 e ⟨f.val - 128, by have := f.isLt; omega⟩) ?_ ?_
  · intro b hb
    match b with
    | ⟨0, _⟩ => rfl
    | ⟨1, _⟩ => exact absurd rfl hb
  · show 128 + (f.val - 128) = f.val
    omega

theorem concat2B_apply_fst {E : Nat} (h : Shape.Concatenates [(⟨3, ![1, E, 64]⟩ : Shape), ⟨3, ![1, E, 64]⟩] ⟨3, ![1, E, 128]⟩ 2)
    (a3 b3 : (⟨3, ![1, E, 64]⟩ : Shape).Idx → α) (e : Fin E) (f : Fin 128) (hf : f.val < 64) :
    concatenate ⟨3, ![1, E, 128]⟩ 2 [⟨⟨3, ![1, E, 64]⟩, a3⟩, ⟨⟨3, ![1, E, 64]⟩, b3⟩] h (ix3 0 e f) = a3 (ix3 0 e ⟨f.val, hf⟩) := by
  refine concatenate_apply_piece (t := ⟨3, ![1, E, 128]⟩) 2 [⟨⟨3, ![1, E, 64]⟩, a3⟩, ⟨⟨3, ![1, E, 64]⟩, b3⟩] h _ 0 (by simp) _ a3 rfl rfl 0 rfl (ix3 0 e ⟨f.val, hf⟩) ?_ ?_
  · intro b hb
    match b with
    | ⟨0, _⟩ => rfl
    | ⟨1, _⟩ => rfl
    | ⟨2, _⟩ => exact absurd rfl hb
  · show 0 + (f.val) = f.val
    omega

theorem concat2B_apply_snd {E : Nat} (h : Shape.Concatenates [(⟨3, ![1, E, 64]⟩ : Shape), ⟨3, ![1, E, 64]⟩] ⟨3, ![1, E, 128]⟩ 2)
    (a3 b3 : (⟨3, ![1, E, 64]⟩ : Shape).Idx → α) (e : Fin E) (f : Fin 128) (hf : 64 ≤ f.val) :
    concatenate ⟨3, ![1, E, 128]⟩ 2 [⟨⟨3, ![1, E, 64]⟩, a3⟩, ⟨⟨3, ![1, E, 64]⟩, b3⟩] h (ix3 0 e f) = b3 (ix3 0 e ⟨f.val - 64, by have := f.isLt; omega⟩) := by
  refine concatenate_apply_piece (t := ⟨3, ![1, E, 128]⟩) 2 [⟨⟨3, ![1, E, 64]⟩, a3⟩, ⟨⟨3, ![1, E, 64]⟩, b3⟩] h _ 1 (by simp) _ b3 rfl rfl 64 rfl (ix3 0 e ⟨f.val - 64, by have := f.isLt; omega⟩) ?_ ?_
  · intro b hb
    match b with
    | ⟨0, _⟩ => rfl
    | ⟨1, _⟩ => rfl
    | ⟨2, _⟩ => exact absurd rfl hb
  · show 64 + (f.val - 64) = f.val
    omega

theorem concat2_apply_fst {E : Nat} (h : Shape.Concatenates [(⟨2, ![E, 64]⟩ : Shape), ⟨2, ![E, 64]⟩] ⟨2, ![E, 128]⟩ 1)
    (a2 b2 : (⟨2, ![E, 64]⟩ : Shape).Idx → α) (e : Fin E) (f : Fin 128) (hf : f.val < 64) :
    concatenate ⟨2, ![E, 128]⟩ 1 [⟨⟨2, ![E, 64]⟩, a2⟩, ⟨⟨2, ![E, 64]⟩, b2⟩] h (ix2 e f) = a2 (ix2 e ⟨f.val, hf⟩) := by
  refine concatenate_apply_piece (t := ⟨2, ![E, 128]⟩) 1 [⟨⟨2, ![E, 64]⟩, a2⟩, ⟨⟨2, ![E, 64]⟩, b2⟩] h _ 0 (by simp) _ a2 rfl rfl 0 rfl (ix2 e ⟨f.val, hf⟩) ?_ ?_
  · intro b hb
    match b with
    | ⟨0, _⟩ => rfl
    | ⟨1, _⟩ => exact absurd rfl hb
  · show 0 + (f.val) = f.val
    omega

theorem concat2_apply_snd {E : Nat} (h : Shape.Concatenates [(⟨2, ![E, 64]⟩ : Shape), ⟨2, ![E, 64]⟩] ⟨2, ![E, 128]⟩ 1)
    (a2 b2 : (⟨2, ![E, 64]⟩ : Shape).Idx → α) (e : Fin E) (f : Fin 128) (hf : 64 ≤ f.val) :
    concatenate ⟨2, ![E, 128]⟩ 1 [⟨⟨2, ![E, 64]⟩, a2⟩, ⟨⟨2, ![E, 64]⟩, b2⟩] h (ix2 e f) = b2 (ix2 e ⟨f.val - 64, by have := f.isLt; omega⟩) := by
  refine concatenate_apply_piece (t := ⟨2, ![E, 128]⟩) 1 [⟨⟨2, ![E, 64]⟩, a2⟩, ⟨⟨2, ![E, 64]⟩, b2⟩] h _ 1 (by simp) _ b2 rfl rfl 64 rfl (ix2 e ⟨f.val - 64, by have := f.isLt; omega⟩) ?_ ?_
  · intro b hb
    match b with
    | ⟨0, _⟩ => rfl
    | ⟨1, _⟩ => exact absurd rfl hb
  · show 64 + (f.val - 64) = f.val
    omega

/-- Three pieces `[1, E, 64]` laid along the last axis agree with three pieces `[E, 64]` laid along the last axis when
    the pieces agree. -/
theorem concat3_bridge {E : Nat}
    (h3 : Shape.Concatenates [(⟨3, ![1, E, 64]⟩ : Shape), ⟨3, ![1, E, 64]⟩, ⟨3, ![1, E, 64]⟩] ⟨3, ![1, E, 192]⟩ 2)
    (h2 : Shape.Concatenates [(⟨2, ![E, 64]⟩ : Shape), ⟨2, ![E, 64]⟩, ⟨2, ![E, 64]⟩] ⟨2, ![E, 192]⟩ 1)
    (a3 b3 c3 : (⟨3, ![1, E, 64]⟩ : Shape).Idx → α) (a2 b2 c2 : (⟨2, ![E, 64]⟩ : Shape).Idx → α)
    (ha : ∀ e j, a3 (ix3 0 e j) = a2 (ix2 e j)) (hb : ∀ e j, b3 (ix3 0 e j) = b2 (ix2 e j))
    (hc : ∀ e j, c3 (ix3 0 e j) = c2 (ix2 e j)) (e : Fin E) (f : Fin 192) :
    concatenate ⟨3, ![1, E, 192]⟩ 2 [⟨⟨3, ![1, E, 64]⟩, a3⟩, ⟨⟨3, ![1, E, 64]⟩, b3⟩, ⟨⟨3, ![1, E, 64]⟩, c3⟩] h3 (ix3 0 e f)
      = concatenate ⟨2, ![E, 192]⟩ 1 [⟨⟨2, ![E, 64]⟩, a2⟩, ⟨⟨2, ![E, 64]⟩, b2⟩, ⟨⟨2, ![E, 64]⟩, c2⟩] h2 (ix2 e f) := by
  by_cases h1 : f.val < 64
  · rw [concat3B_apply_fst h3 a3 b3 c3 e f h1, concat3_apply_fst h2 a2 b2 c2 e f h1, ha]
  · by_cases h2' : f.val < 128
    · rw [concat3B_apply_snd h3 a3 b3 c3 e f (by omega) h2', concat3_apply_snd h2 a2 b2 c2 e f (by omega) h2', hb]
    · rw [concat3B_apply_thd h3 a3 b3 c3 e f (by omega), concat3_apply_thd h2 a2 b2 c2 e f (by omega), hc]

/-- Two pieces `[1, N, 64]` laid along the last axis agree with two pieces `[N, 64]` laid along the last axis when the
    pieces agree. -/
theorem concat2_bridge {E : Nat}
    (h3 : Shape.Concatenates [(⟨3, ![1, E, 64]⟩ : Shape), ⟨3, ![1, E, 64]⟩] ⟨3, ![1, E, 128]⟩ 2)
    (h2 : Shape.Concatenates [(⟨2, ![E, 64]⟩ : Shape), ⟨2, ![E, 64]⟩] ⟨2, ![E, 128]⟩ 1)
    (a3 b3 : (⟨3, ![1, E, 64]⟩ : Shape).Idx → α) (a2 b2 : (⟨2, ![E, 64]⟩ : Shape).Idx → α)
    (ha : ∀ e j, a3 (ix3 0 e j) = a2 (ix2 e j)) (hb : ∀ e j, b3 (ix3 0 e j) = b2 (ix2 e j))
    (e : Fin E) (f : Fin 128) :
    concatenate ⟨3, ![1, E, 128]⟩ 2 [⟨⟨3, ![1, E, 64]⟩, a3⟩, ⟨⟨3, ![1, E, 64]⟩, b3⟩] h3 (ix3 0 e f)
      = concatenate ⟨2, ![E, 128]⟩ 1 [⟨⟨2, ![E, 64]⟩, a2⟩, ⟨⟨2, ![E, 64]⟩, b2⟩] h2 (ix2 e f) := by
  by_cases h1 : f.val < 64
  · rw [concat2B_apply_fst h3 a3 b3 e f h1, concat2_apply_fst h2 a2 b2 e f h1, ha]
  · rw [concat2B_apply_snd h3 a3 b3 e f (by omega), concat2_apply_snd h2 a2 b2 e f (by omega), hb]

end Concat

end Cert.LibBatchRows
-- ==== Proof.Bridge.lean ====
/-
  The kernel program's two results, as closed functions of the eleven arguments, are the reference's stages.

  Both programs apply, twice, an edge perceptron to the edge features beside the node features gathered at the edge's two
  endpoints, add the new edge features up at their destination nodes, and apply a node perceptron to the node features
  beside these sums.  The reference keeps a leading axis of extent one on every array and the kernel program drops it:
  stage by stage, the reference's array read at `(0, a, b)` is the kernel program's read at `(a, b)`.
-/
import proofs.«174539_j57174604644524_1_alg».proof.Proof.KForms
import proofs.«174539_j57174604644524_1_alg».proof.Proof.MlpRef
import proofs.«174539_j57174604644524_1_alg».proof.Proof.RefReadP
import proofs.«174539_j57174604644524_1_alg».proof.Proof.LibBatchRows
import proofs.«174539_j57174604644524_1_alg».proof.Proof.LibScatterGather
import proofs.«174539_j57174604644524_1_alg».proof.Proof.Spec

noncomputable section

namespace Cert.Bridge

open Idealize.ShloMosaic Idealize.ShloMosaic.ValueIdx Idealize.ShloMosaic.TcCoe
open Cert.LibScatterGather Cert.LibBatchRows
open Cert.ReferenceIdeal.Read Cert.KernelIdeal.KF Cert.KernelIdeal.Out

/-! ## The two programs' gather and scatter records are the row gathers and row scatters -/

theorem gatherR_eq : Cert.ReferenceIdeal.gather_S1x50000x64_S800000x1_S1x800000x64_02_1_n_n_1_1_1164
    = takeBRowDims 50000 64 800000 Cert.ReferenceIdeal.gather_S1x50000x64_S800000x1_S1x800000x64_02_1_n_n_1_1_1164.wf := rfl
theorem gatherK_eq : Cert.KernelIdeal.gather_S50000x64_S800000x1_S800000x64_1_0_n_n_0_1_164
    = takeRowDims 50000 64 800000 Cert.KernelIdeal.gather_S50000x64_S800000x1_S800000x64_1_0_n_n_0_1_164.wf := rfl
theorem scatterR_eq : Cert.ReferenceIdeal.scatter_S1x50000x64_S800000x1_S1x800000x64_02_1_1_1
    = putBRowDims 50000 64 800000 Cert.ReferenceIdeal.scatter_S1x50000x64_S800000x1_S1x800000x64_02_1_1_1.wf := rfl
theorem scatterK_eq : Cert.KernelIdeal.scatter_S50000x64_S800000x1_S800000x64_1_0_0_1
    = putRowDims 50000 64 800000 Cert.KernelIdeal.scatter_S50000x64_S800000x1_S800000x64_1_0_0_1.wf := rfl

/-! ## The index columns: both programs wrap negative node numbers around the same way -/

section Cols
variable (x2 : BC ⟨Cert.KernelIdeal.S2x800000, .i32⟩)

theorem col_v9 : val_main_v9 (F := Ideal) x2 = col (row0 x2) := by
  unfold val_main_v9 val_main_v8 val_main_v5 val_main_v7 val_main_v4 val_main_v6 val_main_c val_main_c_0 val_main_v1 val_main_v0 col row0
  rfl
theorem col_v16 : val_main_v16 (F := Ideal) x2 = col (row1 x2) := by
  unfold val_main_v16 val_main_v15 val_main_v12 val_main_v14 val_main_v11 val_main_v13 val_main_c_1 val_main_c_2 val_main_v3 val_main_v2 col row1
  rfl

end Cols

/-- At the exact instance the host's accumulating scatter is the exact sum. -/
theorem scatterAdd_ideal {s si su : Shape} {φ : FTy} {w : Nat} (d : ScatterDims s si su) (x : FVec Ideal s φ) (idx : IVec si w)
    (upd : FVec Ideal su φ) : Host.scatterAdd (F := Ideal) (φ := φ) d x idx upd = Ideal.hostScatterAdd d x idx upd := rfl

section Cols2
variable (x2 : BC ⟨Cert.KernelIdeal.S2x800000, .i32⟩)

theorem col_v42 : val_main_v42 (F := Ideal) x2 = col (row1 x2) := by
  unfold val_main_v42 val_main_v41 val_main_v38 val_main_v40 val_main_v37 val_main_v39 val_main_c_3 val_main_c_4 val_main_v3 val_main_v2 col row1
  rfl
theorem col_v67 : val_main_v67 (F := Ideal) x2 = col (row0 x2) := by
  unfold val_main_v67 val_main_v66 val_main_v63 val_main_v65 val_main_v62 val_main_v64 val_main_c_5 val_main_c_6 val_main_v1 val_main_v0 col row0
  rfl
theorem col_v74 : val_main_v74 (F := Ideal) x2 = col (row1 x2) := by
  unfold val_main_v74 val_main_v73 val_main_v70 val_main_v72 val_main_v69 val_main_v71 val_main_c_7 val_main_c_8 val_main_v3 val_main_v2 col row1
  rfl
theorem col_v100 : val_main_v100 (F := Ideal) x2 = col (row1 x2) := by
  unfold val_main_v100 val_main_v99 val_main_v96 val_main_v98 val_main_v95 val_main_v97 val_main_c_10 val_main_c_11 val_main_v3 val_main_v2 col row1
  rfl

end Cols2

/-! ## Reshapes, slabs and broadcasts read at an index -/

section Reads
variable {α : Type}

/-- Slab `o` of a stacked parameter `[2, K, 64]`, without its unit axis, read at `(f, h)`. -/
theorem slab_apply {K : Nat} (o : Nat) (ho : o < 2) (x : (⟨3, ![2, K, 64]⟩ : Shape).Idx → α)
    (hs : (⟨3, ![2, K, 64]⟩ : Shape).Slices ![o, 0, 0] ⟨3, ![1, K, 64]⟩)
    (hc : (⟨3, ![1, K, 64]⟩ : Shape).ShapeCasts ⟨2, ![K, 64]⟩) (f : Fin K) (h : Fin 64) :
    shapeCast ⟨2, ![K, 64]⟩ (extractStridedSlice ⟨3, ![1, K, 64]⟩ ![o, 0, 0] x hs) hc (ix2 f h) = x (ix3 ⟨o, ho⟩ f h) := by
  refine (shapeCast_apply _ hc (ix2 f h) (ix3 0 f h) ?_).trans (extractStridedSlice_apply ![o, 0, 0] x hs _ _ ?_)
  · rewrite [Shape.rowMajor_val_three, Shape.rowMajor_val_two]
    show (0 * K + f.val) * 64 + h.val = f.val * 64 + h.val
    omega
  · intro a
    match a with
    | ⟨0, _⟩ => show o = o + 0; omega
    | ⟨1, _⟩ => show f.val = 0 + f.val; omega
    | ⟨2, _⟩ => show h.val = 0 + h.val; omega

/-- Row `o` of a stacked bias `[2, 64]`, as a row `[1, 64]`, read at `(0, h)`. -/
theorem biasrow_apply (o : Nat) (ho : o < 2) (x : (⟨2, ![2, 64]⟩ : Shape).Idx → α)
    (hs : (⟨2, ![2, 64]⟩ : Shape).Slices ![o, 0] ⟨2, ![1, 64]⟩) (h1 : (⟨2, ![1, 64]⟩ : Shape).ShapeCasts ⟨1, ![64]⟩)
    (h2 : (⟨1, ![64]⟩ : Shape).ShapeCasts ⟨2, ![1, 64]⟩) (z : Fin 1) (h : Fin 64) :
    shapeCast ⟨2, ![1, 64]⟩ (shapeCast ⟨1, ![64]⟩ (extractStridedSlice ⟨2, ![1, 64]⟩ ![o, 0] x hs) h1) h2 (ix2 z h)
      = x (ix2 ⟨o, ho⟩ h) := by
  refine (shapeCast_apply _ h2 (ix2 z h) (ix1 h) ?_).trans ((shapeCast_apply _ h1 (ix1 h) (ix2 0 h) ?_).trans
    (extractStridedSlice_apply ![o, 0] x hs _ _ ?_))
  · rewrite [Shape.rowMajor_val_one, Shape.rowMajor_val_two]
    have := z.isLt
    show h.val = z.val * 64 + h.val
    omega
  · rewrite [Shape.rowMajor_val_two, Shape.rowMajor_val_one]
    show 0 * 64 + h.val = h.val
    omega
  · intro a
    match a with
    | ⟨0, _⟩ => show o = o + 0; omega
    | ⟨1, _⟩ => show h.val = 0 + h.val; omega

/-- An array `[1, N, 64]` without its unit axis, read at `(n, j)`. -/
theorem squeeze_apply {N : Nat} (x : (⟨3, ![1, N, 64]⟩ : Shape).Idx → α)
    (hc : (⟨3, ![1, N, 64]⟩ : Shape).ShapeCasts ⟨2, ![N, 64]⟩) (n : Fin N) (j : Fin 64) :
    shapeCast ⟨2, ![N, 64]⟩ x hc (ix2 n j) = x (ix3 0 n j) := by
  refine shapeCast_apply x hc (ix2 n j) (ix3 0 n j) ?_
  rewrite [Shape.rowMajor_val_three, Shape.rowMajor_val_two]
  show (0 * N + n.val) * 64 + j.val = n.val * 64 + j.val
  omega

/-- An array `[N, 64]` (`N` not one) with a unit axis put in front, read at `(0, n, j)`. -/
theorem unsqueeze_apply {N : Nat} (hN : N ≠ 1) (y : (⟨2, ![N, 64]⟩ : Shape).Idx → α)
    (hb : (⟨2, ![N, 64]⟩ : Shape).BroadcastsInDim ⟨3, ![1, N, 64]⟩ ![1, 2]) (n : Fin N) (j : Fin 64) :
    broadcastInDim ⟨3, ![1, N, 64]⟩ ![1, 2] hb y (ix3 0 n j) = y (ix2 n j) := by
  refine broadcastInDim_apply _ hb y (ix3 0 n j) (ix2 n j) fun a => ?_
  match a with
  | ⟨0, _⟩ => show n.val = if N = 1 then 0 else n.val; rw [if_neg hN]
  | ⟨1, _⟩ => show j.val = if (64 : Nat) = 1 then 0 else j.val; rw [if_neg (by decide)]

end Reads

/-! ## The kernel program's parameters at an index -/

section Params
variable (x0 : BC ⟨Cert.KernelIdeal.S1x50000x64, .f32⟩) (x1 : BC ⟨Cert.KernelIdeal.S1x800000x64, .f32⟩) (x2 : BC ⟨Cert.KernelIdeal.S2x800000, .i32⟩)
  (x3 : BC ⟨Cert.KernelIdeal.S2x192x64, .f32⟩) (x4 : BC ⟨Cert.KernelIdeal.S2x64, .f32⟩) (x5 : BC ⟨Cert.KernelIdeal.S2x64x64, .f32⟩) (x6 : BC ⟨Cert.KernelIdeal.S2x64, .f32⟩)
  (x7 : BC ⟨Cert.KernelIdeal.S2x128x64, .f32⟩) (x8 : BC ⟨Cert.KernelIdeal.S2x64, .f32⟩) (x9 : BC ⟨Cert.KernelIdeal.S2x64x64, .f32⟩) (x10 : BC ⟨Cert.KernelIdeal.S2x64, .f32⟩)

theorem nodes0_apply (n : Fin 50000) (j : Fin 64) : nodes0 x0 (ix2 n j) = x0 (ix3 0 n j) := by
  unfold nodes0; exact squeeze_apply x0 _ n j
theorem edges0_apply (e : Fin 800000) (j : Fin 64) : edges0 x1 (ix2 e j) = x1 (ix3 0 e j) := by
  unfold edges0; exact squeeze_apply x1 _ e j
theorem w1e0_apply (f : Fin 192) (h : Fin 64) : w1e0 x3 (ix2 f h) = x3 (ix3 0 f h) := by
  unfold w1e0; rw [truncf_apply]; exact slab_apply 0 (by decide) x3 _ _ f h
theorem w1e1_apply (f : Fin 192) (h : Fin 64) : w1e1 x3 (ix2 f h) = x3 (ix3 1 f h) := by
  unfold w1e1; rw [truncf_apply]; exact slab_apply 1 (by decide) x3 _ _ f h
theorem w1n0_apply (f : Fin 128) (h : Fin 64) : w1n0 x7 (ix2 f h) = x7 (ix3 0 f h) := by
  unfold w1n0; rw [truncf_apply]; exact slab_apply 0 (by decide) x7 _ _ f h
theorem w1n1_apply (f : Fin 128) (h : Fin 64) : w1n1 x7 (ix2 f h) = x7 (ix3 1 f h) := by
  unfold w1n1; rw [truncf_apply]; exact slab_apply 1 (by decide) x7 _ _ f h
theorem w2_0_apply (h : Fin 64) (j : Fin 64) : w2_0 x5 (ix2 h j) = x5 (ix3 0 h j) := by
  unfold w2_0; rw [truncf_apply]; exact slab_apply 0 (by decide) x5 _ _ h j
theorem w2_1_apply (h : Fin 64) (j : Fin 64) : w2_1 x5 (ix2 h j) = x5 (ix3 1 h j) := by
  unfold w2_1; rw [truncf_apply]; exact slab_apply 1 (by decide) x5 _ _ h j
theorem b_0_apply (h : Fin 64) : b_0 x4 (ix2 0 h) = x4 (ix2 0 h) := by
  unfold b_0; exact biasrow_apply 0 (by decide) x4 _ _ _ 0 h
theorem b_1_apply (h : Fin 64) : b_1 x4 (ix2 0 h) = x4 (ix2 1 h) := by
  unfold b_1; exact biasrow_apply 1 (by decide) x4 _ _ _ 0 h

end Params

/-! ## One layer's three steps, three axes against two -/

section Steps
variable (x2 : BC ⟨Cert.KernelIdeal.S2x800000, .i32⟩)

/-- The edge perceptron's input: the reference's concatenation of the edge features and the two row gathers of the node
    features, read at `(0, e, f)`, is the kernel program's read at `(e, f)` when the edge and node features agree. -/
theorem catE_bridge (ea3 : BC ⟨Cert.KernelIdeal.S1x800000x64, .f32⟩) (ea : BC ⟨Cert.KernelIdeal.S800000x64, .f32⟩)
    (xn3 : BC ⟨Cert.KernelIdeal.S1x50000x64, .f32⟩) (xn : BC ⟨Cert.KernelIdeal.S50000x64, .f32⟩) (i0 i1 : BC ⟨Cert.KernelIdeal.S800000x1, .i32⟩)
    (h0 : i0 = col (row0 x2)) (h1 : i1 = col (row1 x2))
    (hea : ∀ e j, ea3 (ix3 0 e j) = ea (ix2 e j)) (hxn : ∀ n j, xn3 (ix3 0 n j) = xn (ix2 n j))
    (h3 : Shape.Concatenates [Cert.ReferenceIdeal.S1x800000x64, Cert.ReferenceIdeal.S1x800000x64, Cert.ReferenceIdeal.S1x800000x64] Cert.ReferenceIdeal.S1x800000x192 2)
    (e : Fin 800000) (f : Fin 192) :
    concatenate Cert.ReferenceIdeal.S1x800000x192 2 [⟨Cert.ReferenceIdeal.S1x800000x64, ea3⟩, ⟨Cert.ReferenceIdeal.S1x800000x64, Host.gather Cert.ReferenceIdeal.gather_S1x50000x64_S800000x1_S1x800000x64_02_1_n_n_1_1_1164 xn3 i0⟩,
      ⟨Cert.ReferenceIdeal.S1x800000x64, Host.gather Cert.ReferenceIdeal.gather_S1x50000x64_S800000x1_S1x800000x64_02_1_n_n_1_1_1164 xn3 i1⟩] h3 (ix3 0 e f) = catE ea xn x2 (ix2 e f) := by
  subst h0 h1
  unfold catE
  rw [truncf_apply]
  exact concat3_bridge h3 _ _ _ _ _ _ _ hea
    (fun e j => gather_rows_bridge (by decide) _ _ xn3 xn _ hxn e j)
    (fun e j => gather_rows_bridge (by decide) _ _ xn3 xn _ hxn e j) e f

/-- The sums at the destination nodes: the reference's scatter-add into zeros, read at `(0, n, j)`, is the kernel
    program's read at `(n, j)` when the edge features agree. -/
theorem agg_bridge (z3 : BC ⟨Cert.KernelIdeal.S1x50000x64, .f32⟩) (u3 : BC ⟨Cert.KernelIdeal.S1x800000x64, .f32⟩) (u : BC ⟨Cert.KernelIdeal.S800000x64, .f32⟩)
    (i1 : BC ⟨Cert.KernelIdeal.S800000x1, .i32⟩) (h1 : i1 = col (row1 x2)) (hz : ∀ n j, z3 (ix3 0 n j) = Ideal.ofBits .f32 0x00000000#32)
    (hu : ∀ e j, u3 (ix3 0 e j) = u (ix2 e j)) (n : Fin 50000) (j : Fin 64) :
    Host.scatterAdd (F := Ideal) (φ := .f32) Cert.ReferenceIdeal.scatter_S1x50000x64_S800000x1_S1x800000x64_02_1_1_1 z3 i1 u3 (ix3 0 n j) = agg u x2 (ix2 n j) := by
  subst h1
  unfold agg
  rewrite [scatterAdd_ideal, scatterAdd_ideal, scatterR_eq, scatterK_eq]
  refine scatterAdd_rows_bridge Cert.ReferenceIdeal.scatter_S1x50000x64_S800000x1_S1x800000x64_02_1_1_1.wf Cert.KernelIdeal.scatter_S50000x64_S800000x1_S800000x64_1_0_0_1.wf z3 _ u3 u (col (row1 x2)) (fun n b => ?_) hu n j
  rewrite [hz]
  rfl

/-- The node perceptron's input. -/
theorem catN_bridge (xn3 : BC ⟨Cert.KernelIdeal.S1x50000x64, .f32⟩) (xn : BC ⟨Cert.KernelIdeal.S50000x64, .f32⟩)
    (a3 : BC ⟨Cert.KernelIdeal.S1x50000x64, .f32⟩) (a : BC ⟨Cert.KernelIdeal.S50000x64, .f32⟩)
    (hxn : ∀ n j, xn3 (ix3 0 n j) = xn (ix2 n j)) (ha : ∀ n j, a3 (ix3 0 n j) = a (ix2 n j))
    (h3 : Shape.Concatenates [Cert.ReferenceIdeal.S1x50000x64, Cert.ReferenceIdeal.S1x50000x64] Cert.ReferenceIdeal.S1x50000x128 2) (n : Fin 50000) (f : Fin 128) :
    concatenate Cert.ReferenceIdeal.S1x50000x128 2 [⟨Cert.ReferenceIdeal.S1x50000x64, xn3⟩, ⟨Cert.ReferenceIdeal.S1x50000x64, a3⟩] h3 (ix3 0 n f) = catN xn a (ix2 n f) := by
  unfold catN
  rw [truncf_apply]
  exact concat2_bridge h3 _ _ _ _ _ hxn ha n f

end Steps

/-! ## The stages of layer 0 -/

section Stages
variable (x0 : BC ⟨Cert.KernelIdeal.S1x50000x64, .f32⟩) (x1 : BC ⟨Cert.KernelIdeal.S1x800000x64, .f32⟩) (x2 : BC ⟨Cert.KernelIdeal.S2x800000, .i32⟩)
  (x3 : BC ⟨Cert.KernelIdeal.S2x192x64, .f32⟩) (x4 : BC ⟨Cert.KernelIdeal.S2x64, .f32⟩) (x5 : BC ⟨Cert.KernelIdeal.S2x64x64, .f32⟩) (x6 : BC ⟨Cert.KernelIdeal.S2x64, .f32⟩)
  (x7 : BC ⟨Cert.KernelIdeal.S2x128x64, .f32⟩) (x8 : BC ⟨Cert.KernelIdeal.S2x64, .f32⟩) (x9 : BC ⟨Cert.KernelIdeal.S2x64x64, .f32⟩) (x10 : BC ⟨Cert.KernelIdeal.S2x64, .f32⟩)

theorem cat18 (e : Fin 800000) (f : Fin 192) :
    val_main_v18 (F := Ideal) x0 x1 x2 (ix3 0 e f) = catE (edges0 x1) (nodes0 x0) x2 (ix2 e f) := by
  unfold val_main_v18 val_main_v10 val_main_v17
  exact catE_bridge x2 x1 (edges0 x1) x0 (nodes0 x0) _ _ (col_v9 x2) (col_v16 x2)
    (fun e j => (edges0_apply x1 e j).symm) (fun n j => (nodes0_apply x0 n j).symm) _ e f

/-- The edge features after layer 0. -/
theorem E0 (e : Fin 800000) (j : Fin 64) : val_main_v35 (F := Ideal) x0 x1 x2 x3 x4 x5 x6 (ix3 0 e j) = ea1 x0 x1 x2 x3 x4 x5 x6 (ix2 e j) := by
  rw [Cert.MlpRef.ref_edge0]
  unfold ea1 rowsE
  show _ = Cert.Spec.mlpRow (fun f => catE (edges0 x1) (nodes0 x0) x2 (ix2 e f)) (fun f h => w1e0 x3 (ix2 f h))
    (fun h => b_0 x4 (ix2 0 h)) (fun h j => w2_0 x5 (ix2 h j)) (fun j => b_0 x6 (ix2 0 j)) j
  simp only [cat18, w1e0_apply, b_0_apply, w2_0_apply]

end Stages

section Stages0
variable (x0 : BC ⟨Cert.KernelIdeal.S1x50000x64, .f32⟩) (x1 : BC ⟨Cert.KernelIdeal.S1x800000x64, .f32⟩) (x2 : BC ⟨Cert.KernelIdeal.S2x800000, .i32⟩)
  (x3 : BC ⟨Cert.KernelIdeal.S2x192x64, .f32⟩) (x4 : BC ⟨Cert.KernelIdeal.S2x64, .f32⟩) (x5 : BC ⟨Cert.KernelIdeal.S2x64x64, .f32⟩) (x6 : BC ⟨Cert.KernelIdeal.S2x64, .f32⟩)
  (x7 : BC ⟨Cert.KernelIdeal.S2x128x64, .f32⟩) (x8 : BC ⟨Cert.KernelIdeal.S2x64, .f32⟩) (x9 : BC ⟨Cert.KernelIdeal.S2x64x64, .f32⟩) (x10 : BC ⟨Cert.KernelIdeal.S2x64, .f32⟩)

theorem zero_v36 (n : Fin 50000) (j : Fin 64) : val_main_v36 (F := Ideal) (ix3 0 n j) = Ideal.ofBits .f32 0x00000000#32 := by
  unfold val_main_v36 val_main_cst
  rfl

/-- The sums of the new edge features at their destination nodes, layer 0. -/
theorem A0 (n : Fin 50000) (j : Fin 64) : val_main_v43 (F := Ideal) x0 x1 x2 x3 x4 x5 x6 (ix3 0 n j) = agg (ea1 x0 x1 x2 x3 x4 x5 x6) x2 (ix2 n j) := by
  unfold val_main_v43
  exact agg_bridge x2 _ _ _ _ (col_v42 x2) zero_v36 (E0 x0 x1 x2 x3 x4 x5 x6) n j

theorem cat44 (n : Fin 50000) (f : Fin 128) :
    val_main_v44 (F := Ideal) x0 x1 x2 x3 x4 x5 x6 (ix3 0 n f) = catN (nodes0 x0) (agg (ea1 x0 x1 x2 x3 x4 x5 x6) x2) (ix2 n f) := by
  unfold val_main_v44
  exact catN_bridge x0 (nodes0 x0) _ _ (fun n j => (nodes0_apply x0 n j).symm) (A0 x0 x1 x2 x3 x4 x5 x6) _ n f

/-- The node features after layer 0. -/
theorem N0 (n : Fin 50000) (j : Fin 64) : val_main_v61 (F := Ideal) x0 x1 x2 x3 x4 x5 x6 x7 x8 x9 x10 (ix3 0 n j) = xn1 x0 x1 x2 x3 x4 x5 x6 x7 x8 x9 x10 (ix2 n j) := by
  rw [Cert.MlpRef.ref_node0]
  unfold xn1 rowsN
  show _ = Cert.Spec.mlpRow (fun f => catN (nodes0 x0) (agg (ea1 x0 x1 x2 x3 x4 x5 x6) x2) (ix2 n f)) (fun f h => w1n0 x7 (ix2 f h))
    (fun h => b_0 x8 (ix2 0 h)) (fun h j => w2_0 x9 (ix2 h j)) (fun j => b_0 x10 (ix2 0 j)) j
  simp only [cat44, w1n0_apply, b_0_apply, w2_0_apply]

/-! ## The stages of layer 1 -/

theorem cat76 (e : Fin 800000) (f : Fin 192) :
    val_main_v76 (F := Ideal) x0 x1 x2 x3 x4 x5 x6 x7 x8 x9 x10 (ix3 0 e f) = catE (ea1 x0 x1 x2 x3 x4 x5 x6) (xn1 x0 x1 x2 x3 x4 x5 x6 x7 x8 x9 x10) x2 (ix2 e f) := by
  unfold val_main_v76 val_main_v68 val_main_v75
  exact catE_bridge x2 _ _ _ _ _ _ (col_v67 x2) (col_v74 x2) (E0 x0 x1 x2 x3 x4 x5 x6) (N0 x0 x1 x2 x3 x4 x5 x6 x7 x8 x9 x10) _ e f

/-- The edge features after layer 1. -/
theorem E1 (e : Fin 800000) (j : Fin 64) : val_main_v93 (F := Ideal) x0 x1 x2 x3 x4 x5 x6 x7 x8 x9 x10 (ix3 0 e j) = ea2 x0 x1 x2 x3 x4 x5 x6 x7 x8 x9 x10 (ix2 e j) := by
  rw [Cert.MlpRef.ref_edge1]
  unfold ea2 rowsE
  show _ = Cert.Spec.mlpRow (fun f => catE (ea1 x0 x1 x2 x3 x4 x5 x6) (xn1 x0 x1 x2 x3 x4 x5 x6 x7 x8 x9 x10) x2 (ix2 e f)) (fun f h => w1e1 x3 (ix2 f h))
    (fun h => b_1 x4 (ix2 0 h)) (fun h j => w2_1 x5 (ix2 h j)) (fun j => b_1 x6 (ix2 0 j)) j
  simp only [cat76, w1e1_apply, b_1_apply, w2_1_apply]

theorem zero_v94 (n : Fin 50000) (j : Fin 64) : val_main_v94 (F := Ideal) (ix3 0 n j) = Ideal.ofBits .f32 0x00000000#32 := by
  unfold val_main_v94 val_main_cst_9
  rfl

/-- The sums of the new edge features at their destination nodes, layer 1. -/
theorem A1 (n : Fin 50000) (j : Fin 64) : val_main_v101 (F := Ideal) x0 x1 x2 x3 x4 x5 x6 x7 x8 x9 x10 (ix3 0 n j) = agg (ea2 x0 x1 x2 x3 x4 x5 x6 x7 x8 x9 x10) x2 (ix2 n j) := by
  unfold val_main_v101
  exact agg_bridge x2 _ _ _ _ (col_v100 x2) zero_v94 (E1 x0 x1 x2 x3 x4 x5 x6 x7 x8 x9 x10) n j

theorem cat102 (n : Fin 50000) (f : Fin 128) :
    val_main_v102 (F := Ideal) x0 x1 x2 x3 x4 x5 x6 x7 x8 x9 x10 (ix3 0 n f) = catN (xn1 x0 x1 x2 x3 x4 x5 x6 x7 x8 x9 x10) (agg (ea2 x0 x1 x2 x3 x4 x5 x6 x7 x8 x9 x10) x2) (ix2 n f) := by
  unfold val_main_v102
  exact catN_bridge _ _ _ _ (N0 x0 x1 x2 x3 x4 x5 x6 x7 x8 x9 x10) (A1 x0 x1 x2 x3 x4 x5 x6 x7 x8 x9 x10) _ n f

/-- The node features after layer 1. -/
theorem N1 (n : Fin 50000) (j : Fin 64) : val_main_v119 (F := Ideal) x0 x1 x2 x3 x4 x5 x6 x7 x8 x9 x10 (ix3 0 n j) = xn2 x0 x1 x2 x3 x4 x5 x6 x7 x8 x9 x10 (ix2 n j) := by
  rw [Cert.MlpRef.ref_node1]
  unfold xn2 rowsN
  show _ = Cert.Spec.mlpRow (fun f => catN (xn1 x0 x1 x2 x3 x4 x5 x6 x7 x8 x9 x10) (agg (ea2 x0 x1 x2 x3 x4 x5 x6 x7 x8 x9 x10) x2) (ix2 n f)) (fun f h => w1n1 x7 (ix2 f h))
    (fun h => b_1 x8 (ix2 0 h)) (fun h j => w2_1 x9 (ix2 h j)) (fun j => b_1 x10 (ix2 0 j)) j
  simp only [cat102, w1n1_apply, b_1_apply, w2_1_apply]

/-! ## The two results -/

/-- The kernel program's first result is the reference's node features after layer 1. -/
theorem res0_eq : res0 x0 x1 x2 x3 x4 x5 x6 x7 x8 x9 x10 = val_main_v119 (F := Ideal) x0 x1 x2 x3 x4 x5 x6 x7 x8 x9 x10 := by
  funext i
  obtain ⟨n, j, rfl⟩ := exists_ix3_zero i
  unfold res0
  rw [N1]
  exact unsqueeze_apply (by decide) _ _ n j

/-- The kernel program's second result is the reference's edge features after layer 1. -/
theorem res1_eq : res1 x0 x1 x2 x3 x4 x5 x6 x7 x8 x9 x10 = val_main_v93 (F := Ideal) x0 x1 x2 x3 x4 x5 x6 x7 x8 x9 x10 := by
  funext i
  obtain ⟨e, j, rfl⟩ := exists_ix3_zero i
  unfold res1
  rw [E1]
  exact unsqueeze_apply (by decide) _ _ e j

end Stages0

end Cert.Bridge

end
-- ==== Proof.lean ====
/-
  The certificate of a two-layer message-passing network. Per layer both programs concatenate each edge's features with
  the node features at its two endpoints, apply a two-layer perceptron with the silu activation row by row, add the new
  edge features up at their destination nodes, concatenate each node's features with its sum and apply a second
  perceptron row by row. The kernel program runs the four perceptrons as tiled kernels over arrays without the unit
  batch axis, rounding their inputs to a narrower format on the way; the reference keeps the batch axis and applies
  the perceptrons as matrix products on the host.

  Over the extended reals a change of float format is the identity, a matrix product is the finite sum of the products
  whatever its tiling, the logistic function is 1 / (1 + e^(−x)) in both spellings, and the sum of the updates landing
  on a node does not depend on their order. So both programs compute the same function of the arguments, index by index
  (the batch axis has extent one: the index (0, a, b) of the reference's arrays is the index (a, b) of the kernel's).

  The frames: each kernel region reads five whole-block windows and overwrites its output tile; between the regions the
  host operations write buffers of their own; no argument array is ever written. The reference is a line of host
  operations, none of which writes an argument.
-/
import proofs.«174539_j57174604644524_1_alg».proof.Defs
import proofs.«174539_j57174604644524_1_alg».proof.Proof.Gen.Kernel
import proofs.«174539_j57174604644524_1_alg».proof.Proof.Gen.KernelIdeal
import proofs.«174539_j57174604644524_1_alg».proof.Proof.Gen.ReferenceIdeal
import proofs.«174539_j57174604644524_1_alg».proof.Proof.Gen.Pre_finite_inputs
import proofs.«174539_j57174604644524_1_alg».proof.Proof.BitsRun
import proofs.«174539_j57174604644524_1_alg».proof.Proof.KRun
import proofs.«174539_j57174604644524_1_alg».proof.Proof.RefFold
import proofs.«174539_j57174604644524_1_alg».proof.Proof.Bridge

noncomputable section

namespace Cert.Proof

open Idealize.ShloMosaic Idealize.ShloMosaic.TcCoe Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2.2) (Cert.Kernel.Fr.run_res (F := Bits) m ρ)

/-- So does the idealized kernel program. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Fr.run_res (F := Ideal) m ρ)

/-- So does the idealized reference: a line of host operations, none writing an argument. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.RefFold.ref_run m ρ)

/-- The idealization rewrote no operation. -/
theorem preserves : Cert.preserves_Kernel_KernelIdeal := trivial

/-- From memories agreeing on the arguments both idealized programs end with the same two results: the kernel program's
    closed forms of the arguments, which are the reference's stages index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KF.res0 (Cert.KernelIdeal.KR.arg m c Cert.KernelIdeal.main_arg0) (Cert.KernelIdeal.KR.arg m c Cert.KernelIdeal.main_arg1) (Cert.KernelIdeal.KR.arg m c Cert.KernelIdeal.main_arg2) (Cert.KernelIdeal.KR.arg m c Cert.KernelIdeal.main_arg3) (Cert.KernelIdeal.KR.arg m c Cert.KernelIdeal.main_arg4) (Cert.KernelIdeal.KR.arg m c Cert.KernelIdeal.main_arg5) (Cert.KernelIdeal.KR.arg m c Cert.KernelIdeal.main_arg6) (Cert.KernelIdeal.KR.arg m c Cert.KernelIdeal.main_arg7) (Cert.KernelIdeal.KR.arg m c Cert.KernelIdeal.main_arg8) (Cert.KernelIdeal.KR.arg m c Cert.KernelIdeal.main_arg9) (Cert.KernelIdeal.KR.arg m c Cert.KernelIdeal.main_arg10),
    fun c => Cert.KernelIdeal.KF.res1 (Cert.KernelIdeal.KR.arg m c Cert.KernelIdeal.main_arg0) (Cert.KernelIdeal.KR.arg m c Cert.KernelIdeal.main_arg1) (Cert.KernelIdeal.KR.arg m c Cert.KernelIdeal.main_arg2) (Cert.KernelIdeal.KR.arg m c Cert.KernelIdeal.main_arg3) (Cert.KernelIdeal.KR.arg m c Cert.KernelIdeal.main_arg4) (Cert.KernelIdeal.KR.arg m c Cert.KernelIdeal.main_arg5) (Cert.KernelIdeal.KR.arg m c Cert.KernelIdeal.main_arg6) (Cert.KernelIdeal.KR.arg m c Cert.KernelIdeal.main_arg7) (Cert.KernelIdeal.KR.arg m c Cert.KernelIdeal.main_arg8) (Cert.KernelIdeal.KR.arg m c Cert.KernelIdeal.main_arg9) (Cert.KernelIdeal.KR.arg m c Cert.KernelIdeal.main_arg10),
    ?_, ?_⟩
  · exact (θ_run (Cert.KernelIdeal.defs (F := Ideal)) _ _).mono
      (fun _ h c => ⟨(h c).1.trans (Cert.KernelIdeal.KR.x9_v110 m c), (h c).2.1.trans (Cert.KernelIdeal.KR.x9_v111 m c), (h c).2.2⟩)
      (Cert.KernelIdeal.Fr.run_res (F := Ideal) m ρ)
  · refine (θ_run (Cert.ReferenceIdeal.defs (F := Ideal)) _ _).mono (fun _ h c => ⟨(h c).1.trans ?_, (h c).2.1.trans ?_, (h c).2.2⟩)
      (Cert.RefFold.ref_run m' ρ')
    · obtain ⟨e0, e1, e2, e3, e4, e5, e6, e7, e8, e9, e10⟩ := hagree c
      rw [e0, e1, e2, e3, e4, e5, e6, e7, e8, e9, e10]
      exact (Cert.Bridge.res0_eq _ _ _ _ _ _ _ _ _ _ _).symm
    · obtain ⟨e0, e1, e2, e3, e4, e5, e6, e7, e8, e9, e10⟩ := hagree c
      rw [e0, e1, e2, e3, e4, e5, e6, e7, e8, e9, e10]
      exact (Cert.Bridge.res1_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
